-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1001x128 : Shape := ⟨2, ![1001, 128]⟩
abbrev S_ : Shape := ⟨0, ![]⟩

class Facts : Prop where
  bcast_S_S1001x128 : S_.BroadcastsInDim S1001x128 (![] : Fin 0 → Fin S1001x128.rank)
  reducesTo_S1001x128_S_d0_1 : S1001x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1001x128 .f32) : IVec S_ 1 :=
  let main_v0 : FVec F S1001x128 .f32 := Host.absf main_arg1
  let main_cst : FVec F S_ .f32 := constant S_ .f32 0x7F800000#32
  let main_v1 : FVec F S1001x128 .f32 := broadcastInDim S1001x128 ![] bcast_S_S1001x128 main_cst
  let main_v2 : IVec S1001x128 1 := cmpf .olt main_v0 main_v1
  let main_c : IVec S_ 1 := constantI S_ 1 1#1
  let main_v3 : IVec S_ 1 := (fun x v => Host.reduce IntOp.andi x v reducesTo_S1001x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 1000#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1001x128 : Shape := ⟨2, ![1001, 128]⟩
abbrev S256x64 : Shape := ⟨2, ![256, 64]⟩
abbrev S16384x128 : Shape := ⟨2, ![16384, 128]⟩
abbrev S8x64 : Shape := ⟨2, ![8, 64]⟩
abbrev S8x64x128 : Shape := ⟨3, ![8, 64, 128]⟩
abbrev S1024x128 : Shape := ⟨2, ![1024, 128]⟩
abbrev S_ : Shape := ⟨0, ![]⟩
abbrev S64x128 : Shape := ⟨2, ![64, 128]⟩
abbrev S41x128 : Shape := ⟨2, ![41, 128]⟩
abbrev S1x64x128 : Shape := ⟨3, ![1, 64, 128]⟩
abbrev S1x64 : Shape := ⟨2, ![1, 64]⟩
abbrev S64 : Shape := ⟨1, ![64]⟩

abbrev nBuf : Table → Nat
  | .hbm => 4
  | .shared => 1
  | .local .scVector .vmem => 2
  | _ => 0

abbrev bufTy : (tb : Table) → Fin (nBuf tb) → BufTy
  | .hbm, ⟨0, _⟩ => ⟨S16384, .i32⟩
  | .hbm, ⟨1, _⟩ => ⟨S1001x128, .f32⟩
  | .hbm, ⟨2, _⟩ => ⟨S256x64, .i32⟩
  | .hbm, ⟨3, _⟩ => ⟨S16384x128, .f32⟩
  | .shared, ⟨0, _⟩ => ⟨S1024x128, .f32⟩
  | .local .scVector .vmem, ⟨0, _⟩ => ⟨S8x64, .i32⟩
  | .local .scVector .vmem, ⟨1, _⟩ => ⟨S8x64x128, .f32⟩
  | _, _ => ⟨S16384, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 5 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 32 := Scalar.muli v1 c8_i32
  let c0_i32_221_r0 : BitVec 32 := 0#32
  ![v3.toNat, 0]
def k0_cond1 (i : grid0.Coords) : BitVec 1 :=
  let arg1 : BitVec 32 := BitVec.ofNat 32 (i 1).val
  let c15_i32 : BitVec 32 := 15#32
  let v4 : BitVec 1 := Scalar.cmpi .slt arg1 c15_i32
  let v5 : BitVec 32 := Scalar.extui v4
  let c0_i32 : BitVec 32 := 0#32
  let v6 : BitVec 1 := Scalar.cmpi .ne v5 c0_i32
  v6

def k0_mult1 (i : grid0.Coords) : BitVec 32 :=
  let arg1 : BitVec 32 := BitVec.ofNat 32 (i 1).val
  let c64_i32_221 : BitVec 32 := 64#32
  let v194 : BitVec 32 := Scalar.muli arg1 c64_i32_221
  v194
def k0_off2 (i : grid0.Coords) : Fin 2 → Nat :=
  let arg1 : BitVec 32 := BitVec.ofNat 32 (i 1).val
  let c64_i32_221 : BitVec 32 := 64#32
  let v194 : BitVec 32 := Scalar.muli arg1 c64_i32_221
  let v195 : BitVec 32 := v194
  let c0_i32_222_r1 : BitVec 32 := 0#32
  ![v195.toNat, 0]
def k0_off3 (i : grid0.Coords) : Fin 2 → Nat :=
  let arg1 : BitVec 32 := BitVec.ofNat 32 (i 1).val
  let c64_i32_221 : BitVec 32 := 64#32
  let v194 : BitVec 32 := Scalar.muli arg1 c64_i32_221
  let v195 : BitVec 32 := v194
  let c0_i32_223_r1 : BitVec 32 := 0#32
  ![v195.toNat, 0]
def k0_off4 (i : grid0.Coords) (c0_i32_59 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v55 : BitVec 32 := Scalar.addi v2 c0_i32_59
  let c0_i32_63 : BitVec 32 := 0#32
  ![v55.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S256x64 : S16384.ShapeCasts S256x64
  inb_S1024x128_S41x128_960_0 : ∀ a, (![960, 0] : Fin 2 → Nat) a + S41x128.size a ≤ S1024x128.size a
  inb_S1001x128_S41x128_960_0 : ∀ a, (![960, 0] : Fin 2 → Nat) a + S41x128.size a ≤ S1001x128.size a
  inb_S8x64x128_S1x64x128_0_0_0 : ∀ a, (![0, 0, 0] : Fin 3 → Nat) a + S1x64x128.size a ≤ S8x64x128.size a
  squeezes_S1x64x128_S64x128 : S1x64x128.Squeezes S64x128
  inb_S8x64_S1x64_0_0 : ∀ a, (![0, 0] : Fin 2 → Nat) a + S1x64.size a ≤ S8x64.size a
  squeezes_S1x64_S64 : S1x64.Squeezes S64
  inb_S1024x128_S1024x128_0_0 : ∀ a, (![0, 0] : Fin 2 → Nat) a + S1024x128.size a ≤ S1024x128.size a
  gathers_S1024x128_S64x128 : S1024x128.Gathers 0 S64x128
  inb_S8x64x128_S1x64x128_1_0_0 : ∀ a, (![1, 0, 0] : Fin 3 → Nat) a + S1x64x128.size a ≤ S8x64x128.size a
  inb_S8x64_S1x64_1_0 : ∀ a, (![1, 0] : Fin 2 → Nat) a + S1x64.size a ≤ S8x64.size a
  inb_S8x64x128_S1x64x128_2_0_0 : ∀ a, (![2, 0, 0] : Fin 3 → Nat) a + S1x64x128.size a ≤ S8x64x128.size a
  inb_S8x64_S1x64_2_0 : ∀ a, (![2, 0] : Fin 2 → Nat) a + S1x64.size a ≤ S8x64.size a
  inb_S8x64x128_S1x64x128_3_0_0 : ∀ a, (![3, 0, 0] : Fin 3 → Nat) a + S1x64x128.size a ≤ S8x64x128.size a
  inb_S8x64_S1x64_3_0 : ∀ a, (![3, 0] : Fin 2 → Nat) a + S1x64.size a ≤ S8x64.size a
  inb_S8x64x128_S1x64x128_4_0_0 : ∀ a, (![4, 0, 0] : Fin 3 → Nat) a + S1x64x128.size a ≤ S8x64x128.size a
  inb_S8x64_S1x64_4_0 : ∀ a, (![4, 0] : Fin 2 → Nat) a + S1x64.size a ≤ S8x64.size a
  inb_S8x64x128_S1x64x128_5_0_0 : ∀ a, (![5, 0, 0] : Fin 3 → Nat) a + S1x64x128.size a ≤ S8x64x128.size a
  inb_S8x64_S1x64_5_0 : ∀ a, (![5, 0] : Fin 2 → Nat) a + S1x64.size a ≤ S8x64.size a
  inb_S8x64x128_S1x64x128_6_0_0 : ∀ a, (![6, 0, 0] : Fin 3 → Nat) a + S1x64x128.size a ≤ S8x64x128.size a
  inb_S8x64_S1x64_6_0 : ∀ a, (![6, 0] : Fin 2 → Nat) a + S1x64.size a ≤ S8x64.size a
  inb_S8x64x128_S1x64x128_7_0_0 : ∀ a, (![7, 0, 0] : Fin 3 → Nat) a + S1x64x128.size a ≤ S8x64x128.size a
  inb_S8x64_S1x64_7_0 : ∀ a, (![7, 0] : Fin 2 → Nat) a + S1x64.size a ≤ S8x64.size a
  hcc0_scratch3 : 0 + S_.numel ≤ 12
  hcc0_scratch4 : 1 + S_.numel ≤ 12
  hcc0_scratch5 : 2 + S_.numel ≤ 12
  hcc0_scratch6 : 3 + S_.numel ≤ 12
  hcc0_scratch7 : 4 + S_.numel ≤ 12
  hcc0_scratch8 : 5 + S_.numel ≤ 12
  hcc0_scratch9 : 6 + S_.numel ≤ 12
  hcc0_scratch10 : 7 + S_.numel ≤ 12
  hcc0_scratch11 : 8 + S_.numel ≤ 12
  hcc0_scoped0 : 9 + S_.numel ≤ 12
  hcc0_scoped1 : 10 + S_.numel ≤ 12
  hcc0_scoped2 : 11 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x64.size a ≤ S256x64.size a
  k0_mult1_dvd : ∀ i : grid0.Coords, ∀ (k0_h1 : k0_cond1 i = 1#1), 8 ∣ (k0_mult1 i).toNat
  k0_off2_inb : ∀ i : grid0.Coords, ∀ (k0_h1 : k0_cond1 i = 1#1), ∀ a, (k0_off2 i) a + S64x128.size a ≤ S1024x128.size a
  k0_off3_inb : ∀ i : grid0.Coords, ∀ (k0_h1 : k0_cond1 i = 1#1), ∀ a, (k0_off3 i) a + S64x128.size a ≤ S1001x128.size a
  k0_off4_inb : ∀ i : grid0.Coords, ∀ (r : Fin 8), ∀ a, (k0_off4 i (BitVec.ofNat 32 (64 * r.val))) a + S64x128.size a ≤ S16384x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scoped0 : DmaSems sig S_ := SemArray.consecutive 9 S_ hcc0_scoped0
abbrev cc0_scoped1 : DmaSems sig S_ := SemArray.consecutive 10 S_ hcc0_scoped1
abbrev cc0_scoped2 : DmaSems sig S_ := SemArray.consecutive 11 S_ hcc0_scoped2

class Facts : Prop extends Facts₀ where

variable [Facts]
-- ==== ReferenceIdeal.lean ====
abbrev S16384 : Shape := ⟨1, ![16384]⟩
abbrev S1001x128 : Shape := ⟨2, ![1001, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1001x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S1001x128_S16384x1_S16384x128_1_0_n_n_0_1_1128_wf : GatherDims.WF S1001x128 S16384x1 S16384x128 [1] [0] [] [0] [] 1 ![1, 128]

variable [Facts₀]

def gather_S1001x128_S16384x1_S16384x128_1_0_n_n_0_1_1128 : GatherDims S1001x128 S16384x1 S16384x128 where
  offsetDims := [1]
  collapsedSliceDims := [0]
  operandBatchingDims := []
  startIndicesBatchingDims := []
  startIndexMap := [0]
  indexVectorDim := 1
  sliceSizes := ![1, 128]
  wf := gather_S1001x128_S16384x1_S16384x128_1_0_n_n_0_1_1128_wf

class Facts : Prop extends Facts₀ where

variable [Facts]
-- ==== Proof.Spec.lean ====
/-
  The specification both programs meet: an embedding lookup. The table has 1001 rows of 128 numbers; the index
  array has 16384 words; row `r` of the result is the table's row named by word `r`, the word read as a signed
  integer and brought into the table's row range `0 … 1000` (under the certificate's precondition every word already
  lies there, so the clamp changes nothing; it only makes the function total).
-/
import Idealize.ShloMosaic.PureOps
import Idealize.ShloMosaic.Lib.ValueIdx

namespace Cert.Spec

open Idealize.ShloMosaic Idealize.ShloMosaic.ValueIdx

/-- The index array's shape. -/
abbrev SIdx : Shape := ⟨1, ![16384]⟩
/-- The table's shape. -/
abbrev STab : Shape := ⟨2, ![1001, 128]⟩
/-- The result's shape. -/
abbrev SOut : Shape := ⟨2, ![16384, 128]⟩

/-- The table row that index word `r` names: the word as a signed integer, clamped into `0 … 1000`. -/
def row (y : IVec SIdx 32) (r : Fin 16384) : Fin 1001 :=
  ⟨min (y (ix1 r)).toInt.toNat 1000, by omega⟩

/-- The lookup: entry `(r, k)` of the result is entry `(row y r, k)` of the table. -/
def lookup {α : Type} (y : IVec SIdx 32) (t : STab.Idx → α) : SOut.Idx → α :=
  fun i => t (ix2 (row y ⟨(i 0).val, idx2_lt0 i⟩) ⟨(i 1).val, idx2_lt1 i⟩)

/-- The lookup read at explicit coordinates. -/
theorem lookup_ix2 {α : Type} (y : IVec SIdx 32) (t : STab.Idx → α) (r : Fin 16384) (k : Fin 128) :
    lookup y t (ix2 r k) = t (ix2 (row y r) k) := rfl

/-- Where the word is a signed integer in `0 … 1000`, the row it names is the word itself. -/
theorem row_val_of_range (y : IVec SIdx 32) (r : Fin 16384)
    (h0 : 0 ≤ (y (ix1 r)).toInt) (h1 : (y (ix1 r)).toInt ≤ 1000) :
    (row y r).val = (y (ix1 r)).toNat := by
  have hnat : (y (ix1 r)).toInt = ((y (ix1 r)).toNat : Int) := by
    rw [BitVec.toInt_eq_toNat_cond]
    split
    · rfl
    · rename_i hlt
      exfalso
      have := (y (ix1 r)).isLt
      rw [BitVec.toInt_eq_toNat_cond, if_neg hlt] at h0
      omega
  show min (y (ix1 r)).toInt.toNat 1000 = _
  rw [hnat] at h1 ⊢
  simp only [Int.toNat_natCast]
  omega

end Cert.Spec
-- ==== Proof.KiSetup.lean ====
/-
  The kernel as a family of threads: what every part of its proof shares.
  One call on both SparseCores, sixteen vector subcores each. Tile `(c, s)` copies eight rows of the reshaped index
  array into its index scratch, copies its 64-row slab of the table (the last tile: rows 960 … 1000) into its
  SparseCore's shared memory, meets its fifteen siblings at the subcore barrier, gathers eight blocks of 64 table rows
  out of the shared copy, and writes each block to its 64 rows of the result.
  Stated here: the contents each array holds at each stage (`Y2`, the reshaped indices; `Gout`, the result as the
  specification's `lookup`); the sets of elements the threads exchange (`chunkSet`, 64 rows of the result; `slabSet`,
  64 rows of the shared copy); the barrier's schedule, in which each tile's arrival at a sibling hands that sibling a
  read share of the slab it has staged (`bPay`), so that after the barrier every tile may read the whole shared copy;
  and what the launch's handshakes carry (`P`).
-/
import proofs.«204386_g68401649156761_cont_9to1_m_854_20_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204386_g68401649156761_cont_9to1_m_854_20_alg».proof.Proof.Gen.KernelIdeal
import proofs.«204386_g68401649156761_cont_9to1_m_854_20_alg».proof.Proof.Gen.KernelIdeal.Skeleton
import proofs.«204386_g68401649156761_cont_9to1_m_854_20_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and what they hold -/

variable (m : (ℓ : Loc nD τ sig) → Buf (Elt F) ℓ) (ρ : Dev nD → PrngReg)

/-- The index array and the table (the arguments), the reshaped index array, the result, on device `d`. -/
abbrev yLoc (d : Dev nD) : Loc nD τ sig := (SparseCore.T d).loc main_arg0
abbrev tLoc (d : Dev nD) : Loc nD τ sig := (SparseCore.T d).loc main_arg1
abbrev y2Loc (d : Dev nD) : Loc nD τ sig := (SparseCore.T d).loc main_v0
abbrev oLoc (d : Dev nD) : Loc nD τ sig := (SparseCore.T d).loc main_v1
/-- SparseCore `c`'s shared memory, as every tile of it addresses it. -/
abbrev shRef (c : Fin τ.nSC) : DevRef τ sig := ⟨.shared, ⟨0, by decide⟩, c⟩
abbrev shLoc (d : Dev nD) (c : Fin τ.nSC) : Loc nD τ sig := (d, shRef c)

local notation "y2V" => (Memref.whole Cert.KernelIdeal.main_v0_scv : Memref Cert.KernelIdeal.sig Kind.scVector Space.hbm Cert.KernelIdeal.S256x64 EltTy.i32)
local notation "tV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "shV" => (Memref.whole Cert.KernelIdeal.cc0_scratch2 : Memref Cert.KernelIdeal.sig Kind.scVector Space.shared Cert.KernelIdeal.S1024x128 EltTy.f32)

theorem nSub_eq : τ.nSub = 16 := rfl

/-- The reshaped index array: the index words in row-major order at 256 rows of 64. -/
def Y2 (d : Dev nD) : Buf (Elt F) (y2Loc d) :=
  fun i => shapeCast S256x64 (m (yLoc d) : IVec S16384 32) shapeCasts_S16384_S256x64 i

/-- The result: the specification's lookup of the two arguments. -/
def Gout (d : Dev nD) : Buf (Elt F) (oLoc d) :=
  (Cert.Spec.lookup (m (yLoc d) : IVec Cert.Spec.SIdx 32) (m (tLoc d) : Cert.Spec.STab.Idx → Elt F .f32) : Cert.Spec.SOut.Idx → Elt F .f32)

/-- Which half of a read share SparseCore `c` of the call is dealt. -/
def coreShare (c : ℕ) : PosShare TreeShare := if c = 0 then fullShare.left else fullShare.right

/-! ## Chunks of the result, slabs of the shared copy -/

theorem h256 : 256 ∣ S16384x128.size 0 := ⟨64, rfl⟩
/-- The `w`-th run of 64 rows of the result. -/
abbrev chunk (w : Fin 256) : Rect S16384x128 := Rect.part (s := S16384x128) (a₀ := 0) h256 w
abbrev chunkSet (w : Fin 256) : Finset S16384x128.Idx := ((oV).view.slice (chunk w)).set
/-- The chunk tile `(c, s)` writes its `j`-th block of gathered rows to. -/
def chunkIx (c : Fin 2) (s : Fin 16) (j : Fin 8) : Fin 256 := ⟨16 * s.val + 8 * c.val + j.val, by omega⟩

theorem h16 : 16 ∣ S1024x128.size 0 := ⟨64, rfl⟩
/-- The `i`-th run of 64 rows of the shared copy: the slab tile `i` stages. -/
abbrev slab (i : Fin 16) : Rect S1024x128 := Rect.part (s := S1024x128) (a₀ := 0) h16 i
abbrev slabSet (i : Fin 16) : Finset S1024x128.Idx := ((shV).view.slice (slab i)).set

variable [FloatOps F]

/-- The shared copy's contents `f` hold the table on the rows of slab `i` that are rows of the table. -/
def Staged (d : Dev nD) (c : Fin τ.nSC) (i : ℕ) (f : Buf (Elt F) (shLoc d c)) : Prop :=
  ∀ (r : Fin 1024) (k : Fin 128) (hr : r.val < 1001), r.val / 64 = i →
    (f : S1024x128.Idx → Elt F .f32) (ix2 r k) = (m (tLoc d) : S1001x128.Idx → Elt F .f32) (ix2 ⟨r.val, hr⟩ k)

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What tile `n`'s arrival in tile `j`'s round hands over: tile `j`'s read share of the slab tile `n` has staged, at
    contents that hold the table there. -/
def bPay (g : GSem nD τ sig) (n : ℕ) : sProp 𝕄 :=
  match g with
  | ((d, .scVector c j), _) =>
      if h : n < 16 then iprop(∃ f : Buf (Elt F) (shLoc d c), ⌜Staged m d c n f⌝ ∗ shLoc d c ↦[slabSet ⟨n, h⟩]{shareTok fullShare 16 (Fin.cast nSub_eq j)} f)
      else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every sibling's cell invariant and that each has reached round 0, its own position at the
    origin of round 0, its duty token in every sibling's round 0, and the credit for the sixteen units of its own. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- Tile `(c, i)`'s read tokens of the reshaped indices and of the table, out of its SparseCore's half. -/
abbrev y2Tok (d : Dev nD) (c : ℕ) (i : Fin 16) : sProp 𝕄 := y2Loc d ↦{shareTok (coreShare c) 16 i} Y2 m d
abbrev tTok (d : Dev nD) (c : ℕ) (i : Fin 16) : sProp 𝕄 := tLoc d ↦{shareTok (coreShare c) 16 i} m (tLoc d)
/-- The eight chunks of the result tile `(c, i)` writes, at contents `f`. -/
abbrev oChunks (d : Dev nD) (c : Fin 2) (i : Fin 16) (f : Buf (Elt F) (oLoc d)) : sProp 𝕄 :=
  bigSep Finset.univ fun j : Fin 8 => oLoc d ↦[chunkSet (chunkIx c i j)]{fullShare} f

/-- What SparseCore `c` of the call takes and brings back: its half shares of the indices and the table, and its
    tiles' chunks of the result, which come back holding the lookup. -/
abbrev stC (d : Dev nD) (c : Fin 2) (f : Buf (Elt F) (oLoc d)) : sProp 𝕄 :=
  iprop((y2Loc d ↦{coreShare c.val} Y2 m d) ∗ (tLoc d ↦{coreShare c.val} m (tLoc d)) ∗ bigSep Finset.univ fun i : Fin 16 => oChunks d c i f)

/-- What a task takes: its tokens, its chunks of the result, its slab of the shared memory at whatever it holds; -/
abbrev goT (d : Dev nD) (c : Fin 2) (sc : Fin τ.nSC) (i : Fin 16) : sProp 𝕄 :=
  iprop(y2Tok m d c.val i ∗ tTok m d c.val i ∗ oChunks d c i (m (oLoc d)) ∗ ∃ f, shLoc d sc ↦[slabSet i]{fullShare} f)
/-- and what it brings back: the tokens, the chunks holding the lookup, its read token of the whole shared memory and
    what it kept of its own slab. -/
abbrev tdT (d : Dev nD) (c : Fin 2) (sc : Fin τ.nSC) (i : Fin 16) : sProp 𝕄 :=
  iprop(y2Tok m d c.val i ∗ tTok m d c.val i ∗ oChunks d c i (Gout m d)
    ∗ (∃ g, shLoc d sc ↦{shareTok fullShare 16 i} g) ∗ ∃ f, shLoc d sc ↦[slabSet i]{shareDrop fullShare 16} f)

def P : (K (F := F)).Pay (nD := nD) (Val := Elt F) (Name := ℕ) (U := UU) where
  st := fun q d c => match q with | 0 => stC m d (Fin.cast nCore_zero c) (m (oLoc d))
  dn := fun q d c => match q with | 0 => stC m d (Fin.cast nCore_zero c) (Gout m d)
  go := fun q d c i => match q with | 0 => goT m d (Fin.cast nCore_zero c) (coreOf c) (Fin.cast nSub_zero i)
  td := fun q d c i => match q with | 0 => tdT m d (Fin.cast nCore_zero c) (coreOf c) (Fin.cast nSub_zero i)
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m).IsStorable where
  st q d c := match q with
    | 0 => (inferInstance : BI.Storable (upEmb : UEmb _ 𝕄) (stC m d (Fin.cast nCore_zero c) (m (oLoc d))))
  dn q d c := match q with
    | 0 => (inferInstance : BI.Storable (upEmb : UEmb _ 𝕄) (stC m d (Fin.cast nCore_zero c) (Gout m d)))
  go q d c i := match q with
    | 0 => (inferInstance : BI.Storable (upEmb : UEmb _ 𝕄) (goT m d (Fin.cast nCore_zero c) (coreOf c) (Fin.cast nSub_zero i)))
  td q d c i := match q with
    | 0 => (inferInstance : BI.Storable (upEmb : UEmb _ 𝕄) (tdT m d (Fin.cast nCore_zero c) (coreOf c) (Fin.cast nSub_zero i)))

end Cert.Proof.KI

end
-- ==== Proof.PreFacts.lean ====
/-
  What the certificate's precondition says of the index words. The precondition is the conjunction of two
  all-reductions: every table entry is finite, and every index word, read as a signed integer, lies in `0 … 1000`.
  Here the second conjunct is read back at one word: the reduction by `and` that came out `1` had a `1` at every
  word, that `1` is the `and` of two signed comparisons, against the constant `0` from below and the constant
  `1000` from above. Consequences: the word's unsigned reading is below `1001`, and the row the specification
  reads for that word is the word itself (the clamp is the identity).
-/
import proofs.«204386_g68401649156761_cont_9to1_m_854_20_alg».proof.Pre_input_domain
import proofs.«204386_g68401649156761_cont_9to1_m_854_20_alg».proof.Proof.Gen.Pre_input_domain
import proofs.«204386_g68401649156761_cont_9to1_m_854_20_alg».proof.Proof.Spec
import Idealize.ShloMosaic.Lib.ValueIdx
import Idealize.ShloMosaic.Lib.ReduceAll

namespace Cert.PreFacts

open Idealize.ShloMosaic Idealize.ShloMosaic.ValueIdx

/-- The scalar shape has one index. -/
instance : Subsingleton Cert.Pre_input_domain.S_.Idx := ⟨fun a b => funext fun d => d.elim0⟩

/-- Under the precondition every index word is a signed integer in `0 … 1000`. -/
theorem index_range {F : FTy → Type} [FloatOps F] [Cert.Pre_input_domain.Facts]
    (y : IVec Cert.Pre_input_domain.S16384 32) (t : FVec F Cert.Pre_input_domain.S1001x128 .f32)
    (h : Cert.Pre_input_domain.fn (F := F) y t = fun _ => 1#1) :
    ∀ r : Fin 16384, 0 ≤ (y (ix1 r)).toInt ∧ (y (ix1 r)).toInt ≤ 1000 := by
  intro r
  -- the precondition at the scalar shape's one index: the `and` of the two all-reductions is `1`
  have h0 := congrFun h ix0
  dsimp only [Cert.Pre_input_domain.fn] at h0
  -- so the reduction over the index words is `1` …
  obtain ⟨-, h9⟩ := IntOp.andi_eq_one.1 h0
  -- … hence its operand is `1` at word `r`,
  have hr := Host.reduce_andi_all _ _ _ _ _ h9 (ix1 r)
  -- and that operand is the `and` of the two comparisons
  obtain ⟨hge, hle⟩ := IntOp.andi_eq_one.1 hr
  have hge' : (0#32 : BitVec 32).toInt ≤ (y (ix1 r)).toInt := IntOp.cmpi_sge.1 hge
  have hle' : (y (ix1 r)).toInt ≤ (1000#32 : BitVec 32).toInt := IntOp.cmpi_sle.1 hle
  have e0 : (0#32 : BitVec 32).toInt = 0 := by decide
  have e1 : (1000#32 : BitVec 32).toInt = 1000 := by decide
  rw [e0] at hge'
  rw [e1] at hle'
  exact ⟨hge', hle'⟩

/-- Under the precondition every index word's unsigned reading names a row of the table. -/
theorem index_lt {F : FTy → Type} [FloatOps F] [Cert.Pre_input_domain.Facts]
    (y : IVec Cert.Pre_input_domain.S16384 32) (t : FVec F Cert.Pre_input_domain.S1001x128 .f32)
    (h : Cert.Pre_input_domain.fn (F := F) y t = fun _ => 1#1) :
    ∀ r : Fin 16384, (y (ix1 r)).toNat < 1001 := by
  intro r
  obtain ⟨h0, h1⟩ := index_range y t h r
  -- a nonnegative signed reading is the unsigned reading
  have hlt := (y (ix1 r)).isLt
  rw [BitVec.toInt_eq_toNat_cond] at h0 h1
  split at h0 <;> omega

/-- The same bound against the next power of two, `2 ^ 10`. -/
theorem index_lt_1024 {F : FTy → Type} [FloatOps F] [Cert.Pre_input_domain.Facts]
    (y : IVec Cert.Pre_input_domain.S16384 32) (t : FVec F Cert.Pre_input_domain.S1001x128 .f32)
    (h : Cert.Pre_input_domain.fn (F := F) y t = fun _ => 1#1) :
    ∀ r : Fin 16384, (y (ix1 r)).toNat < 1024 :=
  fun r => Nat.lt_trans (index_lt y t h r) (by decide)

/-- Under the precondition the row the specification reads for word `r` is the word itself. -/
theorem row_eq {F : FTy → Type} [FloatOps F] [Cert.Pre_input_domain.Facts]
    (y : IVec Cert.Pre_input_domain.S16384 32) (t : FVec F Cert.Pre_input_domain.S1001x128 .f32)
    (h : Cert.Pre_input_domain.fn (F := F) y t = fun _ => 1#1) :
    ∀ r : Fin 16384, (Cert.Spec.row y r).val = (y (ix1 r)).toNat := by
  intro r
  obtain ⟨h0, h1⟩ := index_range y t h r
  exact Cert.Spec.row_val_of_range y r h0 h1

end Cert.PreFacts
-- ==== Proof.KiPre.lean ====
/-
  The precondition as the kernel's proof uses it: every index word, read as a signed integer, names a row of the table.
-/
import proofs.«204386_g68401649156761_cont_9to1_m_854_20_alg».proof.Proof.KiSetup
import proofs.«204386_g68401649156761_cont_9to1_m_854_20_alg».proof.Proof.PreFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

/-- What the proof asks of the launch memory: every index word, read as a signed integer, lies in `0 … 1000`. -/
def PreOK (m : (ℓ : Loc nD τ sig) → Buf (Elt F) ℓ) : Prop :=
  ∀ (d : Dev nD) (r : Fin 16384), 0 ≤ ((m (yLoc d) : IVec S16384 32) (ix1 r)).toInt ∧ ((m (yLoc d) : IVec S16384 32) (ix1 r)).toInt ≤ 1000

/-- The certificate's precondition, all ones on every device, gives the range of every index word. -/
theorem ok_of_fn [FloatOps F] [Cert.Pre_input_domain.Facts] (m : (ℓ : Loc nD τ sig) → Buf (Elt F) ℓ)
    (h : ∀ c : Dev nD, Cert.Pre_input_domain.fn (F := F) (m (yLoc c)) (m (tLoc c)) = fun _ => 1#1) : PreOK m :=
  fun d => Cert.PreFacts.index_range _ _ (h d)

end Cert.Proof.KI

end
-- ==== Proof.KiViews.lean ====
/-
  One tile's task: the pieces of memory it touches, as the program addresses them. For tile `(c, s)` and block
  `j < 8`: row `j` of its index scratch (the list of block `j`'s 64 row numbers), block `j` of its row scratch, the
  chunk of the result block `j` goes to (rows `1024 s + 512 c + 64 j …`), its eight rows of the reshaped indices
  (rows `16 s + 8 c …`), and the slab of the shared memory and of the table it stages (rows `64 s …`); that the chunk
  and the slab are the sets the launch deals; and the staging's two conditions decided over the grid.
-/
import proofs.«204386_g68401649156761_cont_9to1_m_854_20_alg».proof.Proof.KiPre

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ
local notation "y2V" => (Memref.whole Cert.KernelIdeal.main_v0_scv : Memref Cert.KernelIdeal.sig Kind.scVector Space.hbm Cert.KernelIdeal.S256x64 EltTy.i32)
local notation "tV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "shV" => (Memref.whole Cert.KernelIdeal.cc0_scratch2 : Memref Cert.KernelIdeal.sig Kind.scVector Space.shared Cert.KernelIdeal.S1024x128 EltTy.f32)
local notation "iV" => (Memref.whole Cert.KernelIdeal.cc0_scratch0 : Memref Cert.KernelIdeal.sig Kind.scVector Space.vmem Cert.KernelIdeal.S8x64 EltTy.i32)
local notation "rV" => (Memref.whole Cert.KernelIdeal.cc0_scratch1 : Memref Cert.KernelIdeal.sig Kind.scVector Space.vmem Cert.KernelIdeal.S8x64x128 EltTy.f32)

variable (m : (ℓ : Loc nD τ sig) → Buf (Elt F) ℓ) (ρ : Dev nD → PrngReg)
variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- The tile's DMA cell of semaphore `s`. -/
abbrev dcell (d : Dev nD) (L : grid0.Coords) (s : DmaSems sig S_) : GSem nD τ sig := (V d (cV L) (jV L), SemLoc.dma s.sem)

omit [FloatOps F] in
theorem dcell_ne (d : Dev nD) (L : grid0.Coords) {a b : DmaSems sig S_} (h : (a.sem : DmaSem sig) ≠ b.sem) : dcell d L a ≠ dcell d L b :=
  fun e => h (SemLoc.dma.inj (Prod.mk.inj e).2)

omit [FloatOps F] in
theorem ownSems0_V :
    (ownSems0 (V d (cV L) (jV L)) : sProp 𝕄)
      = iprop(semVal (dcell d L cc0_scoped0) 0 ∗ semVal (dcell d L cc0_scoped1) 0 ∗ semVal (dcell d L cc0_scoped2) 0 ∗ semVal (dcell d L cc0_scratch3) 0 ∗ semVal (dcell d L cc0_scratch4) 0 ∗ semVal (dcell d L cc0_scratch5) 0 ∗ semVal (dcell d L cc0_scratch6) 0 ∗ semVal (dcell d L cc0_scratch7) 0 ∗ semVal (dcell d L cc0_scratch8) 0 ∗ semVal (dcell d L cc0_scratch9) 0 ∗ semVal (dcell d L cc0_scratch10) 0 ∗ semVal (dcell d L cc0_scratch11) 0
          ∗ bigSep (((((((((((((ownCells (V d (cV L) (jV L))).erase (dcell d L cc0_scoped0)).erase (dcell d L cc0_scoped1)).erase (dcell d L cc0_scoped2)).erase (dcell d L cc0_scratch3)).erase (dcell d L cc0_scratch4)).erase (dcell d L cc0_scratch5)).erase (dcell d L cc0_scratch6)).erase (dcell d L cc0_scratch7)).erase (dcell d L cc0_scratch8)).erase (dcell d L cc0_scratch9)).erase (dcell d L cc0_scratch10)).erase (dcell d L cc0_scratch11)) fun g => semVal g 0) := by
  unfold SparseCore.Cfg.ownSems0
  rw [SparseCore.bigSep_erase' ((mem_ownCells (g := dcell d L cc0_scoped0)).mpr ⟨rfl, by show (SemLoc.dma cc0_scoped0.sem : SemLoc sig).isScoped .scVector = true; decide⟩),
    SparseCore.bigSep_erase' (Finset.mem_erase.mpr ⟨dcell_ne d L (by decide : (cc0_scoped1.sem : DmaSem sig) ≠ cc0_scoped0.sem), (mem_ownCells (g := dcell d L cc0_scoped1)).mpr ⟨rfl, by show (SemLoc.dma cc0_scoped1.sem : SemLoc sig).isScoped .scVector = true; decide⟩⟩),
    SparseCore.bigSep_erase' (Finset.mem_erase.mpr ⟨dcell_ne d L (by decide : (cc0_scoped2.sem : DmaSem sig) ≠ cc0_scoped1.sem), Finset.mem_erase.mpr ⟨dcell_ne d L (by decide : (cc0_scoped2.sem : DmaSem sig) ≠ cc0_scoped0.sem), (mem_ownCells (g := dcell d L cc0_scoped2)).mpr ⟨rfl, by show (SemLoc.dma cc0_scoped2.sem : SemLoc sig).isScoped .scVector = true; decide⟩⟩⟩),
    SparseCore.bigSep_erase' (Finset.mem_erase.mpr ⟨dcell_ne d L (by decide : (cc0_scratch3.sem : DmaSem sig) ≠ cc0_scoped2.sem), Finset.mem_erase.mpr ⟨dcell_ne d L (by decide : (cc0_scratch3.sem : DmaSem sig) ≠ cc0_scoped1.sem), Finset.mem_erase.mpr ⟨dcell_ne d L (by decide : (cc0_scratch3.sem : DmaSem sig) ≠ cc0_scoped0.sem), (mem_ownCells (g := dcell d L cc0_scratch3)).mpr ⟨rfl, by show (SemLoc.dma cc0_scratch3.sem : SemLoc sig).isScoped .scVector = true; decide⟩⟩⟩⟩),
    SparseCore.bigSep_erase' (Finset.mem_erase.mpr ⟨dcell_ne d L (by decide : (cc0_scratch4.sem : DmaSem sig) ≠ cc0_scratch3.sem), Finset.mem_erase.mpr ⟨dcell_ne d L (by decide : (cc0_scratch4.sem : DmaSem sig) ≠ cc0_scoped2.sem), Finset.mem_erase.mpr ⟨dcell_ne d L (by decide : (cc0_scratch4.sem : DmaSem sig) ≠ cc0_scoped1.sem), Finset.mem_erase.mpr ⟨dcell_ne d L (by decide : (cc0_scratch4.sem : DmaSem sig) ≠ cc0_scoped0.sem), (mem_ownCells (g := dcell d L cc0_scratch4)).mpr ⟨rfl, by show (SemLoc.dma cc0_scratch4.sem : SemLoc sig).isScoped .scVector = true; decide⟩⟩⟩⟩⟩),
    SparseCore.bigSep_erase' (Finset.mem_erase.mpr ⟨dcell_ne d L (by decide : (cc0_scratch5.sem : DmaSem sig) ≠ cc0_scratch4.sem), Finset.mem_erase.mpr ⟨dcell_ne d L (by decide : (cc0_scratch5.sem : DmaSem sig) ≠ cc0_scratch3.sem), Finset.mem_erase.mpr ⟨dcell_ne d L (by decide : (cc0_scratch5.sem : DmaSem sig) ≠ cc0_scoped2.sem), Finset.mem_erase.mpr ⟨dcell_ne d L (by decide : (cc0_scratch5.sem : DmaSem sig) ≠ cc0_scoped1.sem), Finset.mem_erase.mpr ⟨dcell_ne d L (by decide : (cc0_scratch5.sem : DmaSem sig) ≠ cc0_scoped0.sem), (mem_ownCells (g := dcell d L cc0_scratch5)).mpr ⟨rfl, by show (SemLoc.dma cc0_scratch5.sem : SemLoc sig).isScoped .scVector = true; decide⟩⟩⟩⟩⟩⟩),
    SparseCore.bigSep_erase' (Finset.mem_erase.mpr ⟨dcell_ne d L (by decide : (cc0_scratch6.sem : DmaSem sig) ≠ cc0_scratch5.sem), Finset.mem_erase.mpr ⟨dcell_ne d L (by decide : (cc0_scratch6.sem : DmaSem sig) ≠ cc0_scratch4.sem), Finset.mem_erase.mpr ⟨dcell_ne d L (by decide : (cc0_scratch6.sem : DmaSem sig) ≠ cc0_scratch3.sem), Finset.mem_erase.mpr ⟨dcell_ne d L (by decide : (cc0_scratch6.sem : DmaSem sig) ≠ cc0_scoped2.sem), Finset.mem_erase.mpr ⟨dcell_ne d L (by decide : (cc0_scratch6.sem : DmaSem sig) ≠ cc0_scoped1.sem), Finset.mem_erase.mpr ⟨dcell_ne d L (by decide : (cc0_scratch6.sem : DmaSem sig) ≠ cc0_scoped0.sem), (mem_ownCells (g := dcell d L cc0_scratch6)).mpr ⟨rfl, by show (SemLoc.dma cc0_scratch6.sem : SemLoc sig).isScoped .scVector = true; decide⟩⟩⟩⟩⟩⟩⟩),
    SparseCore.bigSep_erase' (Finset.mem_erase.mpr ⟨dcell_ne d L (by decide : (cc0_scratch7.sem : DmaSem sig) ≠ cc0_scratch6.sem), Finset.mem_erase.mpr ⟨dcell_ne d L (by decide : (cc0_scratch7.sem : DmaSem sig) ≠ cc0_scratch5.sem), Finset.mem_erase.mpr ⟨dcell_ne d L (by decide : (cc0_scratch7.sem : DmaSem sig) ≠ cc0_scratch4.sem), Finset.mem_erase.mpr ⟨dcell_ne d L (by decide : (cc0_scratch7.sem : DmaSem sig) ≠ cc0_scratch3.sem), Finset.mem_erase.mpr ⟨dcell_ne d L (by decide : (cc0_scratch7.sem : DmaSem sig) ≠ cc0_scoped2.sem), Finset.mem_erase.mpr ⟨dcell_ne d L (by decide : (cc0_scratch7.sem : DmaSem sig) ≠ cc0_scoped1.sem), Finset.mem_erase.mpr ⟨dcell_ne d L (by decide : (cc0_scratch7.sem : DmaSem sig) ≠ cc0_scoped0.sem), (mem_ownCells (g := dcell d L cc0_scratch7)).mpr ⟨rfl, by show (SemLoc.dma cc0_scratch7.sem : SemLoc sig).isScoped .scVector = true; decide⟩⟩⟩⟩⟩⟩⟩⟩),
    SparseCore.bigSep_erase' (Finset.mem_erase.mpr ⟨dcell_ne d L (by decide : (cc0_scratch8.sem : DmaSem sig) ≠ cc0_scratch7.sem), Finset.mem_erase.mpr ⟨dcell_ne d L (by decide : (cc0_scratch8.sem : DmaSem sig) ≠ cc0_scratch6.sem), Finset.mem_erase.mpr ⟨dcell_ne d L (by decide : (cc0_scratch8.sem : DmaSem sig) ≠ cc0_scratch5.sem), Finset.mem_erase.mpr ⟨dcell_ne d L (by decide : (cc0_scratch8.sem : DmaSem sig) ≠ cc0_scratch4.sem), Finset.mem_erase.mpr ⟨dcell_ne d L (by decide : (cc0_scratch8.sem : DmaSem sig) ≠ cc0_scratch3.sem), Finset.mem_erase.mpr ⟨dcell_ne d L (by decide : (cc0_scratch8.sem : DmaSem sig) ≠ cc0_scoped2.sem), Finset.mem_erase.mpr ⟨dcell_ne d L (by decide : (cc0_scratch8.sem : DmaSem sig) ≠ cc0_scoped1.sem), Finset.mem_erase.mpr ⟨dcell_ne d L (by decide : (cc0_scratch8.sem : DmaSem sig) ≠ cc0_scoped0.sem), (mem_ownCells (g := dcell d L cc0_scratch8)).mpr ⟨rfl, by show (SemLoc.dma cc0_scratch8.sem : SemLoc sig).isScoped .scVector = true; decide⟩⟩⟩⟩⟩⟩⟩⟩⟩),
    SparseCore.bigSep_erase' (Finset.mem_erase.mpr ⟨dcell_ne d L (by decide : (cc0_scratch9.sem : DmaSem sig) ≠ cc0_scratch8.sem), Finset.mem_erase.mpr ⟨dcell_ne d L (by decide : (cc0_scratch9.sem : DmaSem sig) ≠ cc0_scratch7.sem), Finset.mem_erase.mpr ⟨dcell_ne d L (by decide : (cc0_scratch9.sem : DmaSem sig) ≠ cc0_scratch6.sem), Finset.mem_erase.mpr ⟨dcell_ne d L (by decide : (cc0_scratch9.sem : DmaSem sig) ≠ cc0_scratch5.sem), Finset.mem_erase.mpr ⟨dcell_ne d L (by decide : (cc0_scratch9.sem : DmaSem sig) ≠ cc0_scratch4.sem), Finset.mem_erase.mpr ⟨dcell_ne d L (by decide : (cc0_scratch9.sem : DmaSem sig) ≠ cc0_scratch3.sem), Finset.mem_erase.mpr ⟨dcell_ne d L (by decide : (cc0_scratch9.sem : DmaSem sig) ≠ cc0_scoped2.sem), Finset.mem_erase.mpr ⟨dcell_ne d L (by decide : (cc0_scratch9.sem : DmaSem sig) ≠ cc0_scoped1.sem), Finset.mem_erase.mpr ⟨dcell_ne d L (by decide : (cc0_scratch9.sem : DmaSem sig) ≠ cc0_scoped0.sem), (mem_ownCells (g := dcell d L cc0_scratch9)).mpr ⟨rfl, by show (SemLoc.dma cc0_scratch9.sem : SemLoc sig).isScoped .scVector = true; decide⟩⟩⟩⟩⟩⟩⟩⟩⟩⟩),
    SparseCore.bigSep_erase' (Finset.mem_erase.mpr ⟨dcell_ne d L (by decide : (cc0_scratch10.sem : DmaSem sig) ≠ cc0_scratch9.sem), Finset.mem_erase.mpr ⟨dcell_ne d L (by decide : (cc0_scratch10.sem : DmaSem sig) ≠ cc0_scratch8.sem), Finset.mem_erase.mpr ⟨dcell_ne d L (by decide : (cc0_scratch10.sem : DmaSem sig) ≠ cc0_scratch7.sem), Finset.mem_erase.mpr ⟨dcell_ne d L (by decide : (cc0_scratch10.sem : DmaSem sig) ≠ cc0_scratch6.sem), Finset.mem_erase.mpr ⟨dcell_ne d L (by decide : (cc0_scratch10.sem : DmaSem sig) ≠ cc0_scratch5.sem), Finset.mem_erase.mpr ⟨dcell_ne d L (by decide : (cc0_scratch10.sem : DmaSem sig) ≠ cc0_scratch4.sem), Finset.mem_erase.mpr ⟨dcell_ne d L (by decide : (cc0_scratch10.sem : DmaSem sig) ≠ cc0_scratch3.sem), Finset.mem_erase.mpr ⟨dcell_ne d L (by decide : (cc0_scratch10.sem : DmaSem sig) ≠ cc0_scoped2.sem), Finset.mem_erase.mpr ⟨dcell_ne d L (by decide : (cc0_scratch10.sem : DmaSem sig) ≠ cc0_scoped1.sem), Finset.mem_erase.mpr ⟨dcell_ne d L (by decide : (cc0_scratch10.sem : DmaSem sig) ≠ cc0_scoped0.sem), (mem_ownCells (g := dcell d L cc0_scratch10)).mpr ⟨rfl, by show (SemLoc.dma cc0_scratch10.sem : SemLoc sig).isScoped .scVector = true; decide⟩⟩⟩⟩⟩⟩⟩⟩⟩⟩⟩),
    SparseCore.bigSep_erase' (Finset.mem_erase.mpr ⟨dcell_ne d L (by decide : (cc0_scratch11.sem : DmaSem sig) ≠ cc0_scratch10.sem), Finset.mem_erase.mpr ⟨dcell_ne d L (by decide : (cc0_scratch11.sem : DmaSem sig) ≠ cc0_scratch9.sem), Finset.mem_erase.mpr ⟨dcell_ne d L (by decide : (cc0_scratch11.sem : DmaSem sig) ≠ cc0_scratch8.sem), Finset.mem_erase.mpr ⟨dcell_ne d L (by decide : (cc0_scratch11.sem : DmaSem sig) ≠ cc0_scratch7.sem), Finset.mem_erase.mpr ⟨dcell_ne d L (by decide : (cc0_scratch11.sem : DmaSem sig) ≠ cc0_scratch6.sem), Finset.mem_erase.mpr ⟨dcell_ne d L (by decide : (cc0_scratch11.sem : DmaSem sig) ≠ cc0_scratch5.sem), Finset.mem_erase.mpr ⟨dcell_ne d L (by decide : (cc0_scratch11.sem : DmaSem sig) ≠ cc0_scratch4.sem), Finset.mem_erase.mpr ⟨dcell_ne d L (by decide : (cc0_scratch11.sem : DmaSem sig) ≠ cc0_scratch3.sem), Finset.mem_erase.mpr ⟨dcell_ne d L (by decide : (cc0_scratch11.sem : DmaSem sig) ≠ cc0_scoped2.sem), Finset.mem_erase.mpr ⟨dcell_ne d L (by decide : (cc0_scratch11.sem : DmaSem sig) ≠ cc0_scoped1.sem), Finset.mem_erase.mpr ⟨dcell_ne d L (by decide : (cc0_scratch11.sem : DmaSem sig) ≠ cc0_scoped0.sem), (mem_ownCells (g := dcell d L cc0_scratch11)).mpr ⟨rfl, by show (SemLoc.dma cc0_scratch11.sem : SemLoc sig).isScoped .scVector = true; decide⟩⟩⟩⟩⟩⟩⟩⟩⟩⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task's memrefs, as the program spells them, uniformly in the block number -/

omit [FloatOps F] in
theorem inbI (j : Fin 8) : ∀ a, (![j.val, 0] : Fin 2 → Nat) a + S1x64.size a ≤ S8x64.size a := by
  have := j.isLt; intro a; fin_cases a
  · show j.val + 1 ≤ 8; omega
  · show 0 + 64 ≤ 64; omega
omit [FloatOps F] in
theorem inbR (j : Fin 8) : ∀ a, (![j.val, 0, 0] : Fin 3 → Nat) a + S1x64x128.size a ≤ S8x64x128.size a := by
  have := j.isLt; intro a; fin_cases a
  · show j.val + 1 ≤ 8; omega
  · show 0 + 64 ≤ 64; omega
  · show 0 + 128 ≤ 128; omega
/-- Row `j` of the index scratch: the list of block `j`'s 64 row numbers. -/
abbrev iRow (j : Fin 8) : Memref sig .scVector .vmem S64 .i32 :=
  ((iV).slice (Rect.unit (s := S8x64) ![j.val, 0] S1x64.size (inbI j)) (fun _ => rfl)).squeeze S64 squeezes_S1x64_S64
/-- Block `j` of the row scratch: 64 gathered rows. -/
abbrev rBlk (j : Fin 8) : Memref sig .scVector .vmem S64x128 .f32 :=
  ((rV).slice (Rect.unit (s := S8x64x128) ![j.val, 0, 0] S1x64x128.size (inbR j)) (fun _ => rfl)).squeeze S64x128 squeezes_S1x64x128_S64x128
/-- The chunk of the result block `j` is written to. -/
abbrev oChk (L : grid0.Coords) (j : Fin 8) : Memref sig .scVector .hbm S64x128 .f32 :=
  (oV).slice (Rect.unit (s := S16384x128) (k0_off4 L (BitVec.ofNat 32 (64 * j.val))) S64x128.size (k0_off4_inb L j)) (fun _ => rfl)
/-- The tile's eight rows of the reshaped indices. -/
abbrev y2Rows (L : grid0.Coords) : Memref sig .scVector .hbm S8x64 .i32 :=
  (y2V).slice (Rect.unit (s := S256x64) (k0_off1 L) S8x64.size (k0_off1_inb L)) (fun _ => rfl)
/-- The slab of the shared memory and of the table a tile other than the last stages. -/
abbrev shSlab (L : grid0.Coords) (h : k0_cond1 L = 1#1) : Memref sig .scVector .shared S64x128 .f32 :=
  (shV).slice (Rect.unit (s := S1024x128) (k0_off2 L) S64x128.size (k0_off2_inb L h)) (fun _ => rfl)
abbrev tSlab (L : grid0.Coords) (h : k0_cond1 L = 1#1) : Memref sig .scVector .hbm S64x128 .f32 :=
  (tV).slice (Rect.unit (s := S1001x128) (k0_off3 L) S64x128.size (k0_off3_inb L h)) (fun _ => rfl)

omit [FloatOps F] in
theorem oRect_eq (j : Fin 8) :
    Rect.unit (s := S16384x128) (k0_off4 L (BitVec.ofNat 32 (64 * j.val))) S64x128.size (k0_off4_inb L j) = chunk (chunkIx (cL L) (jL L) j) := by
  unfold chunk Rect.part Rect.block
  congr 1 <;> funext a
  · rw [k0_off4_eq]
    match a with
    | 0 => simp [Shape.partIx, Shape.partSize, chunkIx]; omega
    | 1 => simp [Shape.partIx, Shape.partSize]
  · match a with
    | 0 => simp [Shape.partSize]
    | 1 => simp [Shape.partSize]

omit [FloatOps F] in
theorem set_oChk (j : Fin 8) : (oChk L j).view.set = chunkSet (chunkIx (cL L) (jL L) j) := by
  show ((oV).view.slice (Rect.unit (s := S16384x128) (k0_off4 L (BitVec.ofNat 32 (64 * j.val))) S64x128.size (k0_off4_inb L j))).set = ((oV).view.slice (chunk (chunkIx (cL L) (jL L) j))).set
  rw [oRect_eq]

omit [FloatOps F] in
theorem shRect_eq (h : k0_cond1 L = 1#1) :
    Rect.unit (s := S1024x128) (k0_off2 L) S64x128.size (k0_off2_inb L h) = slab (jL L) := by
  unfold slab Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_shSlab (h : k0_cond1 L = 1#1) : (shSlab L h).view.set = slabSet (jL L) := by
  show ((shV).view.slice (Rect.unit (s := S1024x128) (k0_off2 L) S64x128.size (k0_off2_inb L h))).set = ((shV).view.slice (slab (jL L))).set
  rw [shRect_eq L h]

/-! ## The two conditions of the staging, decided over the grid: a tile stages a full slab exactly when it is not the last -/

omit [FloatOps F] in
theorem notLast_of_cond1 : ∀ i : grid0.Coords, k0_cond1 i = 1#1 →
    ¬ (Scalar.cmpi .ne (Scalar.extui (Scalar.cmpi .eq (BitVec.ofNat 32 (i 1).val) 15#32)) 0#32 = 1#1) := by decide +kernel
omit [FloatOps F] in
theorem last_of_not_cond1 : ∀ i : grid0.Coords, ¬ (k0_cond1 i = 1#1) →
    Scalar.cmpi .ne (Scalar.extui (Scalar.cmpi .eq (BitVec.ofNat 32 (i 1).val) 15#32)) 0#32 = 1#1 := by decide +kernel
omit [FloatOps F] in
theorem sub_of_not_cond1 : ∀ i : grid0.Coords, ¬ (k0_cond1 i = 1#1) → (i 1).val = 15 := by decide +kernel
omit [FloatOps F] in
theorem sub_of_cond1 : ∀ i : grid0.Coords, k0_cond1 i = 1#1 → (i 1).val < 15 := by decide +kernel

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem pts_oChk (j : Fin 8) (f : Buf (Elt F) (oLoc d)) :
    ((oChk L j).view.loc (V d (cV L) (jV L)) ↦[(oChk L j).view.set]{fullShare} f : sProp 𝕄) = oLoc d ↦[chunkSet (chunkIx (cL L) (jL L) j)]{fullShare} f := by
  rw [set_oChk]
omit [FloatOps F] in
theorem pts_y2 (q : PosShare TreeShare) (f : Buf (Elt F) (y2Loc d)) :
    ((y2V).view.loc (V d (cV L) (jV L)) ↦{q} f : sProp 𝕄) = y2Loc d ↦{q} f := rfl
omit [FloatOps F] in
theorem pts_t (q : PosShare TreeShare) (f : Buf (Elt F) (tLoc d)) :
    ((tV).view.loc (V d (cV L) (jV L)) ↦{q} f : sProp 𝕄) = tLoc d ↦{q} f := rfl
omit [FloatOps F] in
theorem pts_iV (f : Buf (Elt F) ((V d (cV L) (jV L)).loc cc0_scratch0)) :
    ((iV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl
omit [FloatOps F] in
theorem pts_shSlab (h : k0_cond1 L = 1#1) (f : Buf (Elt F) (shLoc d (cV L))) :
    ((shSlab L h).view.loc (V d (cV L) (jV L)) ↦[(shSlab L h).view.set]{fullShare} f : sProp 𝕄) = shLoc d (cV L) ↦[slabSet (jL L)]{fullShare} f := by
  rw [set_shSlab]; rfl

end Tile

end Cert.Proof.KI

end
-- ==== Proof.KiSplit.lean ====
/-
  How a SparseCore's operands split among its sixteen tasks, and how what the tasks return gathers again.
  The SparseCore holds half a read share of the reshaped indices and of the table: each is cut into sixteen tokens,
  one per task, and a remainder that waits until the tasks are back. The result's chunks are already grouped by task.
  The shared memory, whole at the full share, is the disjoint union of sixteen slabs of 64 rows: task `i` takes slab `i`.
  Coming back, each task returns a read token of the whole shared memory, at contents of its own, and what it kept of
  its slab. The kept parts lie over disjoint slabs that cover the array, so they join into the whole array at one
  contents `G` under the remainder share. Two holders of one element agree on its value, so each token's contents equals
  `G` on every element and the token may be restated at `G`; the remainder and the sixteen tokens, all at `G`, are then
  the full share of the shared memory again.
-/
import proofs.«204386_g68401649156761_cont_9to1_m_854_20_alg».proof.Proof.KiSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ

local notation "y2V" => (Memref.whole Cert.KernelIdeal.main_v0_scv : Memref Cert.KernelIdeal.sig Kind.scVector Space.hbm Cert.KernelIdeal.S256x64 EltTy.i32)
local notation "tV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "shV" => (Memref.whole Cert.KernelIdeal.cc0_scratch2 : Memref Cert.KernelIdeal.sig Kind.scVector Space.shared Cert.KernelIdeal.S1024x128 EltTy.f32)

/-! ## Read tokens at contents of their own are tokens at the contents of any other holder -/

section Agree

variable {ℓ : Loc nD τ sig} {A : Finset (Idx ℓ)}

/-- Two holders of the same elements agree there, so the second may be restated at the first's contents. -/
theorem pointsTo_bring (r q : PosShare TreeShare) (G g : Buf (Elt F) ℓ) :
    iprop((ℓ ↦[A]{r} G) ∗ ℓ ↦[A]{q} g) ⊢ (iprop((ℓ ↦[A]{r} G) ∗ ℓ ↦[A]{q} G) : sProp 𝕄) :=
  pure_elim _ pointsTo_agree fun h =>
    Entails.of_eq (by rw [pointsTo_congr (f := g) (g := G) fun i hi => (h i (Finset.mem_inter.mpr ⟨hi, hi⟩)).1.symm])

/-- The same for a finite family of holders, each at contents of its own. -/
theorem pointsTo_bring_all {I : Type} [DecidableEq I] (r : PosShare TreeShare) (t : I → PosShare TreeShare) (G : Buf (Elt F) ℓ) (s : Finset I) :
    iprop((ℓ ↦[A]{r} G) ∗ bigSep s fun i => iprop(∃ g, ℓ ↦[A]{t i} g))
      ⊢ (iprop((ℓ ↦[A]{r} G) ∗ bigSep s fun i => ℓ ↦[A]{t i} G) : sProp 𝕄) := by
  induction s using Finset.induction_on with
  | empty => rw [bigSep_empty, bigSep_empty]
  | insert a s ha ih =>
    rw [SparseCore.bigSep_insert' ha, SparseCore.bigSep_insert' ha]
    iintro ⟨HG, ⟨%g, Ha⟩, Hs⟩
    ihave H := ih $$ [HG Hs]
    · isplitl [HG] <;> iassumption
    icases H with ⟨HG, Hs⟩
    ihave H := (pointsTo_bring r (t a) G g) $$ [HG Ha]
    · isplitl [HG] <;> iassumption
    icases H with ⟨HG, Ha⟩
    isplitl [HG]; · iexact HG
    isplitl [Ha] <;> iassumption

end Agree

/-! ## The sixteen slabs are the shared memory -/

theorem slabSet_eq (i : Fin 16) : slabSet i = (slab i).set := by
  show ((View.whole (cc0_scratch2 : Ref sig .scVector)).slice (slab i)).set = _
  rw [View.set_slice]; exact Finset.map_refl
theorem slabs_disjoint : ∀ i ∈ (Finset.univ : Finset (Fin 16)), ∀ j ∈ (Finset.univ : Finset (Fin 16)), i ≠ j → Disjoint (slabSet i) (slabSet j) :=
  fun i _ j _ h => by rw [slabSet_eq, slabSet_eq]; exact Rect.part_disjoint h16 h
theorem slabs_cover : (Finset.univ : Finset (Fin 16)).biUnion slabSet = Finset.univ :=
  (Finset.biUnion_congr rfl fun i _ => slabSet_eq i).trans (Rect.biUnion_part h16)

/-- At any share and contents, the shared memory is its sixteen slabs. -/
theorem sh_slabs (d : Dev nD) (c : Fin τ.nSC) (q : PosShare TreeShare) (f : Buf (Elt F) (shLoc d c)) :
    (shLoc d c ↦{q} f : sProp 𝕄) = bigSep Finset.univ fun i : Fin 16 => shLoc d c ↦[slabSet i]{q} f := by
  rw [← pointsTo_biUnion Finset.univ (ℓ := shLoc d c) slabSet slabs_disjoint, slabs_cover]; try rfl

variable [FloatOps F]

/-- The slabs, each at contents of its own, are the shared memory at some contents. -/
theorem sh_slabs_join (d : Dev nD) (c : Fin τ.nSC) (q : PosShare TreeShare) :
    (bigSep Finset.univ fun i : Fin 16 => iprop(∃ f, shLoc d c ↦[slabSet i]{q} f)) ⊢ (iprop(∃ G, shLoc d c ↦{q} G) : sProp 𝕄) := by
  refine (bigSep_exists_pi Finset.univ (fun i (f : Buf (Elt F) (shLoc d c)) => shLoc d c ↦[slabSet i]{q} f)).trans ?_
  iintro ⟨%fs, H⟩
  ihave H' := (pointsTo_biUnion_join Finset.univ slabSet fs (fs 0) slabs_disjoint) $$ H
  icases H' with ⟨%G, -, HG⟩
  rw [slabs_cover]
  iexists G; iexact HG

/-- What the tasks return of the shared memory is the shared memory at the full share again. -/
theorem sh_gather (d : Dev nD) (c : Fin τ.nSC) :
    iprop((bigSep Finset.univ fun i : Fin 16 => iprop(∃ g, shLoc d c ↦{shareTok fullShare 16 i} g))
        ∗ bigSep Finset.univ fun i : Fin 16 => iprop(∃ f, shLoc d c ↦[slabSet i]{shareDrop fullShare 16} f))
      ⊢ (iprop(∃ G, shLoc d c ↦{fullShare} G) : sProp 𝕄) := by
  iintro ⟨Htok, Hkept⟩
  ihave H := (sh_slabs_join d c (shareDrop fullShare 16)) $$ Hkept
  icases H with ⟨%G, HG⟩
  ihave H := (pointsTo_bring_all (shareDrop fullShare 16) (fun i : Fin 16 => shareTok fullShare 16 i) G Finset.univ) $$ [HG Htok]
  · isplitl [HG] <;> iassumption
  iexists G
  iapply (Transfers.pointsTo_toks_join fullShare 16)
  iexact H

/-- A holder of the whole shared memory deals every slab, at some contents, to its task. -/
theorem sh_deal (d : Dev nD) (c : Fin τ.nSC) (f : Buf (Elt F) (shLoc d c)) :
    (shLoc d c ↦{fullShare} f : sProp 𝕄) ⊢ bigSep Finset.univ fun i : Fin 16 => iprop(∃ f, shLoc d c ↦[slabSet i]{fullShare} f) := by
  rw [sh_slabs]
  exact bigSep_mono fun i _ => BI.BIClass.exists_intro (Φ := fun f => (shLoc d c ↦[slabSet i]{fullShare} f : sProp 𝕄)) f

/-! ## The split -/

/-- The shared memory is among the sequencer's own buffers: they are it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable (m : (ℓ : Loc nD τ sig) → Buf (Elt F) ℓ)

/-- The split and the gathering for SparseCore `c` of the call, running as SparseCore `sc` of the device. -/
theorem split_core (d : Dev nD) (c : Fin 2) (sc : Fin τ.nSC) :
    iprop(stC m d c (m (oLoc d)) ∗ ownBufs (S d sc)) ⊢ |={Set.univ}=> iprop(
      (bigSep Finset.univ fun i : Fin 16 => goT m d c sc i)
      ∗ ((bigSep Finset.univ fun i : Fin 16 => tdT m d c sc i) -∗ iprop(stC m d c (Gout m d) ∗ ownBufs (S d sc)))) := by
  show iprop(iprop((y2Loc d ↦{coreShare c.val} Y2 m d) ∗ (tLoc d ↦{coreShare c.val} m (tLoc d)) ∗ bigSep Finset.univ fun i : Fin 16 => oChunks d c i (m (oLoc d)))
        ∗ ownBufs (S d sc)) ⊢ |={Set.univ}=> iprop(
      (bigSep Finset.univ fun i : Fin 16 => iprop(y2Tok m d c.val i ∗ tTok m d c.val i ∗ oChunks d c i (m (oLoc d)) ∗ ∃ f, shLoc d sc ↦[slabSet i]{fullShare} f))
      ∗ ((bigSep Finset.univ fun i : Fin 16 => iprop(y2Tok m d c.val i ∗ tTok m d c.val i ∗ oChunks d c i (Gout m d)
            ∗ (∃ g, shLoc d sc ↦{shareTok fullShare 16 i} g) ∗ ∃ f, shLoc d sc ↦[slabSet i]{shareDrop fullShare 16} f))
          -∗ iprop(iprop((y2Loc d ↦{coreShare c.val} Y2 m d) ∗ (tLoc d ↦{coreShare c.val} m (tLoc d)) ∗ bigSep Finset.univ fun i : Fin 16 => oChunks d c i (Gout m d))
              ∗ ownBufs (S d sc))))
  rw [bigSep_sep', bigSep_sep', bigSep_sep', bigSep_sep', bigSep_sep', bigSep_sep', bigSep_sep', ownBufs_S]
  iintro ⟨⟨Hy, Ht, Ho⟩, ⟨%fsh, Hsh⟩, Hrest⟩
  ihave Hy' := (Transfers.pointsTo_toks_split (coreShare c.val) 16) $$ Hy
  icases Hy' with ⟨Hyd, Hyt⟩
  ihave Ht' := (Transfers.pointsTo_toks_split (coreShare c.val) 16) $$ Ht
  icases Ht' with ⟨Htd, Htt⟩
  imodintro
  isplitl [Hyt Htt Ho Hsh]
  · isplitl [Hyt]; · iexact Hyt
    isplitl [Htt]; · iexact Htt
    isplitl [Ho]; · iexact Ho
    iapply (sh_deal d sc fsh); iexact Hsh
  iintro ⟨Hyt, Htt, Ho, Htok, Hkept⟩
  isplitl [Hyd Hyt Htd Htt Ho]
  · isplitl [Hyd Hyt]
    · iapply (Transfers.pointsTo_toks_join (coreShare c.val) 16); isplitl [Hyd] <;> iassumption
    isplitl [Htd Htt]
    · iapply (Transfers.pointsTo_toks_join (coreShare c.val) 16); isplitl [Htd] <;> iassumption
    iexact Ho
  isplitl [Htok Hkept]
  · iapply (sh_gather d sc); isplitl [Htok] <;> iassumption
  iexact Hrest

/-- How SparseCore `c`'s operands split among its sixteen tasks, and how their returns gather. -/
theorem vecSplit : (K (F := F)).VecSplit (P m) 0 := by
  intro d c
  show iprop(stC m d (Fin.cast nCore_zero c) (m (oLoc d)) ∗ ownBufs (S d (coreOf c))) ⊢ |={Set.univ}=> iprop(
      (bigSep Finset.univ fun i : Fin ((K (F := F)).nSub 0) => goT m d (Fin.cast nCore_zero c) (coreOf c) (Fin.cast nSub_zero i))
      ∗ ((bigSep Finset.univ fun i : Fin ((K (F := F)).nSub 0) => tdT m d (Fin.cast nCore_zero c) (coreOf c) (Fin.cast nSub_zero i))
          -∗ iprop(stC m d (Fin.cast nCore_zero c) (Gout m d) ∗ ownBufs (S d (coreOf c)))))
  rw [bigSep_tasks (F := F) (fun i => goT m d (Fin.cast nCore_zero c) (coreOf c) i),
    bigSep_tasks (F := F) (fun i => tdT m d (Fin.cast nCore_zero c) (coreOf c) i)]
  exact split_core m d (Fin.cast nCore_zero c) (coreOf c)

end Cert.Proof.KI

end
-- ==== Proof.KiValue.lean ====
/-
  The value of a tile's work, as equations between index functions.
  A memref the program forms is a placement of a small shape's indices in an array: a unit rectangle sends coordinate
  `y a` on axis `a` to `off a + y a`, a squeeze keeps the row-major position. Stated here: where each of the task's
  memrefs places its indices (rows `16 s + 8 c + y₀` of the reshaped indices, rows `1024 s + 512 c + 64 j + y₀` of the
  result, rows `64 s + y₀` of the shared copy and of the table, rows `960 + y₀` for the last slab); that the reshaped
  index array at `(a, b)` is index word `64 a + b`; that what a tile stages holds the table on its slab's rows; and that
  the block gathered through row `j` of the index scratch is the specification's lookup on the chunk it is written to:
  the word at `(j, y₀)` is index word `1024 s + 512 c + 64 j + y₀`, under the precondition it names a row of the table,
  the shared copy holds the table on that row, and the lookup reads that same row.
-/
import proofs.«204386_g68401649156761_cont_9to1_m_854_20_alg».proof.Proof.KiViews
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore (gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ
local notation "y2V" => (Memref.whole Cert.KernelIdeal.main_v0_scv : Memref Cert.KernelIdeal.sig Kind.scVector Space.hbm Cert.KernelIdeal.S256x64 EltTy.i32)
local notation "tV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "shV" => (Memref.whole Cert.KernelIdeal.cc0_scratch2 : Memref Cert.KernelIdeal.sig Kind.scVector Space.shared Cert.KernelIdeal.S1024x128 EltTy.f32)
local notation "iV" => (Memref.whole Cert.KernelIdeal.cc0_scratch0 : Memref Cert.KernelIdeal.sig Kind.scVector Space.vmem Cert.KernelIdeal.S8x64 EltTy.i32)
local notation "rV" => (Memref.whole Cert.KernelIdeal.cc0_scratch1 : Memref Cert.KernelIdeal.sig Kind.scVector Space.vmem Cert.KernelIdeal.S8x64x128 EltTy.f32)

/-! ## Three more memrefs, as the program spells them -/

/-- The whole shared copy, as every gather names its source. -/
abbrev shAll : Memref sig .scVector .shared S1024x128 .f32 :=
  (shV).slice (Rect.unit (s := S1024x128) ![0, 0] S1024x128.size inb_S1024x128_S1024x128_0_0) (fun _ => rfl)
/-- The last slab of the shared copy, rows `960 … 1000`: what the last tile stages into, -/
abbrev sh41 : Memref sig .scVector .shared S41x128 .f32 :=
  (shV).slice (Rect.unit (s := S1024x128) ![960, 0] S41x128.size inb_S1024x128_S41x128_960_0) (fun _ => rfl)
/-- and the table's rows it stages from. -/
abbrev t41 : Memref sig .scVector .hbm S41x128 .f32 :=
  (tV).slice (Rect.unit (s := S1001x128) ![960, 0] S41x128.size inb_S1001x128_S41x128_960_0) (fun _ => rfl)

/-! ## Where each memref places its indices -/

section Emb

variable (L : grid0.Coords)

theorem L0_lt : (L 0).val < 2 := (L 0).isLt
theorem L1_lt : (L 1).val < 16 := (L 1).isLt

theorem y2Rows_emb (y : S8x64.Idx) :
    (y2Rows L).view.emb y
      = (ix2 (⟨16 * (L 1).val + 8 * (L 0).val + (y 0).val, by have := L0_lt L; have := L1_lt L; have := idx2_lt0 y; omega⟩ : Fin 256)
          (⟨(y 1).val, idx2_lt1 y⟩ : Fin 64) : S256x64.Idx) := by
  funext a; apply Fin.ext
  match a with
  | ⟨0, _⟩ => show (k0_off1 L) 0 + 1 * (y 0).val = _; rw [k0_off1_eq]; simp
  | ⟨1, _⟩ => show (k0_off1 L) 1 + 1 * (y 1).val = _; rw [k0_off1_eq]; simp

theorem oChk_emb (j : Fin 8) (y : S64x128.Idx) :
    (oChk L j).view.emb y
      = (ix2 (⟨1024 * (L 1).val + 512 * (L 0).val + 64 * j.val + (y 0).val, by have := L0_lt L; have := L1_lt L; have := idx2_lt0 y; have := j.isLt; omega⟩ : Fin 16384)
          (⟨(y 1).val, idx2_lt1 y⟩ : Fin 128) : S16384x128.Idx) := by
  funext a; apply Fin.ext
  match a with
  | ⟨0, _⟩ => show (k0_off4 L (BitVec.ofNat 32 (64 * j.val))) 0 + 1 * (y 0).val = _; rw [k0_off4_eq]; simp
  | ⟨1, _⟩ => show (k0_off4 L (BitVec.ofNat 32 (64 * j.val))) 1 + 1 * (y 1).val = _; rw [k0_off4_eq]; simp

theorem shSlab_emb (h : k0_cond1 L = 1#1) (y : S64x128.Idx) :
    (shSlab L h).view.emb y
      = (ix2 (⟨64 * (L 1).val + (y 0).val, by have := L1_lt L; have := idx2_lt0 y; omega⟩ : Fin 1024)
          (⟨(y 1).val, idx2_lt1 y⟩ : Fin 128) : S1024x128.Idx) := by
  funext a; apply Fin.ext
  match a with
  | ⟨0, _⟩ => show (k0_off2 L) 0 + 1 * (y 0).val = _; rw [k0_off2_eq]; simp
  | ⟨1, _⟩ => show (k0_off2 L) 1 + 1 * (y 1).val = _; rw [k0_off2_eq]; simp

theorem tSlab_emb (h : k0_cond1 L = 1#1) (y : S64x128.Idx) :
    (tSlab L h).view.emb y
      = (ix2 (⟨64 * (L 1).val + (y 0).val, by have := sub_of_cond1 L h; have := idx2_lt0 y; omega⟩ : Fin 1001)
          (⟨(y 1).val, idx2_lt1 y⟩ : Fin 128) : S1001x128.Idx) := by
  funext a; apply Fin.ext
  match a with
  | ⟨0, _⟩ => show (k0_off3 L) 0 + 1 * (y 0).val = _; rw [k0_off3_eq]; simp
  | ⟨1, _⟩ => show (k0_off3 L) 1 + 1 * (y 1).val = _; rw [k0_off3_eq]; simp

theorem sh41_emb (y : S41x128.Idx) :
    (sh41).view.emb y
      = (ix2 (⟨960 + (y 0).val, by have := idx2_lt0 y; omega⟩ : Fin 1024) (⟨(y 1).val, idx2_lt1 y⟩ : Fin 128) : S1024x128.Idx) := by
  funext a; apply Fin.ext
  match a with
  | ⟨0, _⟩ => show 960 + 1 * (y 0).val = _; simp
  | ⟨1, _⟩ => show 0 + 1 * (y 1).val = _; simp

theorem t41_emb (y : S41x128.Idx) :
    (t41).view.emb y
      = (ix2 (⟨960 + (y 0).val, by have := idx2_lt0 y; omega⟩ : Fin 1001) (⟨(y 1).val, idx2_lt1 y⟩ : Fin 128) : S1001x128.Idx) := by
  funext a; apply Fin.ext
  match a with
  | ⟨0, _⟩ => show 960 + 1 * (y 0).val = _; simp
  | ⟨1, _⟩ => show 0 + 1 * (y 1).val = _; simp

theorem shAll_emb (y : S1024x128.Idx) : (shAll).view.emb y = y := by
  funext a; apply Fin.ext
  match a with
  | ⟨0, _⟩ => show 0 + 1 * (y 0).val = _; simp
  | ⟨1, _⟩ => show 0 + 1 * (y 1).val = _; simp

theorem iRow_emb (j : Fin 8) (z : S64.Idx) :
    (iRow j).view.emb z = (ix2 j (⟨(z 0).val, (z 0).isLt⟩ : Fin 64) : S8x64.Idx) := by
  have hz : Shape.reshapeEquiv (squeezes_S1x64_S64).numel_eq z = (ix2 (0 : Fin 1) (⟨(z 0).val, (z 0).isLt⟩ : Fin 64) : S1x64.Idx) :=
    Shape.reshapeEquiv_eq_of_rowMajor _ (by rw [Shape.rowMajor_val_two, Shape.rowMajor_val_one]; simp)
  show (Rect.unit (s := S8x64) ![j.val, 0] S1x64.size (inbI j)).emb (Shape.reshapeEquiv (squeezes_S1x64_S64).numel_eq z) = _
  rw [hz]
  funext a; apply Fin.ext
  match a with
  | ⟨0, _⟩ => show j.val + 1 * 0 = _; simp
  | ⟨1, _⟩ => show 0 + 1 * (z 0).val = _; simp

end Emb

/-! ## The reshaped index array -/

section Contents

variable (m : (ℓ : Loc nD τ sig) → Buf (Elt F) ℓ)

theorem Y2_apply (d : Dev nD) (a : Fin 256) (b : Fin 64) :
    Y2 m d (ix2 a b) = (m (yLoc d) : IVec S16384 32) (ix1 ⟨64 * a.val + b.val, by have := a.isLt; have := b.isLt; omega⟩) := by
  unfold Y2
  refine shapeCast_apply (m (yLoc d) : IVec S16384 32) shapeCasts_S16384_S256x64 (ix2 a b)
    (ix1 (⟨64 * a.val + b.val, by have := a.isLt; have := b.isLt; omega⟩ : Fin 16384)) ?_
  show (S16384.rowMajor (ix1 (⟨64 * a.val + b.val, by have := a.isLt; have := b.isLt; omega⟩ : Fin 16384))).val = (S256x64.rowMajor (ix2 a b)).val
  rw [Shape.rowMajor_val_one, Shape.rowMajor_val_two]
  show 64 * a.val + b.val = a.val * 64 + b.val
  omega

end Contents

/-! ## What a tile stages -/

section Staging

variable (m : (ℓ : Loc nD τ sig) → Buf (Elt F) ℓ) [FloatOps F] (d : Dev nD) (L : grid0.Coords)

theorem whole_emb {s : Shape} (y : s.Idx) : (Rect.whole s).emb y = y := by
  funext a; apply Fin.ext
  show 0 + 1 * (y a).val = (y a).val
  omega

/-- A tile other than the last: after its copy the shared memory holds the table on its slab's rows. -/
theorem staged_full (h : k0_cond1 L = 1#1) (fsh : Buf (Elt F) (shLoc d (cV L))) :
    Staged m d (cV L) (L 1).val ((shSlab L h).view.writes (Elt F) fsh
      [⟨Rect.whole S64x128, (ReadAs.same : ReadAs (Elt F) S64x128 .f32 S64x128 .f32).apply ((tSlab L h).view.read (Elt F) (m (tLoc d)))⟩]) := by
  intro r k hr hi
  have hs := L1_lt L
  have hlt : r.val % 64 < 64 := Nat.mod_lt _ (by omega)
  have key := View.read_writes_cons_emb (shSlab L h).view fsh (Rect.whole S64x128)
    ((ReadAs.same : ReadAs (Elt F) S64x128 .f32 S64x128 .f32).apply ((tSlab L h).view.read (Elt F) (m (tLoc d)))) []
    (ix2 (⟨r.val % 64, hlt⟩ : Fin 64) k)
  rw [whole_emb, View.read_apply, shSlab_emb] at key
  have e1 : (ix2 r k : S1024x128.Idx) = ix2 (⟨64 * (L 1).val + r.val % 64, by omega⟩ : Fin 1024) (⟨k.val, k.isLt⟩ : Fin 128) := by
    congr 1; apply Fin.ext; show r.val = 64 * (L 1).val + r.val % 64; omega
  rw [e1]
  refine (cast_eq _ _).symm.trans (key.trans ?_)
  show (tSlab L h).view.read (Elt F) (m (tLoc d)) (ix2 (⟨r.val % 64, hlt⟩ : Fin 64) k) = _
  rw [View.read_apply, tSlab_emb]
  refine (cast_eq _ _).trans ?_
  congr 1
  congr 1; apply Fin.ext; show 64 * (L 1).val + r.val % 64 = r.val; omega

/-- The last tile: after its copy the shared memory holds the table's last 41 rows on the last slab. -/
theorem staged_last (fsh : Buf (Elt F) (shLoc d (cV L))) :
    Staged m d (cV L) 15 ((sh41).view.writes (Elt F) fsh
      [⟨Rect.whole S41x128, (ReadAs.same : ReadAs (Elt F) S41x128 .f32 S41x128 .f32).apply ((t41).view.read (Elt F) (m (tLoc d)))⟩]) := by
  intro r k hr hi
  have hlt : r.val - 960 < 41 := by omega
  have key := View.read_writes_cons_emb (sh41).view fsh (Rect.whole S41x128)
    ((ReadAs.same : ReadAs (Elt F) S41x128 .f32 S41x128 .f32).apply ((t41).view.read (Elt F) (m (tLoc d)))) []
    (ix2 (⟨r.val - 960, hlt⟩ : Fin 41) k)
  rw [whole_emb, View.read_apply, sh41_emb] at key
  have e1 : (ix2 r k : S1024x128.Idx) = ix2 (⟨960 + (r.val - 960), by omega⟩ : Fin 1024) (⟨k.val, k.isLt⟩ : Fin 128) := by
    congr 1; apply Fin.ext; show r.val = 960 + (r.val - 960); omega
  rw [e1]
  refine (cast_eq _ _).symm.trans (key.trans ?_)
  show (t41).view.read (Elt F) (m (tLoc d)) (ix2 (⟨r.val - 960, hlt⟩ : Fin 41) k) = _
  rw [View.read_apply, t41_emb]
  refine (cast_eq _ _).trans ?_
  congr 1
  congr 1; apply Fin.ext; show 960 + (r.val - 960) = r.val; omega

/-- Off the last slab's elements the last tile's copy changes nothing. -/
theorem staged_last_rest (fsh : Buf (Elt F) (shLoc d (cV L))) :
    ∀ i, i ∉ (sh41).view.set → ((sh41).view.writes (Elt F) fsh
      [⟨Rect.whole S41x128, (ReadAs.same : ReadAs (Elt F) S41x128 .f32 S41x128 .f32).apply ((t41).view.read (Elt F) (m (tLoc d)))⟩]) i = fsh i :=
  fun i hi => View.writes_apply_of_forall_ne (sh41).view fsh _ fun y e => hi (e ▸ (sh41).view.emb_mem_set y)

end Staging

/-! ## The block a tile gathers is the lookup on its chunk -/

section Block

variable (m : (ℓ : Loc nD τ sig) → Buf (Elt F) ℓ) [FloatOps F] (d : Dev nD) (L : grid0.Coords)

/-- A rank-one index at a row-major position has that position as its coordinate. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- Under the precondition every index word, read unsigned, names a row of the table. -/
theorem word_lt (hpre : PreOK m) (r : Fin 16384) : ((m (yLoc d) : IVec S16384 32) (ix1 r)).toNat < 1001 := by
  obtain ⟨h0, h1⟩ := hpre d r
  have hlt := ((m (yLoc d) : IVec S16384 32) (ix1 r)).isLt
  rw [BitVec.toInt_eq_toNat_cond] at h0 h1
  split at h0 <;> omega

variable (W : Buf (Elt F) ((V d (cV L) (jV L)).loc cc0_scratch0))
  (hW : ∀ x : S8x64.Idx, (W : S8x64.Idx → Elt F .i32) x = (Y2 m d) ((y2Rows L).view.emb x))

include hW in
/-- Place `x` of block `j`'s list is index word `1024 s + 512 c + 64 j + x`. -/
theorem iRow_read (j : Fin 8) (x : S64.Idx) :
    (iRow j).view.read (Elt F) W x
      = (m (yLoc d) : IVec S16384 32) (ix1 (⟨1024 * (L 1).val + 512 * (L 0).val + 64 * j.val + (x 0).val,
          by have := L0_lt L; have := L1_lt L; have := j.isLt; have hx : (x 0).val < 64 := (x 0).isLt; omega⟩ : Fin 16384)) := by
  rw [View.read_apply, iRow_emb]
  refine (cast_eq _ _).trans ?_
  rw [hW, y2Rows_emb, Y2_apply]
  congr 2
  apply Fin.ext
  show 64 * (16 * (L 1).val + 8 * (L 0).val + j.val) + (x 0).val = 1024 * (L 1).val + 512 * (L 0).val + 64 * j.val + (x 0).val
  omega

include hW in
/-- Every word of block `j`'s list names a row of the shared copy. -/
theorem hin_of_pre (hpre : PreOK m) (j : Fin 8) :
    ∀ x : S64.Idx, ((iRow j).view.read (Elt F) W x).toNat < S1024x128.size gathers_S1024x128_S64x128.axis := by
  intro x
  rw [iRow_read m d L W hW j x]
  exact Nat.lt_trans (word_lt m d hpre _) (by decide)

include hW in
/-- What the gather of block `j` delivers is the lookup on the chunk block `j` is written to. -/
theorem block_value (Gsh : Buf (Elt F) (shLoc d (cV L))) (hG : ∀ i : ℕ, Staged m d (cV L) i Gsh) (hpre : PreOK m) (j : Fin 8)
    (hin : ∀ x, ((iRow j).view.read (Elt F) W x).toNat < S1024x128.size gathers_S1024x128_S64x128.axis) : ∀ y : S64x128.Idx,
    gatherPayload gathers_S1024x128_S64x128 ((shAll).view.read (Elt F) Gsh) (rows ((iRow j).view.read (Elt F) W) rfl hin) y
      = (Gout m d) ((oChk L j).view.emb y) := by
  intro y
  have hR : 1024 * (L 1).val + 512 * (L 0).val + 64 * j.val + (y 0).val < 16384 := by
    have := L0_lt L; have := L1_lt L; have := j.isLt; have := idx2_lt0 y; omega
  have hw := word_lt m d hpre ⟨_, hR⟩
  -- the source index the gather reads for `y`
  have hidx : gathers_S1024x128_S64x128.idx (rows ((iRow j).view.read (Elt F) W) rfl hin) y
      = (ix2 (⟨((m (yLoc d) : IVec S16384 32) (ix1 ⟨_, hR⟩)).toNat, Nat.lt_trans hw (by decide)⟩ : Fin 1024) (⟨(y 1).val, idx2_lt1 y⟩ : Fin 128) : S1024x128.Idx) := by
    funext b; apply Fin.ext
    match b with
    | ⟨0, _⟩ =>
      have h0 := Shape.Gathers.idx_axis gathers_S1024x128_S64x128 (rows ((iRow j).view.read (Elt F) W) rfl hin) y
      refine (congrArg Fin.val h0).trans ?_
      show ((iRow j).view.read (Elt F) W (S64.rowMajor.symm _)).toNat = _
      rw [iRow_read m d L W hW j]
      congr 4
      refine congrArg (1024 * (L 1).val + 512 * (L 0).val + 64 * j.val + ·) ?_
      exact rowMajor_symm_val_one (n := 64) _
    | ⟨1, _⟩ => exact Shape.Gathers.idx_of_ne gathers_S1024x128_S64x128 _ y ⟨1, by decide⟩ (by decide)
  show (shAll).view.read (Elt F) Gsh (gathers_S1024x128_S64x128.idx (rows ((iRow j).view.read (Elt F) W) rfl hin) y) = _
  rw [hidx, View.read_apply, shAll_emb, oChk_emb]
  refine (cast_eq _ _).trans ?_
  refine (hG _ ⟨_, Nat.lt_trans hw (by decide)⟩ ⟨(y 1).val, idx2_lt1 y⟩ hw rfl).trans ?_
  show _ = Cert.Spec.lookup (m (yLoc d) : IVec Cert.Spec.SIdx 32) (m (tLoc d) : Cert.Spec.STab.Idx → Elt F .f32) (ix2 (⟨_, hR⟩ : Fin 16384) (⟨(y 1).val, idx2_lt1 y⟩ : Fin 128))
  rw [Cert.Spec.lookup_ix2]
  congr 2
  apply Fin.ext
  exact (Cert.Spec.row_val_of_range _ _ (hpre d ⟨_, hR⟩).1 (hpre d ⟨_, hR⟩).2).symm

include hW in
/-- The same on the chunk's elements, after the block is written there over any contents. -/
theorem block_value_set (Gsh : Buf (Elt F) (shLoc d (cV L))) (hG : ∀ i : ℕ, Staged m d (cV L) i Gsh) (hpre : PreOK m) (j : Fin 8)
    (hin : ∀ x, ((iRow j).view.read (Elt F) W x).toNat < S1024x128.size gathers_S1024x128_S64x128.axis) (fo : Buf (Elt F) (oLoc d)) :
    ∀ i ∈ (oChk L j).view.set, ((oChk L j).view.write (Elt F) fo
      (gatherPayload gathers_S1024x128_S64x128 ((shAll).view.read (Elt F) Gsh) (rows ((iRow j).view.read (Elt F) W) rfl hin)) Finset.univ) i = (Gout m d) i := by
  intro i hi
  obtain ⟨y, -, rfl⟩ := Finset.mem_map.mp hi
  rw [View.write_emb_of_mem _ _ (Finset.mem_univ y)]
  refine (cast_eq _ _).trans ?_
  exact block_value m d L W hW Gsh hG hpre j hin y

end Block

/-! ## What a chunk of the result ends at -/

section Final

variable (m : (ℓ : Loc nD τ sig) → Buf (Elt F) ℓ) [FloatOps F] (d : Dev nD) (L : grid0.Coords)

/-- The index scratch after the tile's rows of the reshaped indices are copied in, over any contents. -/
abbrev Wc (fi : Buf (Elt F) ((V d (cV L) (jV L)).loc cc0_scratch0)) : Buf (Elt F) ((V d (cV L) (jV L)).loc cc0_scratch0) :=
  View.write (Elt F) (iV).view fi ((ReadAs.same : ReadAs (Elt F) S8x64 .i32 S8x64 .i32).apply ((y2Rows L).view.read (Elt F) (Y2 m d))) Finset.univ

/-- It holds those rows. -/
theorem Wc_apply (fi : Buf (Elt F) ((V d (cV L) (jV L)).loc cc0_scratch0)) :
    ∀ x : S8x64.Idx, (Wc m d L fi : S8x64.Idx → Elt F .i32) x = Y2 m d ((y2Rows L).view.emb x) := by
  intro x
  have h := View.write_emb_of_mem (v := (iV).view) (Val := Elt F) fi
    ((ReadAs.same : ReadAs (Elt F) S8x64 .i32 S8x64 .i32).apply ((y2Rows L).view.read (Elt F) (Y2 m d))) (M := Finset.univ) (Finset.mem_univ x)
  refine (show (Wc m d L fi : S8x64.Idx → Elt F .i32) x = _ from h).trans ?_
  refine (cast_eq _ _).trans ?_
  exact (View.read_apply _ x).trans (cast_eq _ _)

/-- Block `k`'s payload: what the gather through row `k` of that index scratch delivers out of the shared copy `G`. -/
abbrev Pk (fi : Buf (Elt F) ((V d (cV L) (jV L)).loc cc0_scratch0)) (G : Buf (Elt F) (shLoc d (cV L))) (hpre : PreOK m) (k : Fin 8) :
    S64x128.Idx → Elt F .f32 :=
  gatherPayload gathers_S1024x128_S64x128 ((shAll).view.read (Elt F) G)
    (rows ((iRow k).view.read (Elt F) (Wc m d L fi)) rfl (hin_of_pre m d L (Wc m d L fi) (Wc_apply m d L fi) hpre k))

/-- Block `j` of the row scratch places `(y₀, y₁)` at `(j, y₀, y₁)`. -/
theorem rBlk_emb (j : Fin 8) (y : S64x128.Idx) :
    (rBlk j).view.emb y = (ix3 j (⟨(y 0).val, idx2_lt0 y⟩ : Fin 64) (⟨(y 1).val, idx2_lt1 y⟩ : Fin 128) : S8x64x128.Idx) := by
  have hz : Shape.reshapeEquiv (squeezes_S1x64x128_S64x128).numel_eq y
      = (ix3 (0 : Fin 1) (⟨(y 0).val, idx2_lt0 y⟩ : Fin 64) (⟨(y 1).val, idx2_lt1 y⟩ : Fin 128) : S1x64x128.Idx) :=
    Shape.reshapeEquiv_eq_of_rowMajor _ (by rw [Shape.rowMajor_val_three, Shape.rowMajor_val_two]; simp)
  show (Rect.unit (s := S8x64x128) ![j.val, 0, 0] S1x64x128.size (inbR j)).emb (Shape.reshapeEquiv (squeezes_S1x64x128_S64x128).numel_eq y) = _
  rw [hz]
  funext a; apply Fin.ext
  match a with
  | ⟨0, _⟩ => show j.val + 1 * 0 = _; simp
  | ⟨1, _⟩ => show 0 + 1 * (y 0).val = _; simp
  | ⟨2, _⟩ => show 0 + 1 * (y 1).val = _; simp

/-- A write of another block leaves block `j` as it was; -/
theorem blk_write_other (k j : Fin 8) (hkj : k ≠ j) (f : Buf (Elt F) ((V d (cV L) (jV L)).loc cc0_scratch1)) (w : S64x128.Idx → Elt F .f32)
    (y : S64x128.Idx) :
    (rBlk j).view.read (Elt F) ((rBlk k).view.write (Elt F) f w Finset.univ) y = (rBlk j).view.read (Elt F) f y := by
  refine View.read_congr_at y (View.write_of_not_mem _ _ _ fun hm => hkj ?_)
  obtain ⟨y', -, e⟩ := Finset.mem_map.mp hm
  rw [rBlk_emb, rBlk_emb] at e
  exact congrFun e 0
/-- a write of block `j` itself leaves its payload there. -/
theorem blk_write_same (j : Fin 8) (f : Buf (Elt F) ((V d (cV L) (jV L)).loc cc0_scratch1)) (w : S64x128.Idx → Elt F .f32) (y : S64x128.Idx) :
    (rBlk j).view.read (Elt F) ((rBlk j).view.write (Elt F) f w Finset.univ) y = w y :=
  View.read_write_of_mem (v := (rBlk j).view) (Val := Elt F) f w (Finset.mem_univ y)

/-- The row scratch after its eight blocks are written in turn, block `0` first, over any contents. -/
abbrev nest (fr : Buf (Elt F) ((V d (cV L) (jV L)).loc cc0_scratch1)) (P : Fin 8 → S64x128.Idx → Elt F .f32) :
    Buf (Elt F) ((V d (cV L) (jV L)).loc cc0_scratch1) :=
  View.write (Elt F) (rBlk 7).view (View.write (Elt F) (rBlk 6).view (View.write (Elt F) (rBlk 5).view (View.write (Elt F) (rBlk 4).view (View.write (Elt F) (rBlk 3).view (View.write (Elt F) (rBlk 2).view (View.write (Elt F) (rBlk 1).view (View.write (Elt F) (rBlk 0).view (fr) (P 0) Finset.univ) (P 1) Finset.univ) (P 2) Finset.univ) (P 3) Finset.univ) (P 4) Finset.univ) (P 5) Finset.univ) (P 6) Finset.univ) (P 7) Finset.univ

/-- Each block of it holds its own payload: the later writes are of other blocks. -/
theorem nest_read (fr : Buf (Elt F) ((V d (cV L) (jV L)).loc cc0_scratch1)) (P : Fin 8 → S64x128.Idx → Elt F .f32) (j : Fin 8) (y : S64x128.Idx) :
    (rBlk j).view.read (Elt F) (nest d L fr P) y = P j y := by
  fin_cases j
  · exact (blk_write_other d L 7 _ (by decide) _ _ y).trans <| (blk_write_other d L 6 _ (by decide) _ _ y).trans <| (blk_write_other d L 5 _ (by decide) _ _ y).trans <| (blk_write_other d L 4 _ (by decide) _ _ y).trans <| (blk_write_other d L 3 _ (by decide) _ _ y).trans <| (blk_write_other d L 2 _ (by decide) _ _ y).trans <| (blk_write_other d L 1 _ (by decide) _ _ y).trans <| blk_write_same d L _ _ _ y
  · exact (blk_write_other d L 7 _ (by decide) _ _ y).trans <| (blk_write_other d L 6 _ (by decide) _ _ y).trans <| (blk_write_other d L 5 _ (by decide) _ _ y).trans <| (blk_write_other d L 4 _ (by decide) _ _ y).trans <| (blk_write_other d L 3 _ (by decide) _ _ y).trans <| (blk_write_other d L 2 _ (by decide) _ _ y).trans <| blk_write_same d L _ _ _ y
  · exact (blk_write_other d L 7 _ (by decide) _ _ y).trans <| (blk_write_other d L 6 _ (by decide) _ _ y).trans <| (blk_write_other d L 5 _ (by decide) _ _ y).trans <| (blk_write_other d L 4 _ (by decide) _ _ y).trans <| (blk_write_other d L 3 _ (by decide) _ _ y).trans <| blk_write_same d L _ _ _ y
  · exact (blk_write_other d L 7 _ (by decide) _ _ y).trans <| (blk_write_other d L 6 _ (by decide) _ _ y).trans <| (blk_write_other d L 5 _ (by decide) _ _ y).trans <| (blk_write_other d L 4 _ (by decide) _ _ y).trans <| blk_write_same d L _ _ _ y
  · exact (blk_write_other d L 7 _ (by decide) _ _ y).trans <| (blk_write_other d L 6 _ (by decide) _ _ y).trans <| (blk_write_other d L 5 _ (by decide) _ _ y).trans <| blk_write_same d L _ _ _ y
  · exact (blk_write_other d L 7 _ (by decide) _ _ y).trans <| (blk_write_other d L 6 _ (by decide) _ _ y).trans <| blk_write_same d L _ _ _ y
  · exact (blk_write_other d L 7 _ (by decide) _ _ y).trans <| blk_write_same d L _ _ _ y
  · exact blk_write_same d L _ _ _ y

/-- What chunk `j` of the result ends at is the lookup on its elements. -/
theorem chunk_final (hpre : PreOK m) (fi : Buf (Elt F) ((V d (cV L) (jV L)).loc cc0_scratch0)) (fr : Buf (Elt F) ((V d (cV L) (jV L)).loc cc0_scratch1))
    (G : Buf (Elt F) (shLoc d (cV L))) (hG : ∀ i : ℕ, Staged m d (cV L) i G) (j : Fin 8) :
    ∀ i ∈ (oChk L j).view.set, ((oChk L j).view.writes (Elt F) (m (oLoc d))
      [⟨Rect.whole S64x128, (ReadAs.same : ReadAs (Elt F) S64x128 .f32 S64x128 .f32).apply
          ((rBlk j).view.read (Elt F) (nest d L fr (Pk m d L fi G hpre)))⟩]) i = (Gout m d) i := by
  intro i hi
  obtain ⟨y, -, rfl⟩ := Finset.mem_map.mp hi
  have key := View.read_writes_cons_emb (oChk L j).view (m (oLoc d)) (Rect.whole S64x128)
    ((ReadAs.same : ReadAs (Elt F) S64x128 .f32 S64x128 .f32).apply ((rBlk j).view.read (Elt F) (nest d L fr (Pk m d L fi G hpre)))) [] y
  rw [whole_emb, View.read_apply] at key
  refine (cast_eq _ _).symm.trans (key.trans ?_)
  show (rBlk j).view.read (Elt F) (nest d L fr (Pk m d L fi G hpre)) y = _
  rw [nest_read]
  exact block_value m d L (Wc m d L fi) (Wc_apply m d L fi) G hG hpre j _ y

end Final

end Cert.Proof.KI

end
-- ==== Proof.KiBody.lean ====
/-
  One tile's task, run. Tile `(c, s)` copies its eight index rows in, stages its slab of the table in the shared
  memory, hands each sibling a read share of the staged slab at the barrier and receives theirs — after which it holds a
  read share of the whole shared copy, at contents that hold the table on every row of the table —, gathers eight
  blocks of rows out of the shared copy and writes block `j` to its chunk of the result, which then holds the lookup.
-/
import proofs.«204386_g68401649156761_cont_9to1_m_854_20_alg».proof.Proof.KiViews
import proofs.«204386_g68401649156761_cont_9to1_m_854_20_alg».proof.Proof.KiSplit
import proofs.«204386_g68401649156761_cont_9to1_m_854_20_alg».proof.Proof.KiValue
import Idealize.ShloMosaic.Lib.Batch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ
local notation "y2V" => (Memref.whole Cert.KernelIdeal.main_v0_scv : Memref Cert.KernelIdeal.sig Kind.scVector Space.hbm Cert.KernelIdeal.S256x64 EltTy.i32)
local notation "tV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "shV" => (Memref.whole Cert.KernelIdeal.cc0_scratch2 : Memref Cert.KernelIdeal.sig Kind.scVector Space.shared Cert.KernelIdeal.S1024x128 EltTy.f32)
local notation "iV" => (Memref.whole Cert.KernelIdeal.cc0_scratch0 : Memref Cert.KernelIdeal.sig Kind.scVector Space.vmem Cert.KernelIdeal.S8x64 EltTy.i32)
local notation "rV" => (Memref.whole Cert.KernelIdeal.cc0_scratch1 : Memref Cert.KernelIdeal.sig Kind.scVector Space.vmem Cert.KernelIdeal.S8x64x128 EltTy.f32)

variable (m : (ℓ : Loc nD τ sig) → Buf (Elt F) ℓ) (ρ : Dev nD → PrngReg)
variable [FloatOps F]

section Tile

variable (d : Dev nD) (L : grid0.Coords)

/-- The shared copy's contents `G` hold the table on every row of the table. -/
def StagedAll (c : Fin τ.nSC) (G : Buf (Elt F) (shLoc d c)) : Prop := ∀ i : ℕ, Staged m d c i G

omit [FloatOps F] in
theorem slab_inb (i : Fin 16) : ∀ a, (![64 * i.val, 0] : Fin 2 → Nat) a + S64x128.size a ≤ S1024x128.size a := by
  have := i.isLt; intro a; fin_cases a
  · show 64 * i.val + 64 ≤ 1024; omega
  · show 0 + 128 ≤ 128; omega

omit [FloatOps F] in
/-- Slab `i` is rows `64 i … 64 i + 63`. -/
theorem slab_unit (i : Fin 16) : Rect.unit (s := S1024x128) ![64 * i.val, 0] S64x128.size (slab_inb i) = slab i := by
  unfold slab Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

omit [FloatOps F] in
/-- An element of the shared copy lies in slab `i` exactly when its row's quotient by 64 is `i`. -/
theorem mem_slabSet (i : Fin 16) (r : Fin 1024) (k : Fin 128) (h : r.val / 64 = i.val) : (ix2 r k : S1024x128.Idx) ∈ slabSet i := by
  rw [slabSet_eq, ← slab_unit, Rect.mem_set_unit]
  intro a; fin_cases a
  · show 64 * i.val ≤ r.val ∧ r.val < 64 * i.val + 64; omega
  · show 0 ≤ k.val ∧ k.val < 0 + 128; omega

set_option maxHeartbeats 1000000 in
/-- One sibling's round: tile `(c, s)`'s token of its staged slab is what its arrival there hands over. -/
theorem pay_one (f : Buf (Elt F) (shLoc d (cV L))) (hS : Staged m d (cV L) (jV L).val f) (j : Fin (grid0.bound 1)) :
    (shLoc d (cV L) ↦[slabSet (jL L)]{shareTok fullShare 16 (Fin.cast bound_one j)} f : sProp 𝕄)
      ⊢ (bRd (F := F) m).payload (bcell d (cV L) (j.castLE hsub0)) 0 (jV L).val := by
  show _ ⊢ bPay m (bcell d (cV L) (j.castLE hsub0)) (jV L).val
  unfold bPay; dsimp only
  rw [dif_pos (show (jV L).val < 16 from (jV L).isLt)]
  iintro H
  iexists f
  isplitr
  · ipureintro; exact hS
  · iexact H

omit [FloatOps F] in
theorem toks_cast (f : Buf (Elt F) (shLoc d (cV L))) :
    (bigSep Finset.univ fun j : Fin (grid0.bound 1) => (shLoc d (cV L) ↦[slabSet (jL L)]{shareTok fullShare 16 (Fin.cast bound_one j)} f : sProp 𝕄))
      = bigSep Finset.univ fun i : Fin 16 => (shLoc d (cV L) ↦[slabSet (jL L)]{shareTok fullShare 16 i} f : sProp 𝕄) :=
  bigSep_congr fun _ _ => rfl

set_option maxHeartbeats 1000000 in
/-- All the siblings' rounds at once. -/
theorem pay_all (f : Buf (Elt F) (shLoc d (cV L))) (hS : Staged m d (cV L) (jV L).val f) :
    (bigSep Finset.univ fun i : Fin 16 => (shLoc d (cV L) ↦[slabSet (jL L)]{shareTok fullShare 16 i} f : sProp 𝕄))
      ⊢ bigSep Finset.univ fun j : Fin (grid0.bound 1) => (bRd (F := F) m).payload (bcell d (cV L) (j.castLE hsub0)) 0 (jV L).val := by
  rw [← toks_cast (F := F) d L f]
  exact bigSep_mono fun j _ => pay_one (F := F) m d L f hS j

set_option maxHeartbeats 1000000 in
/-- Before the barrier: the staged slab, split into a read token per sibling's round and what the tile keeps. -/
theorem pays_intro (f : Buf (Elt F) (shLoc d (cV L))) (hS : Staged m d (cV L) (jV L).val f) :
    (shLoc d (cV L) ↦[slabSet (jL L)]{fullShare} f : sProp 𝕄)
      ⊢ iprop((bigSep Finset.univ fun j : Fin (grid0.bound 1) => (bRd (F := F) m).payload (bcell d (cV L) (j.castLE hsub0)) 0 (jV L).val)
          ∗ shLoc d (cV L) ↦[slabSet (jL L)]{shareDrop fullShare 16} f) :=
  (Transfers.pointsTo_toks_split (ℓ := shLoc d (cV L)) (S := slabSet (jL L)) (f := f) fullShare 16).trans
    (sep_symm.trans (sep_mono_left (pay_all (F := F) m d L f hS)))

set_option maxHeartbeats 2000000 in
/-- After it: what the tile's own round collected is a read token of the whole shared copy, at contents that hold the
    table. -/
theorem pays_elim :
    (bigSep ((bRd (F := F) m).duties (bcell d (cV L) (jV L)) 0 \ ∅) fun n => (bRd (F := F) m).payload (bcell d (cV L) (jV L)) 0 n)
      ⊢ (iprop(∃ G : Buf (Elt F) (shLoc d (cV L)), ⌜StagedAll m d (cV L) G⌝ ∗ shLoc d (cV L) ↦{shareTok fullShare 16 (jL L)} G) : sProp 𝕄) := by
  rw [Finset.sdiff_empty, bRd_duties₀]
  show bigSep ((Finset.univ : Finset (Fin 16)).image Fin.val) (fun n => bPay m (bcell d (cV L) (jV L)) n) ⊢ _
  rw [SparseCore.bigSep_image_of_injOn (fun a _ b _ e => Fin.val_injective e)]
  have hstep : ∀ i : Fin 16, bPay m (bcell d (cV L) (jV L)) i.val
      = iprop(∃ f : Buf (Elt F) (shLoc d (cV L)), ⌜Staged m d (cV L) i.val f⌝ ∗ shLoc d (cV L) ↦[slabSet i]{shareTok fullShare 16 (jL L)} f) := by
    intro i; unfold bPay; dsimp only; rw [dif_pos i.isLt]; rfl
  rw [bigSep_congr (fun i _ => hstep i)]
  refine (bigSep_exists_pi Finset.univ (fun (i : Fin 16) (f : Buf (Elt F) (shLoc d (cV L))) =>
    iprop(⌜Staged m d (cV L) i.val f⌝ ∗ shLoc d (cV L) ↦[slabSet i]{shareTok fullShare 16 (jL L)} f))).trans ?_
  iintro ⟨%fs, H⟩
  ihave H' := (bigSep_pure_sep Finset.univ (fun i : Fin 16 => Staged m d (cV L) i.val (fs i))
    (fun i : Fin 16 => (shLoc d (cV L) ↦[slabSet i]{shareTok fullShare 16 (jL L)} fs i : sProp 𝕄))) $$ H
  icases H' with ⟨%hSt, H⟩
  ihave H'' := (pointsTo_biUnion_join Finset.univ slabSet fs (fs 0) slabs_disjoint) $$ H
  icases H'' with ⟨%g, %hg, Hg⟩
  rw [slabs_cover]
  iexists g
  isplitr
  · ipureintro
    intro i r k hr hi
    have hi16 : i < 16 := by have := r.isLt; omega
    rw [hg ⟨i, hi16⟩ (Finset.mem_univ _) _ (mem_slabSet ⟨i, hi16⟩ r k hi)]
    exact hSt ⟨i, hi16⟩ (Finset.mem_univ _) r k hr hi
  · iexact Hg

omit [FloatOps F] in
theorem pts_sh (q : PosShare TreeShare) (f : Buf (Elt F) (shLoc d (cV L))) :
    ((shV).view.loc (V d (cV L) (jV L)) ↦{q} f : sProp 𝕄) = shLoc d (cV L) ↦{q} f := rfl

omit [FloatOps F] in
theorem pts_sh41 (f : Buf (Elt F) (shLoc d (cV L))) :
    ((sh41).view.loc (V d (cV L) (jV L)) ↦[(sh41).view.set]{fullShare} f : sProp 𝕄) = shLoc d (cV L) ↦[(sh41).view.set]{fullShare} f := rfl

omit [FloatOps F] in
/-- The rows the last tile stages lie in its slab. -/
theorem sh41_subset (hs : (L 1).val = 15) : (sh41).view.set ⊆ slabSet (jL L) := by
  intro x hx
  have e : (sh41).view.set = (Rect.unit (s := S1024x128) ![960, 0] S41x128.size inb_S1024x128_S41x128_960_0).set := View.set_slice_whole _ _
  rw [e, Rect.mem_set_unit] at hx
  rw [slabSet_eq, ← slab_unit, Rect.mem_set_unit]
  have hj : (jL L).val = 15 := hs
  intro a
  have h := hx a
  fin_cases a
  · have h' : 960 ≤ (x 0).val ∧ (x 0).val < 960 + 41 := h
    show 64 * (jL L).val ≤ (x 0).val ∧ (x 0).val < 64 * (jL L).val + 64
    omega
  · have h' : 0 ≤ (x 1).val ∧ (x 1).val < 0 + 128 := h
    show 0 ≤ (x 1).val ∧ (x 1).val < 0 + 128
    exact h'

omit [FloatOps F] in
/-- The staged rows at their new contents and the rest of the slab at the old are the slab at the new contents, which
    agree with the old off the staged rows. -/
theorem rejoin_last (hs : (L 1).val = 15) (g f : Buf (Elt F) (shLoc d (cV L))) (hoff : ∀ i, i ∉ (sh41).view.set → g i = f i) :
    iprop((shLoc d (cV L) ↦[(sh41).view.set]{fullShare} g) ∗ shLoc d (cV L) ↦[slabSet (jL L) \ (sh41).view.set]{fullShare} f)
      ⊢ (shLoc d (cV L) ↦[slabSet (jL L)]{fullShare} g : sProp 𝕄) := by
  refine (pointsTo_join_subset (sh41_subset L hs)).trans (Entails.of_eq (pointsTo_congr fun i _ => ?_))
  by_cases hi : i ∈ (sh41).view.set
  · rw [Finset.piecewise_eq_of_mem _ _ _ hi]
  · rw [Finset.piecewise_eq_of_notMem _ _ _ hi]; exact (hoff i hi).symm

set_option maxRecDepth 65536 in
set_option maxHeartbeats 8000000 in
/-- The task of a tile other than the last. -/
theorem tile_body_full (hF : (K (F := F)).Facts) (hpre : PreOK m) (h1 : k0_cond1 L = 1#1) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goT m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L y2V (Memref.isWhole_whole _) tV (Memref.isWhole_whole _) oV (Memref.isWhole_whole _) iV (Memref.isWhole_whole _) rV (Memref.isWhole_whole _)
            shV (Memref.isWhole_whole _) cc0_scratch3 cc0_scratch4 cc0_scratch5 cc0_scratch6 cc0_scratch7 cc0_scratch8 cc0_scratch9 cc0_scratch10 cc0_scratch11
            cc0_scoped0 cc0_scoped1 cc0_scoped2)
          fun _ => iprop(tdT m d (cL L) (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__gather_body_eq_skeleton]; unfold cc0__gather_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold bkit goT oChunks
  rw [bigSep_fin8]
  iintro ⟨#Hlv, ⟨⟨%κ, #Hinv⟩, Htoks, #Hrch, Hat, Hcred⟩, ⟨Hy2, Ht, ⟨Ho0, Ho1, Ho2, Ho3, Ho4, Ho5, Ho6, Ho7⟩, %fsh, Hsh⟩, ⟨⟨%fi, Hi⟩, ⟨%fr, Hr⟩, Hbufs⟩,
    ⟨Hs0, Hs1, Hs2, Hs3, Hs4, Hs5, Hs6, Hs7, Hs8, Hs9, Hs10, Hs11, Hsems⟩, HO⟩
  -- the waits' evidence: at index `none`, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hy2' := (Entails.of_eq (pts_y2 (F := F) d L _ _).symm) $$ Hy2
  ihave Ht' := (Entails.of_eq (pts_t (F := F) d L _ _).symm) $$ Ht
  ihave Hi' := (Entails.of_eq (pts_iV (F := F) d L _).symm) $$ Hi
  ihave Hsh' := (Entails.of_eq (pts_shSlab (F := F) d L h1 _).symm) $$ Hsh
  have hv9 := notLast_of_cond1 L h1
  -- the index rows in, the slab staged
  sl_exec
  ihave Hsh := (Entails.of_eq (pts_shSlab (F := F) d L h1 _)) $$ Hsh'
  ihave Hpays := (pays_intro (F := F) m d L _ ?hS) $$ Hsh
  case hS => exact staged_full m d L h1 fsh
  icases Hpays with ⟨Hpays, Hkeep⟩
  -- the barrier: the staged slab handed round, the siblings' received
  rw [bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim (F := F) m d L) $$ Hgot
  icases Hall with ⟨%G, %hG, HG⟩
  -- the index scratch's contents: the tile's eight rows of the reshaped indices; every word names a row of the table
  have hin0 := hin_of_pre m d L _ (Wc_apply m d L fi) hpre 0
  have hin1 := hin_of_pre m d L _ (Wc_apply m d L fi) hpre 1
  have hin2 := hin_of_pre m d L _ (Wc_apply m d L fi) hpre 2
  have hin3 := hin_of_pre m d L _ (Wc_apply m d L fi) hpre 3
  have hin4 := hin_of_pre m d L _ (Wc_apply m d L fi) hpre 4
  have hin5 := hin_of_pre m d L _ (Wc_apply m d L fi) hpre 5
  have hin6 := hin_of_pre m d L _ (Wc_apply m d L fi) hpre 6
  have hin7 := hin_of_pre m d L _ (Wc_apply m d L fi) hpre 7
  -- the shared copy as eight read tokens, one per gather
  ihave HG' := (Transfers.pointsTo_toks_split (ℓ := shLoc d (cV L)) (S := Finset.univ) (f := G) (shareTok fullShare 16 (jL L)) 8) $$ HG
  icases HG' with ⟨HGd, HGt⟩
  ihave HGt' := (Entails.of_eq (bigSep_fin8 (F := F) _)) $$ HGt
  icases HGt' with ⟨HG0, HG1, HG2, HG3, HG4, HG5, HG6, HG7⟩
  ihave Hr' := (Entails.of_eq (pts_rV (F := F) d L _).symm) $$ Hr
  ihave HG0' := (Entails.of_eq (pts_sh (F := F) d L _ _).symm) $$ HG0
  ihave HG1' := (Entails.of_eq (pts_sh (F := F) d L _ _).symm) $$ HG1
  ihave HG2' := (Entails.of_eq (pts_sh (F := F) d L _ _).symm) $$ HG2
  ihave HG3' := (Entails.of_eq (pts_sh (F := F) d L _ _).symm) $$ HG3
  ihave HG4' := (Entails.of_eq (pts_sh (F := F) d L _ _).symm) $$ HG4
  ihave HG5' := (Entails.of_eq (pts_sh (F := F) d L _ _).symm) $$ HG5
  ihave HG6' := (Entails.of_eq (pts_sh (F := F) d L _ _).symm) $$ HG6
  ihave HG7' := (Entails.of_eq (pts_sh (F := F) d L _ _).symm) $$ HG7
  ihave Ho0' := (Entails.of_eq (pts_oChk (F := F) d L 0 _).symm) $$ Ho0
  ihave Ho1' := (Entails.of_eq (pts_oChk (F := F) d L 1 _).symm) $$ Ho1
  ihave Ho2' := (Entails.of_eq (pts_oChk (F := F) d L 2 _).symm) $$ Ho2
  ihave Ho3' := (Entails.of_eq (pts_oChk (F := F) d L 3 _).symm) $$ Ho3
  ihave Ho4' := (Entails.of_eq (pts_oChk (F := F) d L 4 _).symm) $$ Ho4
  ihave Ho5' := (Entails.of_eq (pts_oChk (F := F) d L 5 _).symm) $$ Ho5
  ihave Ho6' := (Entails.of_eq (pts_oChk (F := F) d L 6 _).symm) $$ Ho6
  ihave Ho7' := (Entails.of_eq (pts_oChk (F := F) d L 7 _).symm) $$ Ho7
  -- the eight copies out share one semaphore: a batch of eight, drained by the last of its eight waits
  have hB : Transfers.BatchOf (V d (cV L) (jV L)) (SemLoc.dma cc0_scratch11.sem) 8 := trivial
  -- the gathers, and block by block the wait and the copy out; then the eight waits
  sl_exec
  sl_step
  -- the chunks hold the lookup
  ihave Ho0 := (Entails.of_eq ((pointsTo_congr (q := fullShare) (g := Gout m d) ?h0).trans (pts_oChk (F := F) d L 0 _))) $$ Ho0'
  case h0 => exact chunk_final m d L hpre fi fr G hG 0
  ihave Ho1 := (Entails.of_eq ((pointsTo_congr (q := fullShare) (g := Gout m d) ?h1).trans (pts_oChk (F := F) d L 1 _))) $$ Ho1'
  case h1 => exact chunk_final m d L hpre fi fr G hG 1
  ihave Ho2 := (Entails.of_eq ((pointsTo_congr (q := fullShare) (g := Gout m d) ?h2).trans (pts_oChk (F := F) d L 2 _))) $$ Ho2'
  case h2 => exact chunk_final m d L hpre fi fr G hG 2
  ihave Ho3 := (Entails.of_eq ((pointsTo_congr (q := fullShare) (g := Gout m d) ?h3).trans (pts_oChk (F := F) d L 3 _))) $$ Ho3'
  case h3 => exact chunk_final m d L hpre fi fr G hG 3
  ihave Ho4 := (Entails.of_eq ((pointsTo_congr (q := fullShare) (g := Gout m d) ?h4).trans (pts_oChk (F := F) d L 4 _))) $$ Ho4'
  case h4 => exact chunk_final m d L hpre fi fr G hG 4
  ihave Ho5 := (Entails.of_eq ((pointsTo_congr (q := fullShare) (g := Gout m d) ?h5).trans (pts_oChk (F := F) d L 5 _))) $$ Ho5'
  case h5 => exact chunk_final m d L hpre fi fr G hG 5
  ihave Ho6 := (Entails.of_eq ((pointsTo_congr (q := fullShare) (g := Gout m d) ?h6).trans (pts_oChk (F := F) d L 6 _))) $$ Ho6'
  case h6 => exact chunk_final m d L hpre fi fr G hG 6
  ihave Ho7 := (Entails.of_eq ((pointsTo_congr (q := fullShare) (g := Gout m d) ?h7).trans (pts_oChk (F := F) d L 7 _))) $$ Ho7'
  case h7 => exact chunk_final m d L hpre fi fr G hG 7
  -- the read tokens of the shared copy, joined again
  ihave HGall := (Transfers.pointsTo_toks_join (ℓ := shLoc d (cV L)) (S := Finset.univ) (f := G) (shareTok fullShare 16 (jL L)) 8) $$ [HGd HG0' HG1' HG2' HG3' HG4' HG5' HG6' HG7']
  · isplitl [HGd]; · iexact HGd
    iapply (Entails.of_eq (bigSep_fin8 (F := F) _).symm)
    isplitl [HG0']; · iexact HG0'
    isplitl [HG1']; · iexact HG1'
    isplitl [HG2']; · iexact HG2'
    isplitl [HG3']; · iexact HG3'
    isplitl [HG4']; · iexact HG4'
    isplitl [HG5']; · iexact HG5'
    isplitl [HG6']; · iexact HG6'
    iexact HG7'
  unfold tdT oChunks
  isplitl [Hy2' Ht' Ho0 Ho1 Ho2 Ho3 Ho4 Ho5 Ho6 Ho7 HGall Hkeep]
  · isplitl [Hy2']; · iapply (Entails.of_eq (pts_y2 (F := F) d L _ _)); iexact Hy2'
    isplitl [Ht']; · iapply (Entails.of_eq (pts_t (F := F) d L _ _)); iexact Ht'
    isplitl [Ho0 Ho1 Ho2 Ho3 Ho4 Ho5 Ho6 Ho7]
    · iapply (Entails.of_eq (bigSep_fin8 (F := F) _).symm)
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    isplitl [HGall]; · iexists G; iexact HGall
    iexists _; iexact Hkeep
  isplitl [Hi' Hr' Hbufs]
  · isplitl [Hi']; · iexists _; iexact Hi'
    isplitl [Hr']; · iexists _; iexact Hr'
    iexact Hbufs
  isplitl [Hs0 Hs1 Hs2 Hs3 Hs4 Hs5 Hs6 Hs7 Hs8 Hs9 Hs10 Hs11 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact Hsems
  iexists _; isplitr
  swap; · iexact HO
  ipureintro; intro p hp
  repeat (rcases Finset.mem_insert.mp hp with h | hp; · first | exact .inr (.inl (h ▸ rfl)) | exact .inr (.inr (h ▸ rfl)))
  exact .inl hp

set_option maxRecDepth 65536 in
set_option maxHeartbeats 8000000 in
/-- The task of the last tile. -/
theorem tile_body_last (hF : (K (F := F)).Facts) (hpre : PreOK m) (h1 : ¬ (k0_cond1 L = 1#1)) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goT m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L y2V (Memref.isWhole_whole _) tV (Memref.isWhole_whole _) oV (Memref.isWhole_whole _) iV (Memref.isWhole_whole _) rV (Memref.isWhole_whole _)
            shV (Memref.isWhole_whole _) cc0_scratch3 cc0_scratch4 cc0_scratch5 cc0_scratch6 cc0_scratch7 cc0_scratch8 cc0_scratch9 cc0_scratch10 cc0_scratch11
            cc0_scoped0 cc0_scoped1 cc0_scoped2)
          fun _ => iprop(tdT m d (cL L) (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__gather_body_eq_skeleton]; unfold cc0__gather_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold bkit goT oChunks
  rw [bigSep_fin8]
  iintro ⟨#Hlv, ⟨⟨%κ, #Hinv⟩, Htoks, #Hrch, Hat, Hcred⟩, ⟨Hy2, Ht, ⟨Ho0, Ho1, Ho2, Ho3, Ho4, Ho5, Ho6, Ho7⟩, %fsh, Hsh⟩, ⟨⟨%fi, Hi⟩, ⟨%fr, Hr⟩, Hbufs⟩,
    ⟨Hs0, Hs1, Hs2, Hs3, Hs4, Hs5, Hs6, Hs7, Hs8, Hs9, Hs10, Hs11, Hsems⟩, HO⟩
  -- the waits' evidence: at index `none`, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hy2' := (Entails.of_eq (pts_y2 (F := F) d L _ _).symm) $$ Hy2
  ihave Ht' := (Entails.of_eq (pts_t (F := F) d L _ _).symm) $$ Ht
  ihave Hi' := (Entails.of_eq (pts_iV (F := F) d L _).symm) $$ Hi
  -- the last tile: its slab is rows 960 … 1023, of which it stages the table's rows 960 … 1000
  have hs15 : (L 1).val = 15 := sub_of_not_cond1 L h1
  have hv9 := last_of_not_cond1 L h1
  ihave Hsh2 := ((pointsTo_split_subset (sh41_subset L hs15)).1) $$ Hsh
  icases Hsh2 with ⟨Hsh41, Hshrest⟩
  ihave Hsh41' := (Entails.of_eq (pts_sh41 (F := F) d L _).symm) $$ Hsh41
  -- the index rows in, the table's last rows staged
  sl_exec
  ihave Hsh41b := (Entails.of_eq (pts_sh41 (F := F) d L _)) $$ Hsh41'
  ihave Hsh := (rejoin_last (F := F) d L hs15 _ fsh ?hoff) $$ [Hsh41b Hshrest]
  case hoff => exact staged_last_rest m d L fsh
  · isplitl [Hsh41b]; · iexact Hsh41b
    iexact Hshrest
  ihave Hpays := (pays_intro (F := F) m d L _ ?hS) $$ Hsh
  case hS =>
    have hjv : (jV L).val = 15 := hs15
    rw [hjv]; exact staged_last m d L fsh
  icases Hpays with ⟨Hpays, Hkeep⟩
  -- the barrier: the staged slab handed round, the siblings' received
  rw [bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim (F := F) m d L) $$ Hgot
  icases Hall with ⟨%G, %hG, HG⟩
  -- the index scratch's contents: the tile's eight rows of the reshaped indices; every word names a row of the table
  have hin0 := hin_of_pre m d L _ (Wc_apply m d L fi) hpre 0
  have hin1 := hin_of_pre m d L _ (Wc_apply m d L fi) hpre 1
  have hin2 := hin_of_pre m d L _ (Wc_apply m d L fi) hpre 2
  have hin3 := hin_of_pre m d L _ (Wc_apply m d L fi) hpre 3
  have hin4 := hin_of_pre m d L _ (Wc_apply m d L fi) hpre 4
  have hin5 := hin_of_pre m d L _ (Wc_apply m d L fi) hpre 5
  have hin6 := hin_of_pre m d L _ (Wc_apply m d L fi) hpre 6
  have hin7 := hin_of_pre m d L _ (Wc_apply m d L fi) hpre 7
  -- the shared copy as eight read tokens, one per gather
  ihave HG' := (Transfers.pointsTo_toks_split (ℓ := shLoc d (cV L)) (S := Finset.univ) (f := G) (shareTok fullShare 16 (jL L)) 8) $$ HG
  icases HG' with ⟨HGd, HGt⟩
  ihave HGt' := (Entails.of_eq (bigSep_fin8 (F := F) _)) $$ HGt
  icases HGt' with ⟨HG0, HG1, HG2, HG3, HG4, HG5, HG6, HG7⟩
  ihave Hr' := (Entails.of_eq (pts_rV (F := F) d L _).symm) $$ Hr
  ihave HG0' := (Entails.of_eq (pts_sh (F := F) d L _ _).symm) $$ HG0
  ihave HG1' := (Entails.of_eq (pts_sh (F := F) d L _ _).symm) $$ HG1
  ihave HG2' := (Entails.of_eq (pts_sh (F := F) d L _ _).symm) $$ HG2
  ihave HG3' := (Entails.of_eq (pts_sh (F := F) d L _ _).symm) $$ HG3
  ihave HG4' := (Entails.of_eq (pts_sh (F := F) d L _ _).symm) $$ HG4
  ihave HG5' := (Entails.of_eq (pts_sh (F := F) d L _ _).symm) $$ HG5
  ihave HG6' := (Entails.of_eq (pts_sh (F := F) d L _ _).symm) $$ HG6
  ihave HG7' := (Entails.of_eq (pts_sh (F := F) d L _ _).symm) $$ HG7
  ihave Ho0' := (Entails.of_eq (pts_oChk (F := F) d L 0 _).symm) $$ Ho0
  ihave Ho1' := (Entails.of_eq (pts_oChk (F := F) d L 1 _).symm) $$ Ho1
  ihave Ho2' := (Entails.of_eq (pts_oChk (F := F) d L 2 _).symm) $$ Ho2
  ihave Ho3' := (Entails.of_eq (pts_oChk (F := F) d L 3 _).symm) $$ Ho3
  ihave Ho4' := (Entails.of_eq (pts_oChk (F := F) d L 4 _).symm) $$ Ho4
  ihave Ho5' := (Entails.of_eq (pts_oChk (F := F) d L 5 _).symm) $$ Ho5
  ihave Ho6' := (Entails.of_eq (pts_oChk (F := F) d L 6 _).symm) $$ Ho6
  ihave Ho7' := (Entails.of_eq (pts_oChk (F := F) d L 7 _).symm) $$ Ho7
  -- the eight copies out share one semaphore: a batch of eight, drained by the last of its eight waits
  have hB : Transfers.BatchOf (V d (cV L) (jV L)) (SemLoc.dma cc0_scratch11.sem) 8 := trivial
  -- the gathers, and block by block the wait and the copy out; then the eight waits
  sl_exec
  sl_step
  -- the chunks hold the lookup
  ihave Ho0 := (Entails.of_eq ((pointsTo_congr (q := fullShare) (g := Gout m d) ?h0).trans (pts_oChk (F := F) d L 0 _))) $$ Ho0'
  case h0 => exact chunk_final m d L hpre fi fr G hG 0
  ihave Ho1 := (Entails.of_eq ((pointsTo_congr (q := fullShare) (g := Gout m d) ?h1).trans (pts_oChk (F := F) d L 1 _))) $$ Ho1'
  case h1 => exact chunk_final m d L hpre fi fr G hG 1
  ihave Ho2 := (Entails.of_eq ((pointsTo_congr (q := fullShare) (g := Gout m d) ?h2).trans (pts_oChk (F := F) d L 2 _))) $$ Ho2'
  case h2 => exact chunk_final m d L hpre fi fr G hG 2
  ihave Ho3 := (Entails.of_eq ((pointsTo_congr (q := fullShare) (g := Gout m d) ?h3).trans (pts_oChk (F := F) d L 3 _))) $$ Ho3'
  case h3 => exact chunk_final m d L hpre fi fr G hG 3
  ihave Ho4 := (Entails.of_eq ((pointsTo_congr (q := fullShare) (g := Gout m d) ?h4).trans (pts_oChk (F := F) d L 4 _))) $$ Ho4'
  case h4 => exact chunk_final m d L hpre fi fr G hG 4
  ihave Ho5 := (Entails.of_eq ((pointsTo_congr (q := fullShare) (g := Gout m d) ?h5).trans (pts_oChk (F := F) d L 5 _))) $$ Ho5'
  case h5 => exact chunk_final m d L hpre fi fr G hG 5
  ihave Ho6 := (Entails.of_eq ((pointsTo_congr (q := fullShare) (g := Gout m d) ?h6).trans (pts_oChk (F := F) d L 6 _))) $$ Ho6'
  case h6 => exact chunk_final m d L hpre fi fr G hG 6
  ihave Ho7 := (Entails.of_eq ((pointsTo_congr (q := fullShare) (g := Gout m d) ?h7).trans (pts_oChk (F := F) d L 7 _))) $$ Ho7'
  case h7 => exact chunk_final m d L hpre fi fr G hG 7
  -- the read tokens of the shared copy, joined again
  ihave HGall := (Transfers.pointsTo_toks_join (ℓ := shLoc d (cV L)) (S := Finset.univ) (f := G) (shareTok fullShare 16 (jL L)) 8) $$ [HGd HG0' HG1' HG2' HG3' HG4' HG5' HG6' HG7']
  · isplitl [HGd]; · iexact HGd
    iapply (Entails.of_eq (bigSep_fin8 (F := F) _).symm)
    isplitl [HG0']; · iexact HG0'
    isplitl [HG1']; · iexact HG1'
    isplitl [HG2']; · iexact HG2'
    isplitl [HG3']; · iexact HG3'
    isplitl [HG4']; · iexact HG4'
    isplitl [HG5']; · iexact HG5'
    isplitl [HG6']; · iexact HG6'
    iexact HG7'
  unfold tdT oChunks
  isplitl [Hy2' Ht' Ho0 Ho1 Ho2 Ho3 Ho4 Ho5 Ho6 Ho7 HGall Hkeep]
  · isplitl [Hy2']; · iapply (Entails.of_eq (pts_y2 (F := F) d L _ _)); iexact Hy2'
    isplitl [Ht']; · iapply (Entails.of_eq (pts_t (F := F) d L _ _)); iexact Ht'
    isplitl [Ho0 Ho1 Ho2 Ho3 Ho4 Ho5 Ho6 Ho7]
    · iapply (Entails.of_eq (bigSep_fin8 (F := F) _).symm)
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    isplitl [HGall]; · iexists G; iexact HGall
    iexists _; iexact Hkeep
  isplitl [Hi' Hr' Hbufs]
  · isplitl [Hi']; · iexists _; iexact Hi'
    isplitl [Hr']; · iexists _; iexact Hr'
    iexact Hbufs
  isplitl [Hs0 Hs1 Hs2 Hs3 Hs4 Hs5 Hs6 Hs7 Hs8 Hs9 Hs10 Hs11 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact Hsems
  iexists _; isplitr
  swap; · iexact HO
  ipureintro; intro p hp
  repeat (rcases Finset.mem_insert.mp hp with h | hp; · first | exact .inr (.inl (h ▸ rfl)) | exact .inr (.inr (h ▸ rfl)))
  exact .inl hp

/-- The task on vector subcore `(L 0, L 1)` of device `d`. -/
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goT m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L y2V (Memref.isWhole_whole _) tV (Memref.isWhole_whole _) oV (Memref.isWhole_whole _) iV (Memref.isWhole_whole _) rV (Memref.isWhole_whole _)
            shV (Memref.isWhole_whole _) cc0_scratch3 cc0_scratch4 cc0_scratch5 cc0_scratch6 cc0_scratch7 cc0_scratch8 cc0_scratch9 cc0_scratch10 cc0_scratch11
            cc0_scoped0 cc0_scoped1 cc0_scoped2)
          fun _ => iprop(tdT m d (cL L) (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h1 : k0_cond1 L = 1#1
  · exact tile_body_full m d L hF hpre h1 O W hO hOlev
  · exact tile_body_last m d L hF hpre h1 O W hO hOlev

end Tile

end Cert.Proof.KI

end
-- ==== Proof.KiLaunch.lean ====
/-
  The launch element of the ghost state, and what the launch deals out of it.
  The barrier half of the ghost state starts holding, for every tile's barrier cell, the cell's state before any
  arrival, and, for every ordered pair of sibling tiles, the token of the one's duty in the other's round 0. Out of
  that element, the credit the kernels' own debts are launched with, and the tiles' free counters at zero, every tile
  is dealt its kit: the invariants of its SparseCore's sixteen cells and that each has reached round 0 (persistent, so
  every tile may have them all), its own cell's position, its token in every sibling's round, and the credit for the
  sixteen arrivals at its own cell. Both SparseCores run the call, so every tile gets a kit.
-/
import proofs.«204386_g68401649156761_cont_9to1_m_854_20_alg».proof.Proof.KiSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ

/-! ## Tiles, their cells, their tokens -/

/-- A tile of the mesh: its device, its SparseCore, its number there. -/
abbrev Tl : Type := Dev nD × Fin τ.nSC × Fin τ.nSub
/-- Tile `x`'s own barrier cell, -/
abbrev ownCell (x : Tl) : GSem nD τ sig := bcell x.1 x.2.1 x.2.2
/-- and its `j`-th sibling's, `j` running over the call's grid. -/
abbrev sib (x : Tl) (j : Fin (grid0.bound 1)) : GSem nD τ sig := bcell x.1 x.2.1 (j.castLE hsub0)

/-- Every tile's barrier cell. -/
def bCells : Finset (GSem nD τ sig) := Finset.univ.image ownCell
/-- Tile `x`'s token in each sibling's round 0, for every tile `x`. -/
def bToks : Finset (GSem nD τ sig × ℕ × ℕ) :=
  Finset.univ.image fun p : Tl × Fin (grid0.bound 1) => (sib p.1 p.2, 0, p.1.2.2.val)
/-- The launch element: the handshakes' cells and tokens, the barrier's, no counter. -/
def u₀ : UU := (initOf (K (F := F)).hsCells (K (F := F)).hsToks, (initOf bCells bToks, 1))

theorem ownCell_injective : Function.Injective (ownCell : Tl → GSem nD τ sig) := by
  rintro ⟨d, c, i⟩ ⟨d', c', i'⟩ e
  cases e; rfl

theorem tok_injective :
    Function.Injective fun p : Tl × Fin (grid0.bound 1) => ((sib p.1 p.2, 0, p.1.2.2.val) : GSem nD τ sig × ℕ × ℕ) := by
  rintro ⟨⟨d, c, i⟩, j⟩ ⟨⟨d', c', i'⟩, j'⟩ e
  -- the cell names the device, the SparseCore and the sibling; the last component names the tile
  have e1 : sib (d, c, i) j = sib (d', c', i') j' := congrArg Prod.fst e
  have hi : i = i' := Fin.ext (congrArg (fun t : GSem nD τ sig × ℕ × ℕ => t.2.2) e)
  obtain ⟨rfl, h2⟩ := Prod.mk.inj (Prod.mk.inj e1).1
  obtain ⟨rfl, h3⟩ := Proc.scVector.inj h2
  have hj : j = j' := Fin.ext (congrArg Fin.val h3)
  subst hi hj; rfl

theorem sib_mem (x : Tl) (j : Fin (grid0.bound 1)) : sib x j ∈ bCells :=
  Finset.mem_image.mpr ⟨(x.1, x.2.1, j.castLE hsub0), Finset.mem_univ _, rfl⟩

/-! ## The six steps of the launch element -/

/-- The element is the handshakes' half beside the barrier's. -/
theorem split₀ (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier counter at zero is among the free counters the launch hands over: a tile's barrier semaphore is
    not scoped and is not the handshake's. -/
theorem sems₀ : ((K (F := F)).freeSems0 : sProp 𝕄) ⊢ bigSep bCells fun g => semVal g 0 := by
  unfold bCells
  rw [bigSep_image_of_injOn (fun a _ b _ e => ownCell_injective e)]
  unfold SparseCore.Cfg.freeSems0
  refine sep_elim_right.trans (bigSep_mono fun x _ => ?_)
  unfold SparseCore.Cfg.vcSems0
  exact bigSep_elim (Φ := fun sm : SemLoc sig => (semVal (V x.1 x.2.1 x.2.2, sm) 0 : sProp 𝕄))
    (Finset.mem_erase.mpr ⟨fun h => sc_bar0_ne_go (SemLoc.reg.inj h), Finset.mem_filter.mpr ⟨Finset.mem_univ _, by decide⟩⟩)

variable (m : (ℓ : Loc nD τ sig) → Buf (Elt F) ℓ) [FloatOps F]

/-- Counters at zero and round states at zero make the cells' bodies, and the bodies allocate as invariants, under
    names the update chooses. -/
theorem invs₀ : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

/-- `n` units on one cell at one index are the tally `n` there. -/
theorem units_sum (g : GSem nD τ sig) (ι : HIx 1) (n : ℕ) : ∑ _i : Fin n, tallyAt g ι 1 = (tallyAt g ι n : CellTallies nD τ sig (HIx 1)) := by
  induction n with
  | zero => rw [Finset.univ_eq_empty, Finset.sum_empty, tallyAt_zero]
  | succ n ih => rw [Fin.sum_univ_succ, ih, tallyAt_add, Nat.add_comm]

/-- What a tile is launched owing is the unit on each sibling's cell. -/
theorem oxFrom_V (d : Dev nD) (c : Fin τ.nSC) (i : Fin τ.nSub) : (P (F := F) m).oxFrom 0 (V d c i) = oxV d c := by
  rw [show (0 : ℕ) = (0 : Fin 1).val from rfl, (P m).oxFrom_step, (P m).oxFrom_end _ (n := (0 : Fin 1).val + 1) le_rfl, add_zero]
  exact if_pos (show c.val < 2 from c.isLt)

/-- On one SparseCore: sixteen tiles each owing a unit at each of the sixteen cells is, cell by cell, sixteen units. -/
theorem cred_core (d : Dev nD) (c : Fin τ.nSC) :
    (bigSep Finset.univ fun _i : Fin τ.nSub => (cred (oxV d c) : sProp 𝕄))
      = bigSep Finset.univ fun i : Fin τ.nSub => cred (tallyAt (bcell d c i) (some 0) (grid0.bound 1)) := by
  unfold oxV
  simp only [SparseCore.Cfg.cred_finsum]
  rw [bigSep_univ_comm]
  simp only [← SparseCore.Cfg.cred_finsum, units_sum]
  rfl

/-- The credit for the kernels' own debts, regrouped: each tile the sixteen units of its own cell. -/
theorem creds₀ : ((P (F := F) m).oxCred : sProp 𝕄)
    ⊢ bigSep Finset.univ fun x : Tl => cred (tallyAt (ownCell x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans (Entails.of_eq ?_))
  simp only [oxFrom_V]
  rw [bigSep_univ_prod, bigSep_univ_prod (fun x : Tl => (cred (tallyAt (ownCell x) (some 0) (grid0.bound 1)) : sProp 𝕄))]
  refine bigSep_congr fun d _ => ?_
  rw [bigSep_univ_prod, bigSep_univ_prod (fun ci : Fin τ.nSC × Fin τ.nSub => (cred (tallyAt (ownCell (d, ci)) (some 0) (grid0.bound 1)) : sProp 𝕄))]
  exact bigSep_congr fun c _ => cred_core d c

/-! ## Dealing the kits -/

/-- What the launch gives every tile alike: every barrier cell's invariant, and that each has reached round 0. -/
abbrev Common : sProp 𝕄 :=
  iprop((∃ κ : GSem nD τ sig → ℕ, bigSep bCells fun g => cellInv EB (bRd (F := F) m) (κ g) g) ∗ bigSep bCells fun g => reached EB g 0)
/-- What it gives tile `x` alone: its position, its tokens, its credit. -/
abbrev Mine (x : Tl) : sProp 𝕄 :=
  iprop(atPos EB (ownCell x) 0 ∅ 0 ∗ (bigSep Finset.univ fun j : Fin (grid0.bound 1) => dutyTok EB (sib x j) 0 x.2.2.val)
    ∗ cred (tallyAt (ownCell x) (some 0) (grid0.bound 1)))

/-- One tile's kit: of the common part it keeps its own SparseCore's cells. -/
theorem kit_of (x : Tl) : iprop(Common (F := F) m ∗ Mine x) ⊢ (bkit (F := F) m x.1 x.2.1 x.2.2 : sProp 𝕄) := by
  unfold bkit
  iintro ⟨⟨#Hinv, #Hr⟩, Hat, Htok, Hcred⟩
  isplitr
  · icases Hinv with ⟨%κ, Hinv⟩
    iexists κ
    iapply (SparseCore.ent (bigSep_intro_persistent (S := (Finset.univ : Finset (Fin (grid0.bound 1))))
      (R := bigSep bCells fun g => cellInv EB (bRd (F := F) m) (κ g) g)
      (Φ := fun j => cellInv EB (bRd (F := F) m) (κ (sib x j)) (sib x j))
      fun j _ => bigSep_elim (Φ := fun g => (cellInv EB (bRd (F := F) m) (κ g) g : sProp 𝕄)) (sib_mem x j)))
    iexact Hinv
  isplitl [Htok]; · iexact Htok
  isplitr
  · iapply (SparseCore.ent (bigSep_intro_persistent (S := (Finset.univ : Finset (Fin (grid0.bound 1))))
      (R := bigSep bCells fun g => (reached EB g 0 : sProp 𝕄))
      (Φ := fun j => reached EB (sib x j) 0)
      fun j _ => bigSep_elim (Φ := fun g => (reached EB g 0 : sProp 𝕄)) (sib_mem x j)))
    iexact Hr
  isplitl [Hat]; · iexact Hat
  iexact Hcred

theorem x_T (d : Dev nD) : (bigSep Finset.univ fun q : Fin 1 => (P (F := F) m).x q (SparseCore.T d)) = iprop(emp) :=
  bigSep_univ_of_subsingleton (0 : Fin 1)
theorem x_S (d : Dev nD) (c : Fin τ.nSC) : (bigSep Finset.univ fun q : Fin 1 => (P (F := F) m).x q (S d c)) = iprop(emp) :=
  bigSep_univ_of_subsingleton (0 : Fin 1)
/-- Both SparseCores run the call: every tile's start is its kit. -/
theorem x_V (d : Dev nD) (c : Fin τ.nSC) (i : Fin τ.nSub) :
    (bigSep Finset.univ fun q : Fin 1 => (P (F := F) m).x q (V d c i)) = bkit m d c i :=
  (bigSep_univ_of_subsingleton (0 : Fin 1)).trans (if_pos (show c.val < 2 from c.isLt))

theorem pos_eq : (bigSep bCells fun g => (atPos EB g 0 ∅ 0 : sProp 𝕄)) = bigSep Finset.univ fun x : Tl => atPos EB (ownCell x) 0 ∅ 0 :=
  bigSep_image_of_injOn (fun a _ b _ e => ownCell_injective e) _
theorem toks_eq : (bigSep bToks fun t => (dutyTok EB t.1 t.2.1 t.2.2 : sProp 𝕄))
    = bigSep Finset.univ fun x : Tl => bigSep Finset.univ fun j : Fin (grid0.bound 1) => dutyTok EB (sib x j) 0 x.2.2.val :=
  (bigSep_image_of_injOn (fun a _ b _ e => tok_injective e) _).trans (bigSep_univ_prod _)

/-- Each tile its kit; the TensorCores and the sequencers start with nothing. -/
theorem deal₀ :
    iprop(((∃ κ : GSem nD τ sig → ℕ, bigSep bCells fun g => cellInv EB (bRd (F := F) m) (κ g) g) ∗ bigSep bCells fun g => reached EB g 0)
        ∗ ((bigSep bCells fun g => atPos EB g 0 ∅ 0) ∗ (bigSep bToks fun t => dutyTok EB t.1 t.2.1 t.2.2)
          ∗ bigSep Finset.univ fun x : Tl => cred (tallyAt (ownCell x) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [x_T, x_S, x_V, bigSep_emp']
  rw [pos_eq, toks_eq, ← bigSep_sep', ← bigSep_sep']
  refine (bigSep_with_persistent (S := (Finset.univ : Finset Tl)) (R := Common (F := F) m) (Φ := Mine) fun x _ => kit_of m x).trans ?_
  iintro H
  isplitr; · iempintro
  isplitr; · iempintro
  iexact H

/-! ## The launch element -/

omit [FloatOps F] in
/-- Nothing is held from the launch: the free counters stand where held ones would, beside nothing free. -/
theorem emp_between {A B C : sProp 𝕄} : iprop(A ∗ B ∗ C) ⊢ iprop(A ∗ B ∗ emp ∗ C) := by
  iintro ⟨HA, HB, HC⟩
  isplitl [HA]; · iexact HA
  isplitl [HB]; · iexact HB
  isplitr; · iempintro
  iexact HC

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  exact emp_between.trans (SparseCore.Cfg.launch_elem (Fr := iprop(emp)) (split₀ _ _) (Rounds.fund EB (bRd (F := F) m) bCells bToks)
    (sems₀ (F := F)) (invs₀ m) (creds₀ m) (deal₀ m))

end Cert.Proof.KI

end
-- ==== Proof.KiMain.lean ====
/-
  @main on the TensorCore, and what the final memory says.
  @main reshapes the index array into 256 rows of 64, calls the two SparseCores, and returns. Before the call the
  TensorCore holds its four arrays whole. The call takes, for each SparseCore, half of a read share of the reshaped
  indices and of the table, and the result cut into its 256 runs of 64 rows, regrouped by the SparseCore, the tile
  and the block that writes each run (run `16 i + 8 c + j` is block `j` of tile `i` of SparseCore `c`: every run
  once). After the call the same pieces come back, the result's holding the lookup, and are put together again. The
  index array is never lent. At the end the three arrays the claim speaks of are held whole at known contents, and
  the final memory agrees with what is held.
-/
import proofs.«204386_g68401649156761_cont_9to1_m_854_20_alg».proof.Proof.KiSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)
open Idealize.ShloMosaic.StableHlo (held wp_hlo_within)

variable {F : FTy → Type}

local notation "𝕄" => MT nD τ sig (HIx 1) (Elt F) ℕ UU ℕ

/-! ## The 256 runs of the result: disjoint, covering, and regrouped by who writes them -/

theorem chunkSet_eq (w : Fin 256) : chunkSet w = (chunk w).set := View.set_slice_whole _ _

theorem chunks_disjoint : ∀ w ∈ (Finset.univ : Finset (Fin 256)), ∀ w' ∈ (Finset.univ : Finset (Fin 256)), w ≠ w' → Disjoint (chunkSet w) (chunkSet w') :=
  fun w _ w' _ h => by rw [chunkSet_eq, chunkSet_eq]; exact Rect.part_disjoint h256 h

theorem chunks_cover : (Finset.univ : Finset (Fin 256)).biUnion chunkSet = Finset.univ :=
  (Finset.biUnion_congr rfl fun w _ => chunkSet_eq w).trans (Rect.biUnion_part h256)

/-- Run `16 i + 8 c + j` for `c < 2`, `i < 16`, `j < 8` is every run below 256 exactly once. -/
def chunkEquiv : Fin 2 × Fin 16 × Fin 8 ≃ Fin 256 where
  toFun p := chunkIx p.1 p.2.1 p.2.2
  invFun w := (⟨w.val % 16 / 8, by omega⟩, ⟨w.val / 16, by omega⟩, ⟨w.val % 8, by omega⟩)
  left_inv := by
    rintro ⟨c, i, j⟩
    refine Prod.ext (Fin.ext ?_) (Prod.ext (Fin.ext ?_) (Fin.ext ?_)) <;> simp only [chunkIx] <;> omega
  right_inv := by
    intro w
    refine Fin.ext ?_
    simp only [chunkIx]; omega

section
variable {M : Type} [URA M]
/-- A product over the 256 runs, regrouped by SparseCore, tile and block. -/
theorem runs_regroup (Φ : Fin 256 → sProp M) :
    bigSep Finset.univ Φ = iprop((bigSep Finset.univ fun i : Fin 16 => bigSep Finset.univ fun j : Fin 8 => Φ (chunkIx 0 i j))
      ∗ bigSep Finset.univ fun i : Fin 16 => bigSep Finset.univ fun j : Fin 8 => Φ (chunkIx 1 i j)) := by
  rw [bigSep_univ_equiv chunkEquiv, bigSep_univ_prod, bigSep_univ_two, bigSep_univ_prod, bigSep_univ_prod]
  rfl
end

/-- The result held whole is its 256 runs held apart. -/
theorem o_runs (d : Dev nD) (f : Buf (Elt F) (oLoc d)) :
    (oLoc d ↦{fullShare} f : sProp 𝕄) = bigSep Finset.univ fun w : Fin 256 => oLoc d ↦[chunkSet w]{fullShare} f := by
  rw [← pointsTo_biUnion Finset.univ (ℓ := oLoc d) chunkSet chunks_disjoint, chunks_cover]; try rfl

theorem coreShare_zero : coreShare 0 = fullShare.left := rfl
theorem coreShare_one : coreShare 1 = fullShare.right := rfl

/-- A full share is the two SparseCores' halves. -/
theorem halves (ℓ : Loc nD τ sig) (g : Buf (Elt F) ℓ) :
    (ℓ ↦{fullShare} g : sProp 𝕄) ⊣⊢ iprop((ℓ ↦{coreShare 0} g) ∗ ℓ ↦{coreShare 1} g) := by
  rw [coreShare_zero, coreShare_one]; exact pointsTo_share (PosShare.mem_left_op_right fullShare)

variable (m : (ℓ : Loc nD τ sig) → Buf (Elt F) ℓ) (ρ : Dev nD → PrngReg) [FloatOps F]

/-! ## What the call takes, out of the arrays held whole, and back -/

/-- The reshaped indices, the table and the result held whole are what the two SparseCores take, -/
theorem st_intro (d : Dev nD) (f : Buf (Elt F) (oLoc d)) :
    iprop((y2Loc d ↦{fullShare} Y2 m d) ∗ (tLoc d ↦{fullShare} m (tLoc d)) ∗ oLoc d ↦{fullShare} f)
      ⊢ (iprop(stC m d 0 f ∗ stC m d 1 f) : sProp 𝕄) := by
  rw [o_runs, runs_regroup]
  iintro ⟨Hy, Ht, Ho0, Ho1⟩
  ihave Hy' := (halves (y2Loc d) (Y2 m d)).1 $$ Hy
  ihave Ht' := (halves (tLoc d) (m (tLoc d))).1 $$ Ht
  icases Hy' with ⟨Hy0, Hy1⟩
  icases Ht' with ⟨Ht0, Ht1⟩
  isplitl [Hy0 Ht0 Ho0]
  · isplitl [Hy0]; · iexact Hy0
    isplitl [Ht0]; · iexact Ht0
    iexact Ho0
  · isplitl [Hy1]; · iexact Hy1
    isplitl [Ht1]; · iexact Ht1
    iexact Ho1

/-- and what they bring back is those arrays whole again. -/
theorem st_elim (d : Dev nD) (f : Buf (Elt F) (oLoc d)) :
    iprop(stC m d 0 f ∗ stC m d 1 f)
      ⊢ (iprop((y2Loc d ↦{fullShare} Y2 m d) ∗ (tLoc d ↦{fullShare} m (tLoc d)) ∗ oLoc d ↦{fullShare} f) : sProp 𝕄) := by
  rw [o_runs, runs_regroup]
  iintro ⟨⟨Hy0, Ht0, Ho0⟩, Hy1, Ht1, Ho1⟩
  isplitl [Hy0 Hy1]
  · iapply (halves (y2Loc d) (Y2 m d)).2
    isplitl [Hy0]; · iexact Hy0
    iexact Hy1
  isplitl [Ht0 Ht1]
  · iapply (halves (tLoc d) (m (tLoc d))).2
    isplitl [Ht0]; · iexact Ht0
    iexact Ht1
  isplitl [Ho0]; · iexact Ho0
  iexact Ho1

theorem st0_eq (d : Dev nD) : (bigSep Finset.univ fun c : Fin ((K (F := F)).nCore 0) => (P m).st 0 d c)
    = iprop(stC m d 0 (m (oLoc d)) ∗ stC m d 1 (m (oLoc d))) :=
  bigSep_univ_two (fun c : Fin 2 => stC m d c (m (oLoc d)))
theorem dn0_eq (d : Dev nD) : (bigSep Finset.univ fun c : Fin ((K (F := F)).nCore 0) => (P m).dn 0 d c)
    = iprop(stC m d 0 (Gout m d) ∗ stC m d 1 (Gout m d)) :=
  bigSep_univ_two (fun c : Fin 2 => stC m d c (Gout m d))

/-! ## The TensorCore's arrays and the reshape -/

abbrev yR : DevRef τ sig := Proc.devRef .tc (main_arg0 : Ref sig .tc)
abbrev tR : DevRef τ sig := Proc.devRef .tc (main_arg1 : Ref sig .tc)
abbrev y2R : DevRef τ sig := Proc.devRef .tc (main_v0 : Ref sig .tc)
abbrev oR : DevRef τ sig := Proc.devRef .tc (main_v1 : Ref sig .tc)
/-- The reshape of the index array, as @main has it. -/
abbrev opR : HloOp τ sig (Elt F) := StableHlo.reshape main_arg0 main_v0 rfl shapeCasts_S16384_S256x64
/-- The TensorCore's arrays: the two arguments, the reshaped indices, the result; none is scoped. -/
abbrev S4 : Finset (DevRef τ sig) := {yR, tR, y2R, oR}

omit [FloatOps F] in
theorem held_S4 (d : Dev nD) (W : Valuation τ sig (Elt F)) :
    (held (SparseCore.T d) S4 W : sProp 𝕄)
      = iprop((yLoc d ↦{fullShare} W yR) ∗ (tLoc d ↦{fullShare} W tR) ∗ (y2Loc d ↦{fullShare} W y2R) ∗ oLoc d ↦{fullShare} W oR) := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((yLoc d ↦{fullShare} W main_arg0) ∗ (tLoc d ↦{fullShare} W main_arg1) ∗ (y2Loc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation of device `d`. -/
def V0 (d : Dev nD) : Valuation τ sig (Elt F) := fun b => m (d, b)

omit [FloatOps F] in
theorem unscoped_held (d : Dev nD) : (unscopedBufs d (fun b => m ((SparseCore.T d).loc b)) : sProp 𝕄) = held (SparseCore.T d) S4 (V0 m d) := by
  rw [unscopedBufs_eq, held_S4]; rfl

theorem hR : (opR (F := F)).bufs ⊆ S4 := show ({yR, y2R} : Finset (DevRef τ sig)) ⊆ S4 by decide

/-- After the reshape: the arguments and the result as launched, the reshaped indices in place. -/
theorem held_after (d : Dev nD) :
    (held (SparseCore.T d) S4 ((opR (F := F)).result (V0 m d)) : sProp 𝕄)
      = iprop((yLoc d ↦{fullShare} m (yLoc d)) ∗ (tLoc d ↦{fullShare} m (tLoc d)) ∗ (y2Loc d ↦{fullShare} Y2 m d) ∗ oLoc d ↦{fullShare} m (oLoc d)) := by
  rw [held_S4,
    (opR (F := F)).result_of_not_mem (V0 m d) (b := yR) (show yR ∉ ({y2R} : Finset (DevRef τ sig)) by decide),
    (opR (F := F)).result_of_not_mem (V0 m d) (b := tR) (show tR ∉ ({y2R} : Finset (DevRef τ sig)) by decide),
    (opR (F := F)).result_of_not_mem (V0 m d) (b := oR) (show oR ∉ ({y2R} : Finset (DevRef τ sig)) by decide),
    show (opR (F := F)).result (V0 m d) y2R = Y2 m d from StableHlo.reshape_result main_arg0 main_v0 rfl shapeCasts_S16384_S256x64 _ _ (V0 m d)]
  rfl

/-! ## @main -/

/-- What @main leaves the claim: the two arguments as launched, the result holding the lookup. -/
abbrev FIN (d : Dev nD) : sProp 𝕄 :=
  iprop((yLoc d ↦{fullShare} m (yLoc d)) ∗ (tLoc d ↦{fullShare} m (tLoc d)) ∗ oLoc d ↦{fullShare} Gout m d)

/-- @main on device `d`'s TensorCore: the reshape over the four arrays held whole; the call, which takes the reshaped
    indices, the table and the result in the SparseCores' pieces and brings them back, the result holding the lookup;
    the index array kept throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_after (F := F) m d)) $$ Hheld
  icases Hh with ⟨Hy, Ht, Hy2, Ho⟩
  -- the call: the pieces out, the pieces back
  ihave Hout := (st_intro m d (m (oLoc d))) $$ [Hy2 Ht Ho]
  · isplitl [Hy2]; · iexact Hy2
    isplitl [Ht]; · iexact Ht
    iexact Ho
  iapply ((K (F := F)).wp_run (D (F := F)) 𝒱 (EH := EH) (P := P m) κ d 0) $$ [Hst Hout Hy Hb]
  isplitr; · iexact Hctx
  isplitl [Hst]; · iexact Hst
  isplitl [Hout]
  · rw [st0_eq]; iexact Hout
  iintro ⟨Hst, Hdn⟩
  ihave Hdn' := (Entails.of_eq (dn0_eq m d)) $$ Hdn
  ihave Hback := (st_elim m d (Gout m d)) $$ Hdn'
  icases Hback with ⟨-, Ht, Ho⟩
  imodintro
  isplitl [Hst]; · iexact Hst
  isplitl [Hy]; · iexact Hy
  isplitl [Ht]; · iexact Ht
  iexact Ho

/-! ## The final memory -/

def fq (d : Dev nD) (s' : Phys nD τ sig (Elt F)) : Prop :=
  s'.mem.mem (oLoc d) = Gout m d ∧ s'.mem.mem (yLoc d) = m (yLoc d) ∧ s'.mem.mem (tLoc d) = m (tLoc d)

/-- The state interpretation agrees with each array held whole, on every element. -/
theorem hfin (d : Dev nD) (s' : Phys nD τ sig (Elt F)) : iprop(FIN m d ∗ SI s') ⊢ (⌜fq m d s'⌝ : sProp 𝕄) := by
  iintro ⟨⟨Hy, Ht, Ho⟩, HSI⟩
  icombine HSI Hy gives %hy
  icombine HSI Ht gives %ht
  icombine HSI Ho gives %ho
  ipureintro
  exact ⟨funext fun i => ho i (Finset.mem_univ i), funext fun i => hy i (Finset.mem_univ i), funext fun i => ht i (Finset.mem_univ i)⟩

end Cert.Proof.KI

end
-- ==== Proof.KiRun.lean ====
/-
  The kernel's run: from any launch memory whose index words lie in 0 … 1000, with zero counters, every weakly fair
  execution of the program's threads terminates, and on every device the result array holds the lookup of the table
  at the index words while the two arguments are unchanged.
  It is the launch theorem at this certificate's pieces. The one call is a vector-subcore kernel, so there is no
  scalar obligation. The tile obligation is one tile's task: the program's body table at a vector subcore of the
  grid is the kernel function at that subcore's coordinates (`defs₀_vector`), and what the launch hands a tile and
  takes back are the task's own pre- and postcondition, the tile named by its coordinates (`tileObl`). The split of
  a group's operands into its tiles' and the join of their results, the launch's ghost state, the entry function
  around the call and the reading of the final memory are the neighbouring modules'.
-/
import proofs.«204386_g68401649156761_cont_9to1_m_854_20_alg».proof.Proof.KiBody
import proofs.«204386_g68401649156761_cont_9to1_m_854_20_alg».proof.Proof.KiSplit
import proofs.«204386_g68401649156761_cont_9to1_m_854_20_alg».proof.Proof.KiLaunch
import proofs.«204386_g68401649156761_cont_9to1_m_854_20_alg».proof.Proof.KiMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ
local notation "y2V" => (Memref.whole Cert.KernelIdeal.main_v0_scv : Memref Cert.KernelIdeal.sig Kind.scVector Space.hbm Cert.KernelIdeal.S256x64 EltTy.i32)
local notation "tV" => (Memref.whole Cert.KernelIdeal.main_arg1_scv : Memref Cert.KernelIdeal.sig Kind.scVector Space.hbm Cert.KernelIdeal.S1001x128 EltTy.f32)
local notation "oV" => (Memref.whole Cert.KernelIdeal.main_v1_scv : Memref Cert.KernelIdeal.sig Kind.scVector Space.hbm Cert.KernelIdeal.S16384x128 EltTy.f32)
local notation "shV" => (Memref.whole Cert.KernelIdeal.cc0_scratch2 : Memref Cert.KernelIdeal.sig Kind.scVector Space.shared Cert.KernelIdeal.S1024x128 EltTy.f32)
local notation "iV" => (Memref.whole Cert.KernelIdeal.cc0_scratch0 : Memref Cert.KernelIdeal.sig Kind.scVector Space.vmem Cert.KernelIdeal.S8x64 EltTy.i32)
local notation "rV" => (Memref.whole Cert.KernelIdeal.cc0_scratch1 : Memref Cert.KernelIdeal.sig Kind.scVector Space.vmem Cert.KernelIdeal.S8x64x128 EltTy.f32)

/-! ## The tile obligation -/

section Obl

variable (m : (ℓ : Loc nD τ sig) → Buf (Elt F) ℓ)
variable [FloatOps F]

/-- The grid point of vector subcore `s` of group `c`. -/
def coordsV (c : Fin (grid0.bound 0)) (s : Fin (grid0.bound 1)) : grid0.Coords :=
  fun | 0 => c | 1 => s | ⟨_ + 2, h⟩ => absurd h (Nat.not_lt.2 (Nat.le_add_left _ _))

/-- The body table at a vector subcore: inside the grid, the kernel function at the subcore's grid point, over the
    whole arrays and the subcore's scratch. -/
theorem defs₀_vector (c : Fin τ.nSC) (s : Fin τ.nSub) :
    defs₀ (F := F) (.scVector c s) 0 ()
      = SparseCore.onTile hcore0 hsub0 (fun c s => cc0__gather_body (coordsV c s)
          y2V (Memref.isWhole_whole _) tV (Memref.isWhole_whole _) oV (Memref.isWhole_whole _) iV (Memref.isWhole_whole _) rV (Memref.isWhole_whole _)
          shV (Memref.isWhole_whole _) cc0_scratch3 cc0_scratch4 cc0_scratch5 cc0_scratch6 cc0_scratch7 cc0_scratch8 cc0_scratch9 cc0_scratch10 cc0_scratch11
          cc0_scoped0 cc0_scoped1 cc0_scoped2) ⟨⟩ c s := rfl

set_option maxRecDepth 16384 in
/-- What the launch asks of a tile is the task's statement at the tile's grid point: both groups of the topology are
    in the grid, so the tile's share of the barrier and its debt there are the certificate's; the lifted body table
    runs the kernel function; and the operands handed over and brought back name the tile by the same two numbers. -/
theorem tileObl (hF : (K (F := F)).Facts) (hpre : PreOK m) : (K (F := F)).TileObl (D (F := F)) 𝒱 (P m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from if_pos hc,
    show (P m).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Obl

/-! ## The run -/

/-- The final state read at the three arrays: the result at the lookup, the arguments at their launch contents. -/
def QC (m : (ℓ : Loc nD τ sig) → Buf (Elt F) ℓ) : PUnit × MemSt nD τ sig (Elt F) → Prop :=
  fun r => ∀ c : Dev nD, r.2.mem (oLoc c) = Gout m c ∧ r.2.mem (yLoc c) = m (yLoc c) ∧ r.2.mem (tLoc c) = m (tLoc c)

theorem run_main [FloatOps F] [∀ e, Nonempty (Elt F e)] (m : (ℓ : Loc nD τ sig) → Buf (Elt F) ℓ) (ρ : Dev nD → PrngReg)
    (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (hu₀ m) (hmain m ρ) (fq m) (hfin m) (QC m) (fun _ h => h)

end Cert.Proof.KI

end
-- ==== Proof.KbSetup.lean ====
/-
  The kernel as a family of threads: what every part of its proof shares.
  One call on both SparseCores, sixteen vector subcores each. Tile `(c, s)` copies eight rows of the reshaped index
  array into its index scratch, copies its 64-row slab of the table (the last tile: rows 960 … 1000) into its
  SparseCore's shared memory, meets its fifteen siblings at the subcore barrier, gathers eight blocks of 64 table rows
  out of the shared copy, and writes each block to its 64 rows of the result.
  Stated here: the contents each array holds at each stage (`Y2`, the reshaped indices; `Gout`, the result as the
  specification's `lookup`); the sets of elements the threads exchange (`chunkSet`, 64 rows of the result; `slabSet`,
  64 rows of the shared copy); the barrier's schedule, in which each tile's arrival at a sibling hands that sibling a
  read share of the slab it has staged (`bPay`), so that after the barrier every tile may read the whole shared copy;
  and what the launch's handshakes carry (`P`).
-/
import proofs.«204386_g68401649156761_cont_9to1_m_854_20_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204386_g68401649156761_cont_9to1_m_854_20_alg».proof.Proof.Gen.Kernel
import proofs.«204386_g68401649156761_cont_9to1_m_854_20_alg».proof.Proof.Gen.Kernel.Skeleton
import proofs.«204386_g68401649156761_cont_9to1_m_854_20_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and what they hold -/

variable (m : (ℓ : Loc nD τ sig) → Buf (Elt F) ℓ) (ρ : Dev nD → PrngReg)

/-- The index array and the table (the arguments), the reshaped index array, the result, on device `d`. -/
abbrev yLoc (d : Dev nD) : Loc nD τ sig := (SparseCore.T d).loc main_arg0
abbrev tLoc (d : Dev nD) : Loc nD τ sig := (SparseCore.T d).loc main_arg1
abbrev y2Loc (d : Dev nD) : Loc nD τ sig := (SparseCore.T d).loc main_v0
abbrev oLoc (d : Dev nD) : Loc nD τ sig := (SparseCore.T d).loc main_v1
/-- SparseCore `c`'s shared memory, as every tile of it addresses it. -/
abbrev shRef (c : Fin τ.nSC) : DevRef τ sig := ⟨.shared, ⟨0, by decide⟩, c⟩
abbrev shLoc (d : Dev nD) (c : Fin τ.nSC) : Loc nD τ sig := (d, shRef c)

local notation "y2V" => (Memref.whole Cert.Kernel.main_v0_scv : Memref Cert.Kernel.sig Kind.scVector Space.hbm Cert.Kernel.S256x64 EltTy.i32)
local notation "tV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "shV" => (Memref.whole Cert.Kernel.cc0_scratch2 : Memref Cert.Kernel.sig Kind.scVector Space.shared Cert.Kernel.S1024x128 EltTy.f32)

theorem nSub_eq : τ.nSub = 16 := rfl

/-- The reshaped index array: the index words in row-major order at 256 rows of 64. -/
def Y2 (d : Dev nD) : Buf (Elt F) (y2Loc d) :=
  fun i => shapeCast S256x64 (m (yLoc d) : IVec S16384 32) shapeCasts_S16384_S256x64 i

/-- The result: the specification's lookup of the two arguments. -/
def Gout (d : Dev nD) : Buf (Elt F) (oLoc d) :=
  (Cert.Spec.lookup (m (yLoc d) : IVec Cert.Spec.SIdx 32) (m (tLoc d) : Cert.Spec.STab.Idx → Elt F .f32) : Cert.Spec.SOut.Idx → Elt F .f32)

/-- Which half of a read share SparseCore `c` of the call is dealt. -/
def coreShare (c : ℕ) : PosShare TreeShare := if c = 0 then fullShare.left else fullShare.right

/-! ## Chunks of the result, slabs of the shared copy -/

theorem h256 : 256 ∣ S16384x128.size 0 := ⟨64, rfl⟩
/-- The `w`-th run of 64 rows of the result. -/
abbrev chunk (w : Fin 256) : Rect S16384x128 := Rect.part (s := S16384x128) (a₀ := 0) h256 w
abbrev chunkSet (w : Fin 256) : Finset S16384x128.Idx := ((oV).view.slice (chunk w)).set
/-- The chunk tile `(c, s)` writes its `j`-th block of gathered rows to. -/
def chunkIx (c : Fin 2) (s : Fin 16) (j : Fin 8) : Fin 256 := ⟨16 * s.val + 8 * c.val + j.val, by omega⟩

theorem h16 : 16 ∣ S1024x128.size 0 := ⟨64, rfl⟩
/-- The `i`-th run of 64 rows of the shared copy: the slab tile `i` stages. -/
abbrev slab (i : Fin 16) : Rect S1024x128 := Rect.part (s := S1024x128) (a₀ := 0) h16 i
abbrev slabSet (i : Fin 16) : Finset S1024x128.Idx := ((shV).view.slice (slab i)).set

variable [FloatOps F]

/-- The shared copy's contents `f` hold the table on the rows of slab `i` that are rows of the table. -/
def Staged (d : Dev nD) (c : Fin τ.nSC) (i : ℕ) (f : Buf (Elt F) (shLoc d c)) : Prop :=
  ∀ (r : Fin 1024) (k : Fin 128) (hr : r.val < 1001), r.val / 64 = i →
    (f : S1024x128.Idx → Elt F .f32) (ix2 r k) = (m (tLoc d) : S1001x128.Idx → Elt F .f32) (ix2 ⟨r.val, hr⟩ k)

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What tile `n`'s arrival in tile `j`'s round hands over: tile `j`'s read share of the slab tile `n` has staged, at
    contents that hold the table there. -/
def bPay (g : GSem nD τ sig) (n : ℕ) : sProp 𝕄 :=
  match g with
  | ((d, .scVector c j), _) =>
      if h : n < 16 then iprop(∃ f : Buf (Elt F) (shLoc d c), ⌜Staged m d c n f⌝ ∗ shLoc d c ↦[slabSet ⟨n, h⟩]{shareTok fullShare 16 (Fin.cast nSub_eq j)} f)
      else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every sibling's cell invariant and that each has reached round 0, its own position at the
    origin of round 0, its duty token in every sibling's round 0, and the credit for the sixteen units of its own. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- Tile `(c, i)`'s read tokens of the reshaped indices and of the table, out of its SparseCore's half. -/
abbrev y2Tok (d : Dev nD) (c : ℕ) (i : Fin 16) : sProp 𝕄 := y2Loc d ↦{shareTok (coreShare c) 16 i} Y2 m d
abbrev tTok (d : Dev nD) (c : ℕ) (i : Fin 16) : sProp 𝕄 := tLoc d ↦{shareTok (coreShare c) 16 i} m (tLoc d)
/-- The eight chunks of the result tile `(c, i)` writes, at contents `f`. -/
abbrev oChunks (d : Dev nD) (c : Fin 2) (i : Fin 16) (f : Buf (Elt F) (oLoc d)) : sProp 𝕄 :=
  bigSep Finset.univ fun j : Fin 8 => oLoc d ↦[chunkSet (chunkIx c i j)]{fullShare} f

/-- What SparseCore `c` of the call takes and brings back: its half shares of the indices and the table, and its
    tiles' chunks of the result, which come back holding the lookup. -/
abbrev stC (d : Dev nD) (c : Fin 2) (f : Buf (Elt F) (oLoc d)) : sProp 𝕄 :=
  iprop((y2Loc d ↦{coreShare c.val} Y2 m d) ∗ (tLoc d ↦{coreShare c.val} m (tLoc d)) ∗ bigSep Finset.univ fun i : Fin 16 => oChunks d c i f)

/-- What a task takes: its tokens, its chunks of the result, its slab of the shared memory at whatever it holds; -/
abbrev goT (d : Dev nD) (c : Fin 2) (sc : Fin τ.nSC) (i : Fin 16) : sProp 𝕄 :=
  iprop(y2Tok m d c.val i ∗ tTok m d c.val i ∗ oChunks d c i (m (oLoc d)) ∗ ∃ f, shLoc d sc ↦[slabSet i]{fullShare} f)
/-- and what it brings back: the tokens, the chunks holding the lookup, its read token of the whole shared memory and
    what it kept of its own slab. -/
abbrev tdT (d : Dev nD) (c : Fin 2) (sc : Fin τ.nSC) (i : Fin 16) : sProp 𝕄 :=
  iprop(y2Tok m d c.val i ∗ tTok m d c.val i ∗ oChunks d c i (Gout m d)
    ∗ (∃ g, shLoc d sc ↦{shareTok fullShare 16 i} g) ∗ ∃ f, shLoc d sc ↦[slabSet i]{shareDrop fullShare 16} f)

def P : (K (F := F)).Pay (nD := nD) (Val := Elt F) (Name := ℕ) (U := UU) where
  st := fun q d c => match q with | 0 => stC m d (Fin.cast nCore_zero c) (m (oLoc d))
  dn := fun q d c => match q with | 0 => stC m d (Fin.cast nCore_zero c) (Gout m d)
  go := fun q d c i => match q with | 0 => goT m d (Fin.cast nCore_zero c) (coreOf c) (Fin.cast nSub_zero i)
  td := fun q d c i => match q with | 0 => tdT m d (Fin.cast nCore_zero c) (coreOf c) (Fin.cast nSub_zero i)
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m).IsStorable where
  st q d c := match q with
    | 0 => (inferInstance : BI.Storable (upEmb : UEmb _ 𝕄) (stC m d (Fin.cast nCore_zero c) (m (oLoc d))))
  dn q d c := match q with
    | 0 => (inferInstance : BI.Storable (upEmb : UEmb _ 𝕄) (stC m d (Fin.cast nCore_zero c) (Gout m d)))
  go q d c i := match q with
    | 0 => (inferInstance : BI.Storable (upEmb : UEmb _ 𝕄) (goT m d (Fin.cast nCore_zero c) (coreOf c) (Fin.cast nSub_zero i)))
  td q d c i := match q with
    | 0 => (inferInstance : BI.Storable (upEmb : UEmb _ 𝕄) (tdT m d (Fin.cast nCore_zero c) (coreOf c) (Fin.cast nSub_zero i)))

end Cert.Proof.KB

end
-- ==== Proof.KbPre.lean ====
/-
  The precondition as the kernel's proof uses it: every index word, read as a signed integer, names a row of the table.
-/
import proofs.«204386_g68401649156761_cont_9to1_m_854_20_alg».proof.Proof.KbSetup
import proofs.«204386_g68401649156761_cont_9to1_m_854_20_alg».proof.Proof.PreFacts

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

/-- What the proof asks of the launch memory: every index word, read as a signed integer, lies in `0 … 1000`. -/
def PreOK (m : (ℓ : Loc nD τ sig) → Buf (Elt F) ℓ) : Prop :=
  ∀ (d : Dev nD) (r : Fin 16384), 0 ≤ ((m (yLoc d) : IVec S16384 32) (ix1 r)).toInt ∧ ((m (yLoc d) : IVec S16384 32) (ix1 r)).toInt ≤ 1000

/-- The certificate's precondition, all ones on every device, gives the range of every index word. -/
theorem ok_of_fn [FloatOps F] [Cert.Pre_input_domain.Facts] (m : (ℓ : Loc nD τ sig) → Buf (Elt F) ℓ)
    (h : ∀ c : Dev nD, Cert.Pre_input_domain.fn (F := F) (m (yLoc c)) (m (tLoc c)) = fun _ => 1#1) : PreOK m :=
  fun d => Cert.PreFacts.index_range _ _ (h d)

end Cert.Proof.KB

end
-- ==== Proof.KbViews.lean ====
/-
  One tile's task: the pieces of memory it touches, as the program addresses them. For tile `(c, s)` and block
  `j < 8`: row `j` of its index scratch (the list of block `j`'s 64 row numbers), block `j` of its row scratch, the
  chunk of the result block `j` goes to (rows `1024 s + 512 c + 64 j …`), its eight rows of the reshaped indices
  (rows `16 s + 8 c …`), and the slab of the shared memory and of the table it stages (rows `64 s …`); that the chunk
  and the slab are the sets the launch deals; and the staging's two conditions decided over the grid.
-/
import proofs.«204386_g68401649156761_cont_9to1_m_854_20_alg».proof.Proof.KbPre

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ
local notation "y2V" => (Memref.whole Cert.Kernel.main_v0_scv : Memref Cert.Kernel.sig Kind.scVector Space.hbm Cert.Kernel.S256x64 EltTy.i32)
local notation "tV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "shV" => (Memref.whole Cert.Kernel.cc0_scratch2 : Memref Cert.Kernel.sig Kind.scVector Space.shared Cert.Kernel.S1024x128 EltTy.f32)
local notation "iV" => (Memref.whole Cert.Kernel.cc0_scratch0 : Memref Cert.Kernel.sig Kind.scVector Space.vmem Cert.Kernel.S8x64 EltTy.i32)
local notation "rV" => (Memref.whole Cert.Kernel.cc0_scratch1 : Memref Cert.Kernel.sig Kind.scVector Space.vmem Cert.Kernel.S8x64x128 EltTy.f32)

variable (m : (ℓ : Loc nD τ sig) → Buf (Elt F) ℓ) (ρ : Dev nD → PrngReg)
variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- The tile's DMA cell of semaphore `s`. -/
abbrev dcell (d : Dev nD) (L : grid0.Coords) (s : DmaSems sig S_) : GSem nD τ sig := (V d (cV L) (jV L), SemLoc.dma s.sem)

omit [FloatOps F] in
theorem dcell_ne (d : Dev nD) (L : grid0.Coords) {a b : DmaSems sig S_} (h : (a.sem : DmaSem sig) ≠ b.sem) : dcell d L a ≠ dcell d L b :=
  fun e => h (SemLoc.dma.inj (Prod.mk.inj e).2)

omit [FloatOps F] in
theorem ownSems0_V :
    (ownSems0 (V d (cV L) (jV L)) : sProp 𝕄)
      = iprop(semVal (dcell d L cc0_scoped0) 0 ∗ semVal (dcell d L cc0_scoped1) 0 ∗ semVal (dcell d L cc0_scoped2) 0 ∗ semVal (dcell d L cc0_scratch3) 0 ∗ semVal (dcell d L cc0_scratch4) 0 ∗ semVal (dcell d L cc0_scratch5) 0 ∗ semVal (dcell d L cc0_scratch6) 0 ∗ semVal (dcell d L cc0_scratch7) 0 ∗ semVal (dcell d L cc0_scratch8) 0 ∗ semVal (dcell d L cc0_scratch9) 0 ∗ semVal (dcell d L cc0_scratch10) 0 ∗ semVal (dcell d L cc0_scratch11) 0
          ∗ bigSep (((((((((((((ownCells (V d (cV L) (jV L))).erase (dcell d L cc0_scoped0)).erase (dcell d L cc0_scoped1)).erase (dcell d L cc0_scoped2)).erase (dcell d L cc0_scratch3)).erase (dcell d L cc0_scratch4)).erase (dcell d L cc0_scratch5)).erase (dcell d L cc0_scratch6)).erase (dcell d L cc0_scratch7)).erase (dcell d L cc0_scratch8)).erase (dcell d L cc0_scratch9)).erase (dcell d L cc0_scratch10)).erase (dcell d L cc0_scratch11)) fun g => semVal g 0) := by
  unfold SparseCore.Cfg.ownSems0
  rw [SparseCore.bigSep_erase' ((mem_ownCells (g := dcell d L cc0_scoped0)).mpr ⟨rfl, by show (SemLoc.dma cc0_scoped0.sem : SemLoc sig).isScoped .scVector = true; decide⟩),
    SparseCore.bigSep_erase' (Finset.mem_erase.mpr ⟨dcell_ne d L (by decide : (cc0_scoped1.sem : DmaSem sig) ≠ cc0_scoped0.sem), (mem_ownCells (g := dcell d L cc0_scoped1)).mpr ⟨rfl, by show (SemLoc.dma cc0_scoped1.sem : SemLoc sig).isScoped .scVector = true; decide⟩⟩),
    SparseCore.bigSep_erase' (Finset.mem_erase.mpr ⟨dcell_ne d L (by decide : (cc0_scoped2.sem : DmaSem sig) ≠ cc0_scoped1.sem), Finset.mem_erase.mpr ⟨dcell_ne d L (by decide : (cc0_scoped2.sem : DmaSem sig) ≠ cc0_scoped0.sem), (mem_ownCells (g := dcell d L cc0_scoped2)).mpr ⟨rfl, by show (SemLoc.dma cc0_scoped2.sem : SemLoc sig).isScoped .scVector = true; decide⟩⟩⟩),
    SparseCore.bigSep_erase' (Finset.mem_erase.mpr ⟨dcell_ne d L (by decide : (cc0_scratch3.sem : DmaSem sig) ≠ cc0_scoped2.sem), Finset.mem_erase.mpr ⟨dcell_ne d L (by decide : (cc0_scratch3.sem : DmaSem sig) ≠ cc0_scoped1.sem), Finset.mem_erase.mpr ⟨dcell_ne d L (by decide : (cc0_scratch3.sem : DmaSem sig) ≠ cc0_scoped0.sem), (mem_ownCells (g := dcell d L cc0_scratch3)).mpr ⟨rfl, by show (SemLoc.dma cc0_scratch3.sem : SemLoc sig).isScoped .scVector = true; decide⟩⟩⟩⟩),
    SparseCore.bigSep_erase' (Finset.mem_erase.mpr ⟨dcell_ne d L (by decide : (cc0_scratch4.sem : DmaSem sig) ≠ cc0_scratch3.sem), Finset.mem_erase.mpr ⟨dcell_ne d L (by decide : (cc0_scratch4.sem : DmaSem sig) ≠ cc0_scoped2.sem), Finset.mem_erase.mpr ⟨dcell_ne d L (by decide : (cc0_scratch4.sem : DmaSem sig) ≠ cc0_scoped1.sem), Finset.mem_erase.mpr ⟨dcell_ne d L (by decide : (cc0_scratch4.sem : DmaSem sig) ≠ cc0_scoped0.sem), (mem_ownCells (g := dcell d L cc0_scratch4)).mpr ⟨rfl, by show (SemLoc.dma cc0_scratch4.sem : SemLoc sig).isScoped .scVector = true; decide⟩⟩⟩⟩⟩),
    SparseCore.bigSep_erase' (Finset.mem_erase.mpr ⟨dcell_ne d L (by decide : (cc0_scratch5.sem : DmaSem sig) ≠ cc0_scratch4.sem), Finset.mem_erase.mpr ⟨dcell_ne d L (by decide : (cc0_scratch5.sem : DmaSem sig) ≠ cc0_scratch3.sem), Finset.mem_erase.mpr ⟨dcell_ne d L (by decide : (cc0_scratch5.sem : DmaSem sig) ≠ cc0_scoped2.sem), Finset.mem_erase.mpr ⟨dcell_ne d L (by decide : (cc0_scratch5.sem : DmaSem sig) ≠ cc0_scoped1.sem), Finset.mem_erase.mpr ⟨dcell_ne d L (by decide : (cc0_scratch5.sem : DmaSem sig) ≠ cc0_scoped0.sem), (mem_ownCells (g := dcell d L cc0_scratch5)).mpr ⟨rfl, by show (SemLoc.dma cc0_scratch5.sem : SemLoc sig).isScoped .scVector = true; decide⟩⟩⟩⟩⟩⟩),
    SparseCore.bigSep_erase' (Finset.mem_erase.mpr ⟨dcell_ne d L (by decide : (cc0_scratch6.sem : DmaSem sig) ≠ cc0_scratch5.sem), Finset.mem_erase.mpr ⟨dcell_ne d L (by decide : (cc0_scratch6.sem : DmaSem sig) ≠ cc0_scratch4.sem), Finset.mem_erase.mpr ⟨dcell_ne d L (by decide : (cc0_scratch6.sem : DmaSem sig) ≠ cc0_scratch3.sem), Finset.mem_erase.mpr ⟨dcell_ne d L (by decide : (cc0_scratch6.sem : DmaSem sig) ≠ cc0_scoped2.sem), Finset.mem_erase.mpr ⟨dcell_ne d L (by decide : (cc0_scratch6.sem : DmaSem sig) ≠ cc0_scoped1.sem), Finset.mem_erase.mpr ⟨dcell_ne d L (by decide : (cc0_scratch6.sem : DmaSem sig) ≠ cc0_scoped0.sem), (mem_ownCells (g := dcell d L cc0_scratch6)).mpr ⟨rfl, by show (SemLoc.dma cc0_scratch6.sem : SemLoc sig).isScoped .scVector = true; decide⟩⟩⟩⟩⟩⟩⟩),
    SparseCore.bigSep_erase' (Finset.mem_erase.mpr ⟨dcell_ne d L (by decide : (cc0_scratch7.sem : DmaSem sig) ≠ cc0_scratch6.sem), Finset.mem_erase.mpr ⟨dcell_ne d L (by decide : (cc0_scratch7.sem : DmaSem sig) ≠ cc0_scratch5.sem), Finset.mem_erase.mpr ⟨dcell_ne d L (by decide : (cc0_scratch7.sem : DmaSem sig) ≠ cc0_scratch4.sem), Finset.mem_erase.mpr ⟨dcell_ne d L (by decide : (cc0_scratch7.sem : DmaSem sig) ≠ cc0_scratch3.sem), Finset.mem_erase.mpr ⟨dcell_ne d L (by decide : (cc0_scratch7.sem : DmaSem sig) ≠ cc0_scoped2.sem), Finset.mem_erase.mpr ⟨dcell_ne d L (by decide : (cc0_scratch7.sem : DmaSem sig) ≠ cc0_scoped1.sem), Finset.mem_erase.mpr ⟨dcell_ne d L (by decide : (cc0_scratch7.sem : DmaSem sig) ≠ cc0_scoped0.sem), (mem_ownCells (g := dcell d L cc0_scratch7)).mpr ⟨rfl, by show (SemLoc.dma cc0_scratch7.sem : SemLoc sig).isScoped .scVector = true; decide⟩⟩⟩⟩⟩⟩⟩⟩),
    SparseCore.bigSep_erase' (Finset.mem_erase.mpr ⟨dcell_ne d L (by decide : (cc0_scratch8.sem : DmaSem sig) ≠ cc0_scratch7.sem), Finset.mem_erase.mpr ⟨dcell_ne d L (by decide : (cc0_scratch8.sem : DmaSem sig) ≠ cc0_scratch6.sem), Finset.mem_erase.mpr ⟨dcell_ne d L (by decide : (cc0_scratch8.sem : DmaSem sig) ≠ cc0_scratch5.sem), Finset.mem_erase.mpr ⟨dcell_ne d L (by decide : (cc0_scratch8.sem : DmaSem sig) ≠ cc0_scratch4.sem), Finset.mem_erase.mpr ⟨dcell_ne d L (by decide : (cc0_scratch8.sem : DmaSem sig) ≠ cc0_scratch3.sem), Finset.mem_erase.mpr ⟨dcell_ne d L (by decide : (cc0_scratch8.sem : DmaSem sig) ≠ cc0_scoped2.sem), Finset.mem_erase.mpr ⟨dcell_ne d L (by decide : (cc0_scratch8.sem : DmaSem sig) ≠ cc0_scoped1.sem), Finset.mem_erase.mpr ⟨dcell_ne d L (by decide : (cc0_scratch8.sem : DmaSem sig) ≠ cc0_scoped0.sem), (mem_ownCells (g := dcell d L cc0_scratch8)).mpr ⟨rfl, by show (SemLoc.dma cc0_scratch8.sem : SemLoc sig).isScoped .scVector = true; decide⟩⟩⟩⟩⟩⟩⟩⟩⟩),
    SparseCore.bigSep_erase' (Finset.mem_erase.mpr ⟨dcell_ne d L (by decide : (cc0_scratch9.sem : DmaSem sig) ≠ cc0_scratch8.sem), Finset.mem_erase.mpr ⟨dcell_ne d L (by decide : (cc0_scratch9.sem : DmaSem sig) ≠ cc0_scratch7.sem), Finset.mem_erase.mpr ⟨dcell_ne d L (by decide : (cc0_scratch9.sem : DmaSem sig) ≠ cc0_scratch6.sem), Finset.mem_erase.mpr ⟨dcell_ne d L (by decide : (cc0_scratch9.sem : DmaSem sig) ≠ cc0_scratch5.sem), Finset.mem_erase.mpr ⟨dcell_ne d L (by decide : (cc0_scratch9.sem : DmaSem sig) ≠ cc0_scratch4.sem), Finset.mem_erase.mpr ⟨dcell_ne d L (by decide : (cc0_scratch9.sem : DmaSem sig) ≠ cc0_scratch3.sem), Finset.mem_erase.mpr ⟨dcell_ne d L (by decide : (cc0_scratch9.sem : DmaSem sig) ≠ cc0_scoped2.sem), Finset.mem_erase.mpr ⟨dcell_ne d L (by decide : (cc0_scratch9.sem : DmaSem sig) ≠ cc0_scoped1.sem), Finset.mem_erase.mpr ⟨dcell_ne d L (by decide : (cc0_scratch9.sem : DmaSem sig) ≠ cc0_scoped0.sem), (mem_ownCells (g := dcell d L cc0_scratch9)).mpr ⟨rfl, by show (SemLoc.dma cc0_scratch9.sem : SemLoc sig).isScoped .scVector = true; decide⟩⟩⟩⟩⟩⟩⟩⟩⟩⟩),
    SparseCore.bigSep_erase' (Finset.mem_erase.mpr ⟨dcell_ne d L (by decide : (cc0_scratch10.sem : DmaSem sig) ≠ cc0_scratch9.sem), Finset.mem_erase.mpr ⟨dcell_ne d L (by decide : (cc0_scratch10.sem : DmaSem sig) ≠ cc0_scratch8.sem), Finset.mem_erase.mpr ⟨dcell_ne d L (by decide : (cc0_scratch10.sem : DmaSem sig) ≠ cc0_scratch7.sem), Finset.mem_erase.mpr ⟨dcell_ne d L (by decide : (cc0_scratch10.sem : DmaSem sig) ≠ cc0_scratch6.sem), Finset.mem_erase.mpr ⟨dcell_ne d L (by decide : (cc0_scratch10.sem : DmaSem sig) ≠ cc0_scratch5.sem), Finset.mem_erase.mpr ⟨dcell_ne d L (by decide : (cc0_scratch10.sem : DmaSem sig) ≠ cc0_scratch4.sem), Finset.mem_erase.mpr ⟨dcell_ne d L (by decide : (cc0_scratch10.sem : DmaSem sig) ≠ cc0_scratch3.sem), Finset.mem_erase.mpr ⟨dcell_ne d L (by decide : (cc0_scratch10.sem : DmaSem sig) ≠ cc0_scoped2.sem), Finset.mem_erase.mpr ⟨dcell_ne d L (by decide : (cc0_scratch10.sem : DmaSem sig) ≠ cc0_scoped1.sem), Finset.mem_erase.mpr ⟨dcell_ne d L (by decide : (cc0_scratch10.sem : DmaSem sig) ≠ cc0_scoped0.sem), (mem_ownCells (g := dcell d L cc0_scratch10)).mpr ⟨rfl, by show (SemLoc.dma cc0_scratch10.sem : SemLoc sig).isScoped .scVector = true; decide⟩⟩⟩⟩⟩⟩⟩⟩⟩⟩⟩),
    SparseCore.bigSep_erase' (Finset.mem_erase.mpr ⟨dcell_ne d L (by decide : (cc0_scratch11.sem : DmaSem sig) ≠ cc0_scratch10.sem), Finset.mem_erase.mpr ⟨dcell_ne d L (by decide : (cc0_scratch11.sem : DmaSem sig) ≠ cc0_scratch9.sem), Finset.mem_erase.mpr ⟨dcell_ne d L (by decide : (cc0_scratch11.sem : DmaSem sig) ≠ cc0_scratch8.sem), Finset.mem_erase.mpr ⟨dcell_ne d L (by decide : (cc0_scratch11.sem : DmaSem sig) ≠ cc0_scratch7.sem), Finset.mem_erase.mpr ⟨dcell_ne d L (by decide : (cc0_scratch11.sem : DmaSem sig) ≠ cc0_scratch6.sem), Finset.mem_erase.mpr ⟨dcell_ne d L (by decide : (cc0_scratch11.sem : DmaSem sig) ≠ cc0_scratch5.sem), Finset.mem_erase.mpr ⟨dcell_ne d L (by decide : (cc0_scratch11.sem : DmaSem sig) ≠ cc0_scratch4.sem), Finset.mem_erase.mpr ⟨dcell_ne d L (by decide : (cc0_scratch11.sem : DmaSem sig) ≠ cc0_scratch3.sem), Finset.mem_erase.mpr ⟨dcell_ne d L (by decide : (cc0_scratch11.sem : DmaSem sig) ≠ cc0_scoped2.sem), Finset.mem_erase.mpr ⟨dcell_ne d L (by decide : (cc0_scratch11.sem : DmaSem sig) ≠ cc0_scoped1.sem), Finset.mem_erase.mpr ⟨dcell_ne d L (by decide : (cc0_scratch11.sem : DmaSem sig) ≠ cc0_scoped0.sem), (mem_ownCells (g := dcell d L cc0_scratch11)).mpr ⟨rfl, by show (SemLoc.dma cc0_scratch11.sem : SemLoc sig).isScoped .scVector = true; decide⟩⟩⟩⟩⟩⟩⟩⟩⟩⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task's memrefs, as the program spells them, uniformly in the block number -/

omit [FloatOps F] in
theorem inbI (j : Fin 8) : ∀ a, (![j.val, 0] : Fin 2 → Nat) a + S1x64.size a ≤ S8x64.size a := by
  have := j.isLt; intro a; fin_cases a
  · show j.val + 1 ≤ 8; omega
  · show 0 + 64 ≤ 64; omega
omit [FloatOps F] in
theorem inbR (j : Fin 8) : ∀ a, (![j.val, 0, 0] : Fin 3 → Nat) a + S1x64x128.size a ≤ S8x64x128.size a := by
  have := j.isLt; intro a; fin_cases a
  · show j.val + 1 ≤ 8; omega
  · show 0 + 64 ≤ 64; omega
  · show 0 + 128 ≤ 128; omega
/-- Row `j` of the index scratch: the list of block `j`'s 64 row numbers. -/
abbrev iRow (j : Fin 8) : Memref sig .scVector .vmem S64 .i32 :=
  ((iV).slice (Rect.unit (s := S8x64) ![j.val, 0] S1x64.size (inbI j)) (fun _ => rfl)).squeeze S64 squeezes_S1x64_S64
/-- Block `j` of the row scratch: 64 gathered rows. -/
abbrev rBlk (j : Fin 8) : Memref sig .scVector .vmem S64x128 .f32 :=
  ((rV).slice (Rect.unit (s := S8x64x128) ![j.val, 0, 0] S1x64x128.size (inbR j)) (fun _ => rfl)).squeeze S64x128 squeezes_S1x64x128_S64x128
/-- The chunk of the result block `j` is written to. -/
abbrev oChk (L : grid0.Coords) (j : Fin 8) : Memref sig .scVector .hbm S64x128 .f32 :=
  (oV).slice (Rect.unit (s := S16384x128) (k0_off4 L (BitVec.ofNat 32 (64 * j.val))) S64x128.size (k0_off4_inb L j)) (fun _ => rfl)
/-- The tile's eight rows of the reshaped indices. -/
abbrev y2Rows (L : grid0.Coords) : Memref sig .scVector .hbm S8x64 .i32 :=
  (y2V).slice (Rect.unit (s := S256x64) (k0_off1 L) S8x64.size (k0_off1_inb L)) (fun _ => rfl)
/-- The slab of the shared memory and of the table a tile other than the last stages. -/
abbrev shSlab (L : grid0.Coords) (h : k0_cond1 L = 1#1) : Memref sig .scVector .shared S64x128 .f32 :=
  (shV).slice (Rect.unit (s := S1024x128) (k0_off2 L) S64x128.size (k0_off2_inb L h)) (fun _ => rfl)
abbrev tSlab (L : grid0.Coords) (h : k0_cond1 L = 1#1) : Memref sig .scVector .hbm S64x128 .f32 :=
  (tV).slice (Rect.unit (s := S1001x128) (k0_off3 L) S64x128.size (k0_off3_inb L h)) (fun _ => rfl)

omit [FloatOps F] in
theorem oRect_eq (j : Fin 8) :
    Rect.unit (s := S16384x128) (k0_off4 L (BitVec.ofNat 32 (64 * j.val))) S64x128.size (k0_off4_inb L j) = chunk (chunkIx (cL L) (jL L) j) := by
  unfold chunk Rect.part Rect.block
  congr 1 <;> funext a
  · rw [k0_off4_eq]
    match a with
    | 0 => simp [Shape.partIx, Shape.partSize, chunkIx]; omega
    | 1 => simp [Shape.partIx, Shape.partSize]
  · match a with
    | 0 => simp [Shape.partSize]
    | 1 => simp [Shape.partSize]

omit [FloatOps F] in
theorem set_oChk (j : Fin 8) : (oChk L j).view.set = chunkSet (chunkIx (cL L) (jL L) j) := by
  show ((oV).view.slice (Rect.unit (s := S16384x128) (k0_off4 L (BitVec.ofNat 32 (64 * j.val))) S64x128.size (k0_off4_inb L j))).set = ((oV).view.slice (chunk (chunkIx (cL L) (jL L) j))).set
  rw [oRect_eq]

omit [FloatOps F] in
theorem shRect_eq (h : k0_cond1 L = 1#1) :
    Rect.unit (s := S1024x128) (k0_off2 L) S64x128.size (k0_off2_inb L h) = slab (jL L) := by
  unfold slab Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_shSlab (h : k0_cond1 L = 1#1) : (shSlab L h).view.set = slabSet (jL L) := by
  show ((shV).view.slice (Rect.unit (s := S1024x128) (k0_off2 L) S64x128.size (k0_off2_inb L h))).set = ((shV).view.slice (slab (jL L))).set
  rw [shRect_eq L h]

/-! ## The two conditions of the staging, decided over the grid: a tile stages a full slab exactly when it is not the last -/

omit [FloatOps F] in
theorem notLast_of_cond1 : ∀ i : grid0.Coords, k0_cond1 i = 1#1 →
    ¬ (Scalar.cmpi .ne (Scalar.extui (Scalar.cmpi .eq (BitVec.ofNat 32 (i 1).val) 15#32)) 0#32 = 1#1) := by decide +kernel
omit [FloatOps F] in
theorem last_of_not_cond1 : ∀ i : grid0.Coords, ¬ (k0_cond1 i = 1#1) →
    Scalar.cmpi .ne (Scalar.extui (Scalar.cmpi .eq (BitVec.ofNat 32 (i 1).val) 15#32)) 0#32 = 1#1 := by decide +kernel
omit [FloatOps F] in
theorem sub_of_not_cond1 : ∀ i : grid0.Coords, ¬ (k0_cond1 i = 1#1) → (i 1).val = 15 := by decide +kernel
omit [FloatOps F] in
theorem sub_of_cond1 : ∀ i : grid0.Coords, k0_cond1 i = 1#1 → (i 1).val < 15 := by decide +kernel

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem pts_oChk (j : Fin 8) (f : Buf (Elt F) (oLoc d)) :
    ((oChk L j).view.loc (V d (cV L) (jV L)) ↦[(oChk L j).view.set]{fullShare} f : sProp 𝕄) = oLoc d ↦[chunkSet (chunkIx (cL L) (jL L) j)]{fullShare} f := by
  rw [set_oChk]
omit [FloatOps F] in
theorem pts_y2 (q : PosShare TreeShare) (f : Buf (Elt F) (y2Loc d)) :
    ((y2V).view.loc (V d (cV L) (jV L)) ↦{q} f : sProp 𝕄) = y2Loc d ↦{q} f := rfl
omit [FloatOps F] in
theorem pts_t (q : PosShare TreeShare) (f : Buf (Elt F) (tLoc d)) :
    ((tV).view.loc (V d (cV L) (jV L)) ↦{q} f : sProp 𝕄) = tLoc d ↦{q} f := rfl
omit [FloatOps F] in
theorem pts_iV (f : Buf (Elt F) ((V d (cV L) (jV L)).loc cc0_scratch0)) :
    ((iV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl
omit [FloatOps F] in
theorem pts_shSlab (h : k0_cond1 L = 1#1) (f : Buf (Elt F) (shLoc d (cV L))) :
    ((shSlab L h).view.loc (V d (cV L) (jV L)) ↦[(shSlab L h).view.set]{fullShare} f : sProp 𝕄) = shLoc d (cV L) ↦[slabSet (jL L)]{fullShare} f := by
  rw [set_shSlab]; rfl

end Tile

end Cert.Proof.KB

end
-- ==== Proof.KbSplit.lean ====
/-
  How a SparseCore's operands split among its sixteen tasks, and how what the tasks return gathers again.
  The SparseCore holds half a read share of the reshaped indices and of the table: each is cut into sixteen tokens,
  one per task, and a remainder that waits until the tasks are back. The result's chunks are already grouped by task.
  The shared memory, whole at the full share, is the disjoint union of sixteen slabs of 64 rows: task `i` takes slab `i`.
  Coming back, each task returns a read token of the whole shared memory, at contents of its own, and what it kept of
  its slab. The kept parts lie over disjoint slabs that cover the array, so they join into the whole array at one
  contents `G` under the remainder share. Two holders of one element agree on its value, so each token's contents equals
  `G` on every element and the token may be restated at `G`; the remainder and the sixteen tokens, all at `G`, are then
  the full share of the shared memory again.
-/
import proofs.«204386_g68401649156761_cont_9to1_m_854_20_alg».proof.Proof.KbSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ

local notation "y2V" => (Memref.whole Cert.Kernel.main_v0_scv : Memref Cert.Kernel.sig Kind.scVector Space.hbm Cert.Kernel.S256x64 EltTy.i32)
local notation "tV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "shV" => (Memref.whole Cert.Kernel.cc0_scratch2 : Memref Cert.Kernel.sig Kind.scVector Space.shared Cert.Kernel.S1024x128 EltTy.f32)

/-! ## Read tokens at contents of their own are tokens at the contents of any other holder -/

section Agree

variable {ℓ : Loc nD τ sig} {A : Finset (Idx ℓ)}

/-- Two holders of the same elements agree there, so the second may be restated at the first's contents. -/
theorem pointsTo_bring (r q : PosShare TreeShare) (G g : Buf (Elt F) ℓ) :
    iprop((ℓ ↦[A]{r} G) ∗ ℓ ↦[A]{q} g) ⊢ (iprop((ℓ ↦[A]{r} G) ∗ ℓ ↦[A]{q} G) : sProp 𝕄) :=
  pure_elim _ pointsTo_agree fun h =>
    Entails.of_eq (by rw [pointsTo_congr (f := g) (g := G) fun i hi => (h i (Finset.mem_inter.mpr ⟨hi, hi⟩)).1.symm])

/-- The same for a finite family of holders, each at contents of its own. -/
theorem pointsTo_bring_all {I : Type} [DecidableEq I] (r : PosShare TreeShare) (t : I → PosShare TreeShare) (G : Buf (Elt F) ℓ) (s : Finset I) :
    iprop((ℓ ↦[A]{r} G) ∗ bigSep s fun i => iprop(∃ g, ℓ ↦[A]{t i} g))
      ⊢ (iprop((ℓ ↦[A]{r} G) ∗ bigSep s fun i => ℓ ↦[A]{t i} G) : sProp 𝕄) := by
  induction s using Finset.induction_on with
  | empty => rw [bigSep_empty, bigSep_empty]
  | insert a s ha ih =>
    rw [SparseCore.bigSep_insert' ha, SparseCore.bigSep_insert' ha]
    iintro ⟨HG, ⟨%g, Ha⟩, Hs⟩
    ihave H := ih $$ [HG Hs]
    · isplitl [HG] <;> iassumption
    icases H with ⟨HG, Hs⟩
    ihave H := (pointsTo_bring r (t a) G g) $$ [HG Ha]
    · isplitl [HG] <;> iassumption
    icases H with ⟨HG, Ha⟩
    isplitl [HG]; · iexact HG
    isplitl [Ha] <;> iassumption

end Agree

/-! ## The sixteen slabs are the shared memory -/

theorem slabSet_eq (i : Fin 16) : slabSet i = (slab i).set := by
  show ((View.whole (cc0_scratch2 : Ref sig .scVector)).slice (slab i)).set = _
  rw [View.set_slice]; exact Finset.map_refl
theorem slabs_disjoint : ∀ i ∈ (Finset.univ : Finset (Fin 16)), ∀ j ∈ (Finset.univ : Finset (Fin 16)), i ≠ j → Disjoint (slabSet i) (slabSet j) :=
  fun i _ j _ h => by rw [slabSet_eq, slabSet_eq]; exact Rect.part_disjoint h16 h
theorem slabs_cover : (Finset.univ : Finset (Fin 16)).biUnion slabSet = Finset.univ :=
  (Finset.biUnion_congr rfl fun i _ => slabSet_eq i).trans (Rect.biUnion_part h16)

/-- At any share and contents, the shared memory is its sixteen slabs. -/
theorem sh_slabs (d : Dev nD) (c : Fin τ.nSC) (q : PosShare TreeShare) (f : Buf (Elt F) (shLoc d c)) :
    (shLoc d c ↦{q} f : sProp 𝕄) = bigSep Finset.univ fun i : Fin 16 => shLoc d c ↦[slabSet i]{q} f := by
  rw [← pointsTo_biUnion Finset.univ (ℓ := shLoc d c) slabSet slabs_disjoint, slabs_cover]; try rfl

variable [FloatOps F]

/-- The slabs, each at contents of its own, are the shared memory at some contents. -/
theorem sh_slabs_join (d : Dev nD) (c : Fin τ.nSC) (q : PosShare TreeShare) :
    (bigSep Finset.univ fun i : Fin 16 => iprop(∃ f, shLoc d c ↦[slabSet i]{q} f)) ⊢ (iprop(∃ G, shLoc d c ↦{q} G) : sProp 𝕄) := by
  refine (bigSep_exists_pi Finset.univ (fun i (f : Buf (Elt F) (shLoc d c)) => shLoc d c ↦[slabSet i]{q} f)).trans ?_
  iintro ⟨%fs, H⟩
  ihave H' := (pointsTo_biUnion_join Finset.univ slabSet fs (fs 0) slabs_disjoint) $$ H
  icases H' with ⟨%G, -, HG⟩
  rw [slabs_cover]
  iexists G; iexact HG

/-- What the tasks return of the shared memory is the shared memory at the full share again. -/
theorem sh_gather (d : Dev nD) (c : Fin τ.nSC) :
    iprop((bigSep Finset.univ fun i : Fin 16 => iprop(∃ g, shLoc d c ↦{shareTok fullShare 16 i} g))
        ∗ bigSep Finset.univ fun i : Fin 16 => iprop(∃ f, shLoc d c ↦[slabSet i]{shareDrop fullShare 16} f))
      ⊢ (iprop(∃ G, shLoc d c ↦{fullShare} G) : sProp 𝕄) := by
  iintro ⟨Htok, Hkept⟩
  ihave H := (sh_slabs_join d c (shareDrop fullShare 16)) $$ Hkept
  icases H with ⟨%G, HG⟩
  ihave H := (pointsTo_bring_all (shareDrop fullShare 16) (fun i : Fin 16 => shareTok fullShare 16 i) G Finset.univ) $$ [HG Htok]
  · isplitl [HG] <;> iassumption
  iexists G
  iapply (Transfers.pointsTo_toks_join fullShare 16)
  iexact H

/-- A holder of the whole shared memory deals every slab, at some contents, to its task. -/
theorem sh_deal (d : Dev nD) (c : Fin τ.nSC) (f : Buf (Elt F) (shLoc d c)) :
    (shLoc d c ↦{fullShare} f : sProp 𝕄) ⊢ bigSep Finset.univ fun i : Fin 16 => iprop(∃ f, shLoc d c ↦[slabSet i]{fullShare} f) := by
  rw [sh_slabs]
  exact bigSep_mono fun i _ => BI.BIClass.exists_intro (Φ := fun f => (shLoc d c ↦[slabSet i]{fullShare} f : sProp 𝕄)) f

/-! ## The split -/

/-- The shared memory is among the sequencer's own buffers: they are it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable (m : (ℓ : Loc nD τ sig) → Buf (Elt F) ℓ)

/-- The split and the gathering for SparseCore `c` of the call, running as SparseCore `sc` of the device. -/
theorem split_core (d : Dev nD) (c : Fin 2) (sc : Fin τ.nSC) :
    iprop(stC m d c (m (oLoc d)) ∗ ownBufs (S d sc)) ⊢ |={Set.univ}=> iprop(
      (bigSep Finset.univ fun i : Fin 16 => goT m d c sc i)
      ∗ ((bigSep Finset.univ fun i : Fin 16 => tdT m d c sc i) -∗ iprop(stC m d c (Gout m d) ∗ ownBufs (S d sc)))) := by
  show iprop(iprop((y2Loc d ↦{coreShare c.val} Y2 m d) ∗ (tLoc d ↦{coreShare c.val} m (tLoc d)) ∗ bigSep Finset.univ fun i : Fin 16 => oChunks d c i (m (oLoc d)))
        ∗ ownBufs (S d sc)) ⊢ |={Set.univ}=> iprop(
      (bigSep Finset.univ fun i : Fin 16 => iprop(y2Tok m d c.val i ∗ tTok m d c.val i ∗ oChunks d c i (m (oLoc d)) ∗ ∃ f, shLoc d sc ↦[slabSet i]{fullShare} f))
      ∗ ((bigSep Finset.univ fun i : Fin 16 => iprop(y2Tok m d c.val i ∗ tTok m d c.val i ∗ oChunks d c i (Gout m d)
            ∗ (∃ g, shLoc d sc ↦{shareTok fullShare 16 i} g) ∗ ∃ f, shLoc d sc ↦[slabSet i]{shareDrop fullShare 16} f))
          -∗ iprop(iprop((y2Loc d ↦{coreShare c.val} Y2 m d) ∗ (tLoc d ↦{coreShare c.val} m (tLoc d)) ∗ bigSep Finset.univ fun i : Fin 16 => oChunks d c i (Gout m d))
              ∗ ownBufs (S d sc))))
  rw [bigSep_sep', bigSep_sep', bigSep_sep', bigSep_sep', bigSep_sep', bigSep_sep', bigSep_sep', ownBufs_S]
  iintro ⟨⟨Hy, Ht, Ho⟩, ⟨%fsh, Hsh⟩, Hrest⟩
  ihave Hy' := (Transfers.pointsTo_toks_split (coreShare c.val) 16) $$ Hy
  icases Hy' with ⟨Hyd, Hyt⟩
  ihave Ht' := (Transfers.pointsTo_toks_split (coreShare c.val) 16) $$ Ht
  icases Ht' with ⟨Htd, Htt⟩
  imodintro
  isplitl [Hyt Htt Ho Hsh]
  · isplitl [Hyt]; · iexact Hyt
    isplitl [Htt]; · iexact Htt
    isplitl [Ho]; · iexact Ho
    iapply (sh_deal d sc fsh); iexact Hsh
  iintro ⟨Hyt, Htt, Ho, Htok, Hkept⟩
  isplitl [Hyd Hyt Htd Htt Ho]
  · isplitl [Hyd Hyt]
    · iapply (Transfers.pointsTo_toks_join (coreShare c.val) 16); isplitl [Hyd] <;> iassumption
    isplitl [Htd Htt]
    · iapply (Transfers.pointsTo_toks_join (coreShare c.val) 16); isplitl [Htd] <;> iassumption
    iexact Ho
  isplitl [Htok Hkept]
  · iapply (sh_gather d sc); isplitl [Htok] <;> iassumption
  iexact Hrest

/-- How SparseCore `c`'s operands split among its sixteen tasks, and how their returns gather. -/
theorem vecSplit : (K (F := F)).VecSplit (P m) 0 := by
  intro d c
  show iprop(stC m d (Fin.cast nCore_zero c) (m (oLoc d)) ∗ ownBufs (S d (coreOf c))) ⊢ |={Set.univ}=> iprop(
      (bigSep Finset.univ fun i : Fin ((K (F := F)).nSub 0) => goT m d (Fin.cast nCore_zero c) (coreOf c) (Fin.cast nSub_zero i))
      ∗ ((bigSep Finset.univ fun i : Fin ((K (F := F)).nSub 0) => tdT m d (Fin.cast nCore_zero c) (coreOf c) (Fin.cast nSub_zero i))
          -∗ iprop(stC m d (Fin.cast nCore_zero c) (Gout m d) ∗ ownBufs (S d (coreOf c)))))
  rw [bigSep_tasks (F := F) (fun i => goT m d (Fin.cast nCore_zero c) (coreOf c) i),
    bigSep_tasks (F := F) (fun i => tdT m d (Fin.cast nCore_zero c) (coreOf c) i)]
  exact split_core m d (Fin.cast nCore_zero c) (coreOf c)

end Cert.Proof.KB

end
-- ==== Proof.KbValue.lean ====
/-
  The value of a tile's work, as equations between index functions.
  A memref the program forms is a placement of a small shape's indices in an array: a unit rectangle sends coordinate
  `y a` on axis `a` to `off a + y a`, a squeeze keeps the row-major position. Stated here: where each of the task's
  memrefs places its indices (rows `16 s + 8 c + y₀` of the reshaped indices, rows `1024 s + 512 c + 64 j + y₀` of the
  result, rows `64 s + y₀` of the shared copy and of the table, rows `960 + y₀` for the last slab); that the reshaped
  index array at `(a, b)` is index word `64 a + b`; that what a tile stages holds the table on its slab's rows; and that
  the block gathered through row `j` of the index scratch is the specification's lookup on the chunk it is written to:
  the word at `(j, y₀)` is index word `1024 s + 512 c + 64 j + y₀`, under the precondition it names a row of the table,
  the shared copy holds the table on that row, and the lookup reads that same row.
-/
import proofs.«204386_g68401649156761_cont_9to1_m_854_20_alg».proof.Proof.KbViews
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore (gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ
local notation "y2V" => (Memref.whole Cert.Kernel.main_v0_scv : Memref Cert.Kernel.sig Kind.scVector Space.hbm Cert.Kernel.S256x64 EltTy.i32)
local notation "tV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "shV" => (Memref.whole Cert.Kernel.cc0_scratch2 : Memref Cert.Kernel.sig Kind.scVector Space.shared Cert.Kernel.S1024x128 EltTy.f32)
local notation "iV" => (Memref.whole Cert.Kernel.cc0_scratch0 : Memref Cert.Kernel.sig Kind.scVector Space.vmem Cert.Kernel.S8x64 EltTy.i32)
local notation "rV" => (Memref.whole Cert.Kernel.cc0_scratch1 : Memref Cert.Kernel.sig Kind.scVector Space.vmem Cert.Kernel.S8x64x128 EltTy.f32)

/-! ## Three more memrefs, as the program spells them -/

/-- The whole shared copy, as every gather names its source. -/
abbrev shAll : Memref sig .scVector .shared S1024x128 .f32 :=
  (shV).slice (Rect.unit (s := S1024x128) ![0, 0] S1024x128.size inb_S1024x128_S1024x128_0_0) (fun _ => rfl)
/-- The last slab of the shared copy, rows `960 … 1000`: what the last tile stages into, -/
abbrev sh41 : Memref sig .scVector .shared S41x128 .f32 :=
  (shV).slice (Rect.unit (s := S1024x128) ![960, 0] S41x128.size inb_S1024x128_S41x128_960_0) (fun _ => rfl)
/-- and the table's rows it stages from. -/
abbrev t41 : Memref sig .scVector .hbm S41x128 .f32 :=
  (tV).slice (Rect.unit (s := S1001x128) ![960, 0] S41x128.size inb_S1001x128_S41x128_960_0) (fun _ => rfl)

/-! ## Where each memref places its indices -/

section Emb

variable (L : grid0.Coords)

theorem L0_lt : (L 0).val < 2 := (L 0).isLt
theorem L1_lt : (L 1).val < 16 := (L 1).isLt

theorem y2Rows_emb (y : S8x64.Idx) :
    (y2Rows L).view.emb y
      = (ix2 (⟨16 * (L 1).val + 8 * (L 0).val + (y 0).val, by have := L0_lt L; have := L1_lt L; have := idx2_lt0 y; omega⟩ : Fin 256)
          (⟨(y 1).val, idx2_lt1 y⟩ : Fin 64) : S256x64.Idx) := by
  funext a; apply Fin.ext
  match a with
  | ⟨0, _⟩ => show (k0_off1 L) 0 + 1 * (y 0).val = _; rw [k0_off1_eq]; simp
  | ⟨1, _⟩ => show (k0_off1 L) 1 + 1 * (y 1).val = _; rw [k0_off1_eq]; simp

theorem oChk_emb (j : Fin 8) (y : S64x128.Idx) :
    (oChk L j).view.emb y
      = (ix2 (⟨1024 * (L 1).val + 512 * (L 0).val + 64 * j.val + (y 0).val, by have := L0_lt L; have := L1_lt L; have := idx2_lt0 y; have := j.isLt; omega⟩ : Fin 16384)
          (⟨(y 1).val, idx2_lt1 y⟩ : Fin 128) : S16384x128.Idx) := by
  funext a; apply Fin.ext
  match a with
  | ⟨0, _⟩ => show (k0_off4 L (BitVec.ofNat 32 (64 * j.val))) 0 + 1 * (y 0).val = _; rw [k0_off4_eq]; simp
  | ⟨1, _⟩ => show (k0_off4 L (BitVec.ofNat 32 (64 * j.val))) 1 + 1 * (y 1).val = _; rw [k0_off4_eq]; simp

theorem shSlab_emb (h : k0_cond1 L = 1#1) (y : S64x128.Idx) :
    (shSlab L h).view.emb y
      = (ix2 (⟨64 * (L 1).val + (y 0).val, by have := L1_lt L; have := idx2_lt0 y; omega⟩ : Fin 1024)
          (⟨(y 1).val, idx2_lt1 y⟩ : Fin 128) : S1024x128.Idx) := by
  funext a; apply Fin.ext
  match a with
  | ⟨0, _⟩ => show (k0_off2 L) 0 + 1 * (y 0).val = _; rw [k0_off2_eq]; simp
  | ⟨1, _⟩ => show (k0_off2 L) 1 + 1 * (y 1).val = _; rw [k0_off2_eq]; simp

theorem tSlab_emb (h : k0_cond1 L = 1#1) (y : S64x128.Idx) :
    (tSlab L h).view.emb y
      = (ix2 (⟨64 * (L 1).val + (y 0).val, by have := sub_of_cond1 L h; have := idx2_lt0 y; omega⟩ : Fin 1001)
          (⟨(y 1).val, idx2_lt1 y⟩ : Fin 128) : S1001x128.Idx) := by
  funext a; apply Fin.ext
  match a with
  | ⟨0, _⟩ => show (k0_off3 L) 0 + 1 * (y 0).val = _; rw [k0_off3_eq]; simp
  | ⟨1, _⟩ => show (k0_off3 L) 1 + 1 * (y 1).val = _; rw [k0_off3_eq]; simp

theorem sh41_emb (y : S41x128.Idx) :
    (sh41).view.emb y
      = (ix2 (⟨960 + (y 0).val, by have := idx2_lt0 y; omega⟩ : Fin 1024) (⟨(y 1).val, idx2_lt1 y⟩ : Fin 128) : S1024x128.Idx) := by
  funext a; apply Fin.ext
  match a with
  | ⟨0, _⟩ => show 960 + 1 * (y 0).val = _; simp
  | ⟨1, _⟩ => show 0 + 1 * (y 1).val = _; simp

theorem t41_emb (y : S41x128.Idx) :
    (t41).view.emb y
      = (ix2 (⟨960 + (y 0).val, by have := idx2_lt0 y; omega⟩ : Fin 1001) (⟨(y 1).val, idx2_lt1 y⟩ : Fin 128) : S1001x128.Idx) := by
  funext a; apply Fin.ext
  match a with
  | ⟨0, _⟩ => show 960 + 1 * (y 0).val = _; simp
  | ⟨1, _⟩ => show 0 + 1 * (y 1).val = _; simp

theorem shAll_emb (y : S1024x128.Idx) : (shAll).view.emb y = y := by
  funext a; apply Fin.ext
  match a with
  | ⟨0, _⟩ => show 0 + 1 * (y 0).val = _; simp
  | ⟨1, _⟩ => show 0 + 1 * (y 1).val = _; simp

theorem iRow_emb (j : Fin 8) (z : S64.Idx) :
    (iRow j).view.emb z = (ix2 j (⟨(z 0).val, (z 0).isLt⟩ : Fin 64) : S8x64.Idx) := by
  have hz : Shape.reshapeEquiv (squeezes_S1x64_S64).numel_eq z = (ix2 (0 : Fin 1) (⟨(z 0).val, (z 0).isLt⟩ : Fin 64) : S1x64.Idx) :=
    Shape.reshapeEquiv_eq_of_rowMajor _ (by rw [Shape.rowMajor_val_two, Shape.rowMajor_val_one]; simp)
  show (Rect.unit (s := S8x64) ![j.val, 0] S1x64.size (inbI j)).emb (Shape.reshapeEquiv (squeezes_S1x64_S64).numel_eq z) = _
  rw [hz]
  funext a; apply Fin.ext
  match a with
  | ⟨0, _⟩ => show j.val + 1 * 0 = _; simp
  | ⟨1, _⟩ => show 0 + 1 * (z 0).val = _; simp

end Emb

/-! ## The reshaped index array -/

section Contents

variable (m : (ℓ : Loc nD τ sig) → Buf (Elt F) ℓ)

theorem Y2_apply (d : Dev nD) (a : Fin 256) (b : Fin 64) :
    Y2 m d (ix2 a b) = (m (yLoc d) : IVec S16384 32) (ix1 ⟨64 * a.val + b.val, by have := a.isLt; have := b.isLt; omega⟩) := by
  unfold Y2
  refine shapeCast_apply (m (yLoc d) : IVec S16384 32) shapeCasts_S16384_S256x64 (ix2 a b)
    (ix1 (⟨64 * a.val + b.val, by have := a.isLt; have := b.isLt; omega⟩ : Fin 16384)) ?_
  show (S16384.rowMajor (ix1 (⟨64 * a.val + b.val, by have := a.isLt; have := b.isLt; omega⟩ : Fin 16384))).val = (S256x64.rowMajor (ix2 a b)).val
  rw [Shape.rowMajor_val_one, Shape.rowMajor_val_two]
  show 64 * a.val + b.val = a.val * 64 + b.val
  omega

end Contents

/-! ## What a tile stages -/

section Staging

variable (m : (ℓ : Loc nD τ sig) → Buf (Elt F) ℓ) [FloatOps F] (d : Dev nD) (L : grid0.Coords)

theorem whole_emb {s : Shape} (y : s.Idx) : (Rect.whole s).emb y = y := by
  funext a; apply Fin.ext
  show 0 + 1 * (y a).val = (y a).val
  omega

/-- A tile other than the last: after its copy the shared memory holds the table on its slab's rows. -/
theorem staged_full (h : k0_cond1 L = 1#1) (fsh : Buf (Elt F) (shLoc d (cV L))) :
    Staged m d (cV L) (L 1).val ((shSlab L h).view.writes (Elt F) fsh
      [⟨Rect.whole S64x128, (ReadAs.same : ReadAs (Elt F) S64x128 .f32 S64x128 .f32).apply ((tSlab L h).view.read (Elt F) (m (tLoc d)))⟩]) := by
  intro r k hr hi
  have hs := L1_lt L
  have hlt : r.val % 64 < 64 := Nat.mod_lt _ (by omega)
  have key := View.read_writes_cons_emb (shSlab L h).view fsh (Rect.whole S64x128)
    ((ReadAs.same : ReadAs (Elt F) S64x128 .f32 S64x128 .f32).apply ((tSlab L h).view.read (Elt F) (m (tLoc d)))) []
    (ix2 (⟨r.val % 64, hlt⟩ : Fin 64) k)
  rw [whole_emb, View.read_apply, shSlab_emb] at key
  have e1 : (ix2 r k : S1024x128.Idx) = ix2 (⟨64 * (L 1).val + r.val % 64, by omega⟩ : Fin 1024) (⟨k.val, k.isLt⟩ : Fin 128) := by
    congr 1; apply Fin.ext; show r.val = 64 * (L 1).val + r.val % 64; omega
  rw [e1]
  refine (cast_eq _ _).symm.trans (key.trans ?_)
  show (tSlab L h).view.read (Elt F) (m (tLoc d)) (ix2 (⟨r.val % 64, hlt⟩ : Fin 64) k) = _
  rw [View.read_apply, tSlab_emb]
  refine (cast_eq _ _).trans ?_
  congr 1
  congr 1; apply Fin.ext; show 64 * (L 1).val + r.val % 64 = r.val; omega

/-- The last tile: after its copy the shared memory holds the table's last 41 rows on the last slab. -/
theorem staged_last (fsh : Buf (Elt F) (shLoc d (cV L))) :
    Staged m d (cV L) 15 ((sh41).view.writes (Elt F) fsh
      [⟨Rect.whole S41x128, (ReadAs.same : ReadAs (Elt F) S41x128 .f32 S41x128 .f32).apply ((t41).view.read (Elt F) (m (tLoc d)))⟩]) := by
  intro r k hr hi
  have hlt : r.val - 960 < 41 := by omega
  have key := View.read_writes_cons_emb (sh41).view fsh (Rect.whole S41x128)
    ((ReadAs.same : ReadAs (Elt F) S41x128 .f32 S41x128 .f32).apply ((t41).view.read (Elt F) (m (tLoc d)))) []
    (ix2 (⟨r.val - 960, hlt⟩ : Fin 41) k)
  rw [whole_emb, View.read_apply, sh41_emb] at key
  have e1 : (ix2 r k : S1024x128.Idx) = ix2 (⟨960 + (r.val - 960), by omega⟩ : Fin 1024) (⟨k.val, k.isLt⟩ : Fin 128) := by
    congr 1; apply Fin.ext; show r.val = 960 + (r.val - 960); omega
  rw [e1]
  refine (cast_eq _ _).symm.trans (key.trans ?_)
  show (t41).view.read (Elt F) (m (tLoc d)) (ix2 (⟨r.val - 960, hlt⟩ : Fin 41) k) = _
  rw [View.read_apply, t41_emb]
  refine (cast_eq _ _).trans ?_
  congr 1
  congr 1; apply Fin.ext; show 960 + (r.val - 960) = r.val; omega

/-- Off the last slab's elements the last tile's copy changes nothing. -/
theorem staged_last_rest (fsh : Buf (Elt F) (shLoc d (cV L))) :
    ∀ i, i ∉ (sh41).view.set → ((sh41).view.writes (Elt F) fsh
      [⟨Rect.whole S41x128, (ReadAs.same : ReadAs (Elt F) S41x128 .f32 S41x128 .f32).apply ((t41).view.read (Elt F) (m (tLoc d)))⟩]) i = fsh i :=
  fun i hi => View.writes_apply_of_forall_ne (sh41).view fsh _ fun y e => hi (e ▸ (sh41).view.emb_mem_set y)

end Staging

/-! ## The block a tile gathers is the lookup on its chunk -/

section Block

variable (m : (ℓ : Loc nD τ sig) → Buf (Elt F) ℓ) [FloatOps F] (d : Dev nD) (L : grid0.Coords)

/-- A rank-one index at a row-major position has that position as its coordinate. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- Under the precondition every index word, read unsigned, names a row of the table. -/
theorem word_lt (hpre : PreOK m) (r : Fin 16384) : ((m (yLoc d) : IVec S16384 32) (ix1 r)).toNat < 1001 := by
  obtain ⟨h0, h1⟩ := hpre d r
  have hlt := ((m (yLoc d) : IVec S16384 32) (ix1 r)).isLt
  rw [BitVec.toInt_eq_toNat_cond] at h0 h1
  split at h0 <;> omega

variable (W : Buf (Elt F) ((V d (cV L) (jV L)).loc cc0_scratch0))
  (hW : ∀ x : S8x64.Idx, (W : S8x64.Idx → Elt F .i32) x = (Y2 m d) ((y2Rows L).view.emb x))

include hW in
/-- Place `x` of block `j`'s list is index word `1024 s + 512 c + 64 j + x`. -/
theorem iRow_read (j : Fin 8) (x : S64.Idx) :
    (iRow j).view.read (Elt F) W x
      = (m (yLoc d) : IVec S16384 32) (ix1 (⟨1024 * (L 1).val + 512 * (L 0).val + 64 * j.val + (x 0).val,
          by have := L0_lt L; have := L1_lt L; have := j.isLt; have hx : (x 0).val < 64 := (x 0).isLt; omega⟩ : Fin 16384)) := by
  rw [View.read_apply, iRow_emb]
  refine (cast_eq _ _).trans ?_
  rw [hW, y2Rows_emb, Y2_apply]
  congr 2
  apply Fin.ext
  show 64 * (16 * (L 1).val + 8 * (L 0).val + j.val) + (x 0).val = 1024 * (L 1).val + 512 * (L 0).val + 64 * j.val + (x 0).val
  omega

include hW in
/-- Every word of block `j`'s list names a row of the shared copy. -/
theorem hin_of_pre (hpre : PreOK m) (j : Fin 8) :
    ∀ x : S64.Idx, ((iRow j).view.read (Elt F) W x).toNat < S1024x128.size gathers_S1024x128_S64x128.axis := by
  intro x
  rw [iRow_read m d L W hW j x]
  exact Nat.lt_trans (word_lt m d hpre _) (by decide)

include hW in
/-- What the gather of block `j` delivers is the lookup on the chunk block `j` is written to. -/
theorem block_value (Gsh : Buf (Elt F) (shLoc d (cV L))) (hG : ∀ i : ℕ, Staged m d (cV L) i Gsh) (hpre : PreOK m) (j : Fin 8)
    (hin : ∀ x, ((iRow j).view.read (Elt F) W x).toNat < S1024x128.size gathers_S1024x128_S64x128.axis) : ∀ y : S64x128.Idx,
    gatherPayload gathers_S1024x128_S64x128 ((shAll).view.read (Elt F) Gsh) (rows ((iRow j).view.read (Elt F) W) rfl hin) y
      = (Gout m d) ((oChk L j).view.emb y) := by
  intro y
  have hR : 1024 * (L 1).val + 512 * (L 0).val + 64 * j.val + (y 0).val < 16384 := by
    have := L0_lt L; have := L1_lt L; have := j.isLt; have := idx2_lt0 y; omega
  have hw := word_lt m d hpre ⟨_, hR⟩
  -- the source index the gather reads for `y`
  have hidx : gathers_S1024x128_S64x128.idx (rows ((iRow j).view.read (Elt F) W) rfl hin) y
      = (ix2 (⟨((m (yLoc d) : IVec S16384 32) (ix1 ⟨_, hR⟩)).toNat, Nat.lt_trans hw (by decide)⟩ : Fin 1024) (⟨(y 1).val, idx2_lt1 y⟩ : Fin 128) : S1024x128.Idx) := by
    funext b; apply Fin.ext
    match b with
    | ⟨0, _⟩ =>
      have h0 := Shape.Gathers.idx_axis gathers_S1024x128_S64x128 (rows ((iRow j).view.read (Elt F) W) rfl hin) y
      refine (congrArg Fin.val h0).trans ?_
      show ((iRow j).view.read (Elt F) W (S64.rowMajor.symm _)).toNat = _
      rw [iRow_read m d L W hW j]
      congr 4
      refine congrArg (1024 * (L 1).val + 512 * (L 0).val + 64 * j.val + ·) ?_
      exact rowMajor_symm_val_one (n := 64) _
    | ⟨1, _⟩ => exact Shape.Gathers.idx_of_ne gathers_S1024x128_S64x128 _ y ⟨1, by decide⟩ (by decide)
  show (shAll).view.read (Elt F) Gsh (gathers_S1024x128_S64x128.idx (rows ((iRow j).view.read (Elt F) W) rfl hin) y) = _
  rw [hidx, View.read_apply, shAll_emb, oChk_emb]
  refine (cast_eq _ _).trans ?_
  refine (hG _ ⟨_, Nat.lt_trans hw (by decide)⟩ ⟨(y 1).val, idx2_lt1 y⟩ hw rfl).trans ?_
  show _ = Cert.Spec.lookup (m (yLoc d) : IVec Cert.Spec.SIdx 32) (m (tLoc d) : Cert.Spec.STab.Idx → Elt F .f32) (ix2 (⟨_, hR⟩ : Fin 16384) (⟨(y 1).val, idx2_lt1 y⟩ : Fin 128))
  rw [Cert.Spec.lookup_ix2]
  congr 2
  apply Fin.ext
  exact (Cert.Spec.row_val_of_range _ _ (hpre d ⟨_, hR⟩).1 (hpre d ⟨_, hR⟩).2).symm

include hW in
/-- The same on the chunk's elements, after the block is written there over any contents. -/
theorem block_value_set (Gsh : Buf (Elt F) (shLoc d (cV L))) (hG : ∀ i : ℕ, Staged m d (cV L) i Gsh) (hpre : PreOK m) (j : Fin 8)
    (hin : ∀ x, ((iRow j).view.read (Elt F) W x).toNat < S1024x128.size gathers_S1024x128_S64x128.axis) (fo : Buf (Elt F) (oLoc d)) :
    ∀ i ∈ (oChk L j).view.set, ((oChk L j).view.write (Elt F) fo
      (gatherPayload gathers_S1024x128_S64x128 ((shAll).view.read (Elt F) Gsh) (rows ((iRow j).view.read (Elt F) W) rfl hin)) Finset.univ) i = (Gout m d) i := by
  intro i hi
  obtain ⟨y, -, rfl⟩ := Finset.mem_map.mp hi
  rw [View.write_emb_of_mem _ _ (Finset.mem_univ y)]
  refine (cast_eq _ _).trans ?_
  exact block_value m d L W hW Gsh hG hpre j hin y

end Block

/-! ## What a chunk of the result ends at -/

section Final

variable (m : (ℓ : Loc nD τ sig) → Buf (Elt F) ℓ) [FloatOps F] (d : Dev nD) (L : grid0.Coords)

/-- The index scratch after the tile's rows of the reshaped indices are copied in, over any contents. -/
abbrev Wc (fi : Buf (Elt F) ((V d (cV L) (jV L)).loc cc0_scratch0)) : Buf (Elt F) ((V d (cV L) (jV L)).loc cc0_scratch0) :=
  View.write (Elt F) (iV).view fi ((ReadAs.same : ReadAs (Elt F) S8x64 .i32 S8x64 .i32).apply ((y2Rows L).view.read (Elt F) (Y2 m d))) Finset.univ

/-- It holds those rows. -/
theorem Wc_apply (fi : Buf (Elt F) ((V d (cV L) (jV L)).loc cc0_scratch0)) :
    ∀ x : S8x64.Idx, (Wc m d L fi : S8x64.Idx → Elt F .i32) x = Y2 m d ((y2Rows L).view.emb x) := by
  intro x
  have h := View.write_emb_of_mem (v := (iV).view) (Val := Elt F) fi
    ((ReadAs.same : ReadAs (Elt F) S8x64 .i32 S8x64 .i32).apply ((y2Rows L).view.read (Elt F) (Y2 m d))) (M := Finset.univ) (Finset.mem_univ x)
  refine (show (Wc m d L fi : S8x64.Idx → Elt F .i32) x = _ from h).trans ?_
  refine (cast_eq _ _).trans ?_
  exact (View.read_apply _ x).trans (cast_eq _ _)

/-- Block `k`'s payload: what the gather through row `k` of that index scratch delivers out of the shared copy `G`. -/
abbrev Pk (fi : Buf (Elt F) ((V d (cV L) (jV L)).loc cc0_scratch0)) (G : Buf (Elt F) (shLoc d (cV L))) (hpre : PreOK m) (k : Fin 8) :
    S64x128.Idx → Elt F .f32 :=
  gatherPayload gathers_S1024x128_S64x128 ((shAll).view.read (Elt F) G)
    (rows ((iRow k).view.read (Elt F) (Wc m d L fi)) rfl (hin_of_pre m d L (Wc m d L fi) (Wc_apply m d L fi) hpre k))

/-- Block `j` of the row scratch places `(y₀, y₁)` at `(j, y₀, y₁)`. -/
theorem rBlk_emb (j : Fin 8) (y : S64x128.Idx) :
    (rBlk j).view.emb y = (ix3 j (⟨(y 0).val, idx2_lt0 y⟩ : Fin 64) (⟨(y 1).val, idx2_lt1 y⟩ : Fin 128) : S8x64x128.Idx) := by
  have hz : Shape.reshapeEquiv (squeezes_S1x64x128_S64x128).numel_eq y
      = (ix3 (0 : Fin 1) (⟨(y 0).val, idx2_lt0 y⟩ : Fin 64) (⟨(y 1).val, idx2_lt1 y⟩ : Fin 128) : S1x64x128.Idx) :=
    Shape.reshapeEquiv_eq_of_rowMajor _ (by rw [Shape.rowMajor_val_three, Shape.rowMajor_val_two]; simp)
  show (Rect.unit (s := S8x64x128) ![j.val, 0, 0] S1x64x128.size (inbR j)).emb (Shape.reshapeEquiv (squeezes_S1x64x128_S64x128).numel_eq y) = _
  rw [hz]
  funext a; apply Fin.ext
  match a with
  | ⟨0, _⟩ => show j.val + 1 * 0 = _; simp
  | ⟨1, _⟩ => show 0 + 1 * (y 0).val = _; simp
  | ⟨2, _⟩ => show 0 + 1 * (y 1).val = _; simp

/-- A write of another block leaves block `j` as it was; -/
theorem blk_write_other (k j : Fin 8) (hkj : k ≠ j) (f : Buf (Elt F) ((V d (cV L) (jV L)).loc cc0_scratch1)) (w : S64x128.Idx → Elt F .f32)
    (y : S64x128.Idx) :
    (rBlk j).view.read (Elt F) ((rBlk k).view.write (Elt F) f w Finset.univ) y = (rBlk j).view.read (Elt F) f y := by
  refine View.read_congr_at y (View.write_of_not_mem _ _ _ fun hm => hkj ?_)
  obtain ⟨y', -, e⟩ := Finset.mem_map.mp hm
  rw [rBlk_emb, rBlk_emb] at e
  exact congrFun e 0
/-- a write of block `j` itself leaves its payload there. -/
theorem blk_write_same (j : Fin 8) (f : Buf (Elt F) ((V d (cV L) (jV L)).loc cc0_scratch1)) (w : S64x128.Idx → Elt F .f32) (y : S64x128.Idx) :
    (rBlk j).view.read (Elt F) ((rBlk j).view.write (Elt F) f w Finset.univ) y = w y :=
  View.read_write_of_mem (v := (rBlk j).view) (Val := Elt F) f w (Finset.mem_univ y)

/-- The row scratch after its eight blocks are written in turn, block `0` first, over any contents. -/
abbrev nest (fr : Buf (Elt F) ((V d (cV L) (jV L)).loc cc0_scratch1)) (P : Fin 8 → S64x128.Idx → Elt F .f32) :
    Buf (Elt F) ((V d (cV L) (jV L)).loc cc0_scratch1) :=
  View.write (Elt F) (rBlk 7).view (View.write (Elt F) (rBlk 6).view (View.write (Elt F) (rBlk 5).view (View.write (Elt F) (rBlk 4).view (View.write (Elt F) (rBlk 3).view (View.write (Elt F) (rBlk 2).view (View.write (Elt F) (rBlk 1).view (View.write (Elt F) (rBlk 0).view (fr) (P 0) Finset.univ) (P 1) Finset.univ) (P 2) Finset.univ) (P 3) Finset.univ) (P 4) Finset.univ) (P 5) Finset.univ) (P 6) Finset.univ) (P 7) Finset.univ

/-- Each block of it holds its own payload: the later writes are of other blocks. -/
theorem nest_read (fr : Buf (Elt F) ((V d (cV L) (jV L)).loc cc0_scratch1)) (P : Fin 8 → S64x128.Idx → Elt F .f32) (j : Fin 8) (y : S64x128.Idx) :
    (rBlk j).view.read (Elt F) (nest d L fr P) y = P j y := by
  fin_cases j
  · exact (blk_write_other d L 7 _ (by decide) _ _ y).trans <| (blk_write_other d L 6 _ (by decide) _ _ y).trans <| (blk_write_other d L 5 _ (by decide) _ _ y).trans <| (blk_write_other d L 4 _ (by decide) _ _ y).trans <| (blk_write_other d L 3 _ (by decide) _ _ y).trans <| (blk_write_other d L 2 _ (by decide) _ _ y).trans <| (blk_write_other d L 1 _ (by decide) _ _ y).trans <| blk_write_same d L _ _ _ y
  · exact (blk_write_other d L 7 _ (by decide) _ _ y).trans <| (blk_write_other d L 6 _ (by decide) _ _ y).trans <| (blk_write_other d L 5 _ (by decide) _ _ y).trans <| (blk_write_other d L 4 _ (by decide) _ _ y).trans <| (blk_write_other d L 3 _ (by decide) _ _ y).trans <| (blk_write_other d L 2 _ (by decide) _ _ y).trans <| blk_write_same d L _ _ _ y
  · exact (blk_write_other d L 7 _ (by decide) _ _ y).trans <| (blk_write_other d L 6 _ (by decide) _ _ y).trans <| (blk_write_other d L 5 _ (by decide) _ _ y).trans <| (blk_write_other d L 4 _ (by decide) _ _ y).trans <| (blk_write_other d L 3 _ (by decide) _ _ y).trans <| blk_write_same d L _ _ _ y
  · exact (blk_write_other d L 7 _ (by decide) _ _ y).trans <| (blk_write_other d L 6 _ (by decide) _ _ y).trans <| (blk_write_other d L 5 _ (by decide) _ _ y).trans <| (blk_write_other d L 4 _ (by decide) _ _ y).trans <| blk_write_same d L _ _ _ y
  · exact (blk_write_other d L 7 _ (by decide) _ _ y).trans <| (blk_write_other d L 6 _ (by decide) _ _ y).trans <| (blk_write_other d L 5 _ (by decide) _ _ y).trans <| blk_write_same d L _ _ _ y
  · exact (blk_write_other d L 7 _ (by decide) _ _ y).trans <| (blk_write_other d L 6 _ (by decide) _ _ y).trans <| blk_write_same d L _ _ _ y
  · exact (blk_write_other d L 7 _ (by decide) _ _ y).trans <| blk_write_same d L _ _ _ y
  · exact blk_write_same d L _ _ _ y

/-- What chunk `j` of the result ends at is the lookup on its elements. -/
theorem chunk_final (hpre : PreOK m) (fi : Buf (Elt F) ((V d (cV L) (jV L)).loc cc0_scratch0)) (fr : Buf (Elt F) ((V d (cV L) (jV L)).loc cc0_scratch1))
    (G : Buf (Elt F) (shLoc d (cV L))) (hG : ∀ i : ℕ, Staged m d (cV L) i G) (j : Fin 8) :
    ∀ i ∈ (oChk L j).view.set, ((oChk L j).view.writes (Elt F) (m (oLoc d))
      [⟨Rect.whole S64x128, (ReadAs.same : ReadAs (Elt F) S64x128 .f32 S64x128 .f32).apply
          ((rBlk j).view.read (Elt F) (nest d L fr (Pk m d L fi G hpre)))⟩]) i = (Gout m d) i := by
  intro i hi
  obtain ⟨y, -, rfl⟩ := Finset.mem_map.mp hi
  have key := View.read_writes_cons_emb (oChk L j).view (m (oLoc d)) (Rect.whole S64x128)
    ((ReadAs.same : ReadAs (Elt F) S64x128 .f32 S64x128 .f32).apply ((rBlk j).view.read (Elt F) (nest d L fr (Pk m d L fi G hpre)))) [] y
  rw [whole_emb, View.read_apply] at key
  refine (cast_eq _ _).symm.trans (key.trans ?_)
  show (rBlk j).view.read (Elt F) (nest d L fr (Pk m d L fi G hpre)) y = _
  rw [nest_read]
  exact block_value m d L (Wc m d L fi) (Wc_apply m d L fi) G hG hpre j _ y

end Final

end Cert.Proof.KB

end
-- ==== Proof.KbBody.lean ====
/-
  One tile's task, run. Tile `(c, s)` copies its eight index rows in, stages its slab of the table in the shared
  memory, hands each sibling a read share of the staged slab at the barrier and receives theirs — after which it holds a
  read share of the whole shared copy, at contents that hold the table on every row of the table —, gathers eight
  blocks of rows out of the shared copy and writes block `j` to its chunk of the result, which then holds the lookup.
-/
import proofs.«204386_g68401649156761_cont_9to1_m_854_20_alg».proof.Proof.KbViews
import proofs.«204386_g68401649156761_cont_9to1_m_854_20_alg».proof.Proof.KbSplit
import proofs.«204386_g68401649156761_cont_9to1_m_854_20_alg».proof.Proof.KbValue
import Idealize.ShloMosaic.Lib.Batch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ
local notation "y2V" => (Memref.whole Cert.Kernel.main_v0_scv : Memref Cert.Kernel.sig Kind.scVector Space.hbm Cert.Kernel.S256x64 EltTy.i32)
local notation "tV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "shV" => (Memref.whole Cert.Kernel.cc0_scratch2 : Memref Cert.Kernel.sig Kind.scVector Space.shared Cert.Kernel.S1024x128 EltTy.f32)
local notation "iV" => (Memref.whole Cert.Kernel.cc0_scratch0 : Memref Cert.Kernel.sig Kind.scVector Space.vmem Cert.Kernel.S8x64 EltTy.i32)
local notation "rV" => (Memref.whole Cert.Kernel.cc0_scratch1 : Memref Cert.Kernel.sig Kind.scVector Space.vmem Cert.Kernel.S8x64x128 EltTy.f32)

variable (m : (ℓ : Loc nD τ sig) → Buf (Elt F) ℓ) (ρ : Dev nD → PrngReg)
variable [FloatOps F]

section Tile

variable (d : Dev nD) (L : grid0.Coords)

/-- The shared copy's contents `G` hold the table on every row of the table. -/
def StagedAll (c : Fin τ.nSC) (G : Buf (Elt F) (shLoc d c)) : Prop := ∀ i : ℕ, Staged m d c i G

omit [FloatOps F] in
theorem slab_inb (i : Fin 16) : ∀ a, (![64 * i.val, 0] : Fin 2 → Nat) a + S64x128.size a ≤ S1024x128.size a := by
  have := i.isLt; intro a; fin_cases a
  · show 64 * i.val + 64 ≤ 1024; omega
  · show 0 + 128 ≤ 128; omega

omit [FloatOps F] in
/-- Slab `i` is rows `64 i … 64 i + 63`. -/
theorem slab_unit (i : Fin 16) : Rect.unit (s := S1024x128) ![64 * i.val, 0] S64x128.size (slab_inb i) = slab i := by
  unfold slab Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

omit [FloatOps F] in
/-- An element of the shared copy lies in slab `i` exactly when its row's quotient by 64 is `i`. -/
theorem mem_slabSet (i : Fin 16) (r : Fin 1024) (k : Fin 128) (h : r.val / 64 = i.val) : (ix2 r k : S1024x128.Idx) ∈ slabSet i := by
  rw [slabSet_eq, ← slab_unit, Rect.mem_set_unit]
  intro a; fin_cases a
  · show 64 * i.val ≤ r.val ∧ r.val < 64 * i.val + 64; omega
  · show 0 ≤ k.val ∧ k.val < 0 + 128; omega

set_option maxHeartbeats 1000000 in
/-- One sibling's round: tile `(c, s)`'s token of its staged slab is what its arrival there hands over. -/
theorem pay_one (f : Buf (Elt F) (shLoc d (cV L))) (hS : Staged m d (cV L) (jV L).val f) (j : Fin (grid0.bound 1)) :
    (shLoc d (cV L) ↦[slabSet (jL L)]{shareTok fullShare 16 (Fin.cast bound_one j)} f : sProp 𝕄)
      ⊢ (bRd (F := F) m).payload (bcell d (cV L) (j.castLE hsub0)) 0 (jV L).val := by
  show _ ⊢ bPay m (bcell d (cV L) (j.castLE hsub0)) (jV L).val
  unfold bPay; dsimp only
  rw [dif_pos (show (jV L).val < 16 from (jV L).isLt)]
  iintro H
  iexists f
  isplitr
  · ipureintro; exact hS
  · iexact H

omit [FloatOps F] in
theorem toks_cast (f : Buf (Elt F) (shLoc d (cV L))) :
    (bigSep Finset.univ fun j : Fin (grid0.bound 1) => (shLoc d (cV L) ↦[slabSet (jL L)]{shareTok fullShare 16 (Fin.cast bound_one j)} f : sProp 𝕄))
      = bigSep Finset.univ fun i : Fin 16 => (shLoc d (cV L) ↦[slabSet (jL L)]{shareTok fullShare 16 i} f : sProp 𝕄) :=
  bigSep_congr fun _ _ => rfl

set_option maxHeartbeats 1000000 in
/-- All the siblings' rounds at once. -/
theorem pay_all (f : Buf (Elt F) (shLoc d (cV L))) (hS : Staged m d (cV L) (jV L).val f) :
    (bigSep Finset.univ fun i : Fin 16 => (shLoc d (cV L) ↦[slabSet (jL L)]{shareTok fullShare 16 i} f : sProp 𝕄))
      ⊢ bigSep Finset.univ fun j : Fin (grid0.bound 1) => (bRd (F := F) m).payload (bcell d (cV L) (j.castLE hsub0)) 0 (jV L).val := by
  rw [← toks_cast (F := F) d L f]
  exact bigSep_mono fun j _ => pay_one (F := F) m d L f hS j

set_option maxHeartbeats 1000000 in
/-- Before the barrier: the staged slab, split into a read token per sibling's round and what the tile keeps. -/
theorem pays_intro (f : Buf (Elt F) (shLoc d (cV L))) (hS : Staged m d (cV L) (jV L).val f) :
    (shLoc d (cV L) ↦[slabSet (jL L)]{fullShare} f : sProp 𝕄)
      ⊢ iprop((bigSep Finset.univ fun j : Fin (grid0.bound 1) => (bRd (F := F) m).payload (bcell d (cV L) (j.castLE hsub0)) 0 (jV L).val)
          ∗ shLoc d (cV L) ↦[slabSet (jL L)]{shareDrop fullShare 16} f) :=
  (Transfers.pointsTo_toks_split (ℓ := shLoc d (cV L)) (S := slabSet (jL L)) (f := f) fullShare 16).trans
    (sep_symm.trans (sep_mono_left (pay_all (F := F) m d L f hS)))

set_option maxHeartbeats 2000000 in
/-- After it: what the tile's own round collected is a read token of the whole shared copy, at contents that hold the
    table. -/
theorem pays_elim :
    (bigSep ((bRd (F := F) m).duties (bcell d (cV L) (jV L)) 0 \ ∅) fun n => (bRd (F := F) m).payload (bcell d (cV L) (jV L)) 0 n)
      ⊢ (iprop(∃ G : Buf (Elt F) (shLoc d (cV L)), ⌜StagedAll m d (cV L) G⌝ ∗ shLoc d (cV L) ↦{shareTok fullShare 16 (jL L)} G) : sProp 𝕄) := by
  rw [Finset.sdiff_empty, bRd_duties₀]
  show bigSep ((Finset.univ : Finset (Fin 16)).image Fin.val) (fun n => bPay m (bcell d (cV L) (jV L)) n) ⊢ _
  rw [SparseCore.bigSep_image_of_injOn (fun a _ b _ e => Fin.val_injective e)]
  have hstep : ∀ i : Fin 16, bPay m (bcell d (cV L) (jV L)) i.val
      = iprop(∃ f : Buf (Elt F) (shLoc d (cV L)), ⌜Staged m d (cV L) i.val f⌝ ∗ shLoc d (cV L) ↦[slabSet i]{shareTok fullShare 16 (jL L)} f) := by
    intro i; unfold bPay; dsimp only; rw [dif_pos i.isLt]; rfl
  rw [bigSep_congr (fun i _ => hstep i)]
  refine (bigSep_exists_pi Finset.univ (fun (i : Fin 16) (f : Buf (Elt F) (shLoc d (cV L))) =>
    iprop(⌜Staged m d (cV L) i.val f⌝ ∗ shLoc d (cV L) ↦[slabSet i]{shareTok fullShare 16 (jL L)} f))).trans ?_
  iintro ⟨%fs, H⟩
  ihave H' := (bigSep_pure_sep Finset.univ (fun i : Fin 16 => Staged m d (cV L) i.val (fs i))
    (fun i : Fin 16 => (shLoc d (cV L) ↦[slabSet i]{shareTok fullShare 16 (jL L)} fs i : sProp 𝕄))) $$ H
  icases H' with ⟨%hSt, H⟩
  ihave H'' := (pointsTo_biUnion_join Finset.univ slabSet fs (fs 0) slabs_disjoint) $$ H
  icases H'' with ⟨%g, %hg, Hg⟩
  rw [slabs_cover]
  iexists g
  isplitr
  · ipureintro
    intro i r k hr hi
    have hi16 : i < 16 := by have := r.isLt; omega
    rw [hg ⟨i, hi16⟩ (Finset.mem_univ _) _ (mem_slabSet ⟨i, hi16⟩ r k hi)]
    exact hSt ⟨i, hi16⟩ (Finset.mem_univ _) r k hr hi
  · iexact Hg

omit [FloatOps F] in
theorem pts_sh (q : PosShare TreeShare) (f : Buf (Elt F) (shLoc d (cV L))) :
    ((shV).view.loc (V d (cV L) (jV L)) ↦{q} f : sProp 𝕄) = shLoc d (cV L) ↦{q} f := rfl

omit [FloatOps F] in
theorem pts_sh41 (f : Buf (Elt F) (shLoc d (cV L))) :
    ((sh41).view.loc (V d (cV L) (jV L)) ↦[(sh41).view.set]{fullShare} f : sProp 𝕄) = shLoc d (cV L) ↦[(sh41).view.set]{fullShare} f := rfl

omit [FloatOps F] in
/-- The rows the last tile stages lie in its slab. -/
theorem sh41_subset (hs : (L 1).val = 15) : (sh41).view.set ⊆ slabSet (jL L) := by
  intro x hx
  have e : (sh41).view.set = (Rect.unit (s := S1024x128) ![960, 0] S41x128.size inb_S1024x128_S41x128_960_0).set := View.set_slice_whole _ _
  rw [e, Rect.mem_set_unit] at hx
  rw [slabSet_eq, ← slab_unit, Rect.mem_set_unit]
  have hj : (jL L).val = 15 := hs
  intro a
  have h := hx a
  fin_cases a
  · have h' : 960 ≤ (x 0).val ∧ (x 0).val < 960 + 41 := h
    show 64 * (jL L).val ≤ (x 0).val ∧ (x 0).val < 64 * (jL L).val + 64
    omega
  · have h' : 0 ≤ (x 1).val ∧ (x 1).val < 0 + 128 := h
    show 0 ≤ (x 1).val ∧ (x 1).val < 0 + 128
    exact h'

omit [FloatOps F] in
/-- The staged rows at their new contents and the rest of the slab at the old are the slab at the new contents, which
    agree with the old off the staged rows. -/
theorem rejoin_last (hs : (L 1).val = 15) (g f : Buf (Elt F) (shLoc d (cV L))) (hoff : ∀ i, i ∉ (sh41).view.set → g i = f i) :
    iprop((shLoc d (cV L) ↦[(sh41).view.set]{fullShare} g) ∗ shLoc d (cV L) ↦[slabSet (jL L) \ (sh41).view.set]{fullShare} f)
      ⊢ (shLoc d (cV L) ↦[slabSet (jL L)]{fullShare} g : sProp 𝕄) := by
  refine (pointsTo_join_subset (sh41_subset L hs)).trans (Entails.of_eq (pointsTo_congr fun i _ => ?_))
  by_cases hi : i ∈ (sh41).view.set
  · rw [Finset.piecewise_eq_of_mem _ _ _ hi]
  · rw [Finset.piecewise_eq_of_notMem _ _ _ hi]; exact (hoff i hi).symm

set_option maxRecDepth 65536 in
set_option maxHeartbeats 8000000 in
/-- The task of a tile other than the last. -/
theorem tile_body_full (hF : (K (F := F)).Facts) (hpre : PreOK m) (h1 : k0_cond1 L = 1#1) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goT m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L y2V (Memref.isWhole_whole _) tV (Memref.isWhole_whole _) oV (Memref.isWhole_whole _) iV (Memref.isWhole_whole _) rV (Memref.isWhole_whole _)
            shV (Memref.isWhole_whole _) cc0_scratch3 cc0_scratch4 cc0_scratch5 cc0_scratch6 cc0_scratch7 cc0_scratch8 cc0_scratch9 cc0_scratch10 cc0_scratch11
            cc0_scoped0 cc0_scoped1 cc0_scoped2)
          fun _ => iprop(tdT m d (cL L) (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__gather_body_eq_skeleton]; unfold cc0__gather_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold bkit goT oChunks
  rw [bigSep_fin8]
  iintro ⟨#Hlv, ⟨⟨%κ, #Hinv⟩, Htoks, #Hrch, Hat, Hcred⟩, ⟨Hy2, Ht, ⟨Ho0, Ho1, Ho2, Ho3, Ho4, Ho5, Ho6, Ho7⟩, %fsh, Hsh⟩, ⟨⟨%fi, Hi⟩, ⟨%fr, Hr⟩, Hbufs⟩,
    ⟨Hs0, Hs1, Hs2, Hs3, Hs4, Hs5, Hs6, Hs7, Hs8, Hs9, Hs10, Hs11, Hsems⟩, HO⟩
  -- the waits' evidence: at index `none`, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hy2' := (Entails.of_eq (pts_y2 (F := F) d L _ _).symm) $$ Hy2
  ihave Ht' := (Entails.of_eq (pts_t (F := F) d L _ _).symm) $$ Ht
  ihave Hi' := (Entails.of_eq (pts_iV (F := F) d L _).symm) $$ Hi
  ihave Hsh' := (Entails.of_eq (pts_shSlab (F := F) d L h1 _).symm) $$ Hsh
  have hv9 := notLast_of_cond1 L h1
  -- the index rows in, the slab staged
  sl_exec
  ihave Hsh := (Entails.of_eq (pts_shSlab (F := F) d L h1 _)) $$ Hsh'
  ihave Hpays := (pays_intro (F := F) m d L _ ?hS) $$ Hsh
  case hS => exact staged_full m d L h1 fsh
  icases Hpays with ⟨Hpays, Hkeep⟩
  -- the barrier: the staged slab handed round, the siblings' received
  rw [bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim (F := F) m d L) $$ Hgot
  icases Hall with ⟨%G, %hG, HG⟩
  -- the index scratch's contents: the tile's eight rows of the reshaped indices; every word names a row of the table
  have hin0 := hin_of_pre m d L _ (Wc_apply m d L fi) hpre 0
  have hin1 := hin_of_pre m d L _ (Wc_apply m d L fi) hpre 1
  have hin2 := hin_of_pre m d L _ (Wc_apply m d L fi) hpre 2
  have hin3 := hin_of_pre m d L _ (Wc_apply m d L fi) hpre 3
  have hin4 := hin_of_pre m d L _ (Wc_apply m d L fi) hpre 4
  have hin5 := hin_of_pre m d L _ (Wc_apply m d L fi) hpre 5
  have hin6 := hin_of_pre m d L _ (Wc_apply m d L fi) hpre 6
  have hin7 := hin_of_pre m d L _ (Wc_apply m d L fi) hpre 7
  -- the shared copy as eight read tokens, one per gather
  ihave HG' := (Transfers.pointsTo_toks_split (ℓ := shLoc d (cV L)) (S := Finset.univ) (f := G) (shareTok fullShare 16 (jL L)) 8) $$ HG
  icases HG' with ⟨HGd, HGt⟩
  ihave HGt' := (Entails.of_eq (bigSep_fin8 (F := F) _)) $$ HGt
  icases HGt' with ⟨HG0, HG1, HG2, HG3, HG4, HG5, HG6, HG7⟩
  ihave Hr' := (Entails.of_eq (pts_rV (F := F) d L _).symm) $$ Hr
  ihave HG0' := (Entails.of_eq (pts_sh (F := F) d L _ _).symm) $$ HG0
  ihave HG1' := (Entails.of_eq (pts_sh (F := F) d L _ _).symm) $$ HG1
  ihave HG2' := (Entails.of_eq (pts_sh (F := F) d L _ _).symm) $$ HG2
  ihave HG3' := (Entails.of_eq (pts_sh (F := F) d L _ _).symm) $$ HG3
  ihave HG4' := (Entails.of_eq (pts_sh (F := F) d L _ _).symm) $$ HG4
  ihave HG5' := (Entails.of_eq (pts_sh (F := F) d L _ _).symm) $$ HG5
  ihave HG6' := (Entails.of_eq (pts_sh (F := F) d L _ _).symm) $$ HG6
  ihave HG7' := (Entails.of_eq (pts_sh (F := F) d L _ _).symm) $$ HG7
  ihave Ho0' := (Entails.of_eq (pts_oChk (F := F) d L 0 _).symm) $$ Ho0
  ihave Ho1' := (Entails.of_eq (pts_oChk (F := F) d L 1 _).symm) $$ Ho1
  ihave Ho2' := (Entails.of_eq (pts_oChk (F := F) d L 2 _).symm) $$ Ho2
  ihave Ho3' := (Entails.of_eq (pts_oChk (F := F) d L 3 _).symm) $$ Ho3
  ihave Ho4' := (Entails.of_eq (pts_oChk (F := F) d L 4 _).symm) $$ Ho4
  ihave Ho5' := (Entails.of_eq (pts_oChk (F := F) d L 5 _).symm) $$ Ho5
  ihave Ho6' := (Entails.of_eq (pts_oChk (F := F) d L 6 _).symm) $$ Ho6
  ihave Ho7' := (Entails.of_eq (pts_oChk (F := F) d L 7 _).symm) $$ Ho7
  -- the eight copies out share one semaphore: a batch of eight, drained by the last of its eight waits
  have hB : Transfers.BatchOf (V d (cV L) (jV L)) (SemLoc.dma cc0_scratch11.sem) 8 := trivial
  -- the gathers, and block by block the wait and the copy out; then the eight waits
  sl_exec
  sl_step
  -- the chunks hold the lookup
  ihave Ho0 := (Entails.of_eq ((pointsTo_congr (q := fullShare) (g := Gout m d) ?h0).trans (pts_oChk (F := F) d L 0 _))) $$ Ho0'
  case h0 => exact chunk_final m d L hpre fi fr G hG 0
  ihave Ho1 := (Entails.of_eq ((pointsTo_congr (q := fullShare) (g := Gout m d) ?h1).trans (pts_oChk (F := F) d L 1 _))) $$ Ho1'
  case h1 => exact chunk_final m d L hpre fi fr G hG 1
  ihave Ho2 := (Entails.of_eq ((pointsTo_congr (q := fullShare) (g := Gout m d) ?h2).trans (pts_oChk (F := F) d L 2 _))) $$ Ho2'
  case h2 => exact chunk_final m d L hpre fi fr G hG 2
  ihave Ho3 := (Entails.of_eq ((pointsTo_congr (q := fullShare) (g := Gout m d) ?h3).trans (pts_oChk (F := F) d L 3 _))) $$ Ho3'
  case h3 => exact chunk_final m d L hpre fi fr G hG 3
  ihave Ho4 := (Entails.of_eq ((pointsTo_congr (q := fullShare) (g := Gout m d) ?h4).trans (pts_oChk (F := F) d L 4 _))) $$ Ho4'
  case h4 => exact chunk_final m d L hpre fi fr G hG 4
  ihave Ho5 := (Entails.of_eq ((pointsTo_congr (q := fullShare) (g := Gout m d) ?h5).trans (pts_oChk (F := F) d L 5 _))) $$ Ho5'
  case h5 => exact chunk_final m d L hpre fi fr G hG 5
  ihave Ho6 := (Entails.of_eq ((pointsTo_congr (q := fullShare) (g := Gout m d) ?h6).trans (pts_oChk (F := F) d L 6 _))) $$ Ho6'
  case h6 => exact chunk_final m d L hpre fi fr G hG 6
  ihave Ho7 := (Entails.of_eq ((pointsTo_congr (q := fullShare) (g := Gout m d) ?h7).trans (pts_oChk (F := F) d L 7 _))) $$ Ho7'
  case h7 => exact chunk_final m d L hpre fi fr G hG 7
  -- the read tokens of the shared copy, joined again
  ihave HGall := (Transfers.pointsTo_toks_join (ℓ := shLoc d (cV L)) (S := Finset.univ) (f := G) (shareTok fullShare 16 (jL L)) 8) $$ [HGd HG0' HG1' HG2' HG3' HG4' HG5' HG6' HG7']
  · isplitl [HGd]; · iexact HGd
    iapply (Entails.of_eq (bigSep_fin8 (F := F) _).symm)
    isplitl [HG0']; · iexact HG0'
    isplitl [HG1']; · iexact HG1'
    isplitl [HG2']; · iexact HG2'
    isplitl [HG3']; · iexact HG3'
    isplitl [HG4']; · iexact HG4'
    isplitl [HG5']; · iexact HG5'
    isplitl [HG6']; · iexact HG6'
    iexact HG7'
  unfold tdT oChunks
  isplitl [Hy2' Ht' Ho0 Ho1 Ho2 Ho3 Ho4 Ho5 Ho6 Ho7 HGall Hkeep]
  · isplitl [Hy2']; · iapply (Entails.of_eq (pts_y2 (F := F) d L _ _)); iexact Hy2'
    isplitl [Ht']; · iapply (Entails.of_eq (pts_t (F := F) d L _ _)); iexact Ht'
    isplitl [Ho0 Ho1 Ho2 Ho3 Ho4 Ho5 Ho6 Ho7]
    · iapply (Entails.of_eq (bigSep_fin8 (F := F) _).symm)
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    isplitl [HGall]; · iexists G; iexact HGall
    iexists _; iexact Hkeep
  isplitl [Hi' Hr' Hbufs]
  · isplitl [Hi']; · iexists _; iexact Hi'
    isplitl [Hr']; · iexists _; iexact Hr'
    iexact Hbufs
  isplitl [Hs0 Hs1 Hs2 Hs3 Hs4 Hs5 Hs6 Hs7 Hs8 Hs9 Hs10 Hs11 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact Hsems
  iexists _; isplitr
  swap; · iexact HO
  ipureintro; intro p hp
  repeat (rcases Finset.mem_insert.mp hp with h | hp; · first | exact .inr (.inl (h ▸ rfl)) | exact .inr (.inr (h ▸ rfl)))
  exact .inl hp

set_option maxRecDepth 65536 in
set_option maxHeartbeats 8000000 in
/-- The task of the last tile. -/
theorem tile_body_last (hF : (K (F := F)).Facts) (hpre : PreOK m) (h1 : ¬ (k0_cond1 L = 1#1)) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goT m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L y2V (Memref.isWhole_whole _) tV (Memref.isWhole_whole _) oV (Memref.isWhole_whole _) iV (Memref.isWhole_whole _) rV (Memref.isWhole_whole _)
            shV (Memref.isWhole_whole _) cc0_scratch3 cc0_scratch4 cc0_scratch5 cc0_scratch6 cc0_scratch7 cc0_scratch8 cc0_scratch9 cc0_scratch10 cc0_scratch11
            cc0_scoped0 cc0_scoped1 cc0_scoped2)
          fun _ => iprop(tdT m d (cL L) (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__gather_body_eq_skeleton]; unfold cc0__gather_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold bkit goT oChunks
  rw [bigSep_fin8]
  iintro ⟨#Hlv, ⟨⟨%κ, #Hinv⟩, Htoks, #Hrch, Hat, Hcred⟩, ⟨Hy2, Ht, ⟨Ho0, Ho1, Ho2, Ho3, Ho4, Ho5, Ho6, Ho7⟩, %fsh, Hsh⟩, ⟨⟨%fi, Hi⟩, ⟨%fr, Hr⟩, Hbufs⟩,
    ⟨Hs0, Hs1, Hs2, Hs3, Hs4, Hs5, Hs6, Hs7, Hs8, Hs9, Hs10, Hs11, Hsems⟩, HO⟩
  -- the waits' evidence: at index `none`, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hy2' := (Entails.of_eq (pts_y2 (F := F) d L _ _).symm) $$ Hy2
  ihave Ht' := (Entails.of_eq (pts_t (F := F) d L _ _).symm) $$ Ht
  ihave Hi' := (Entails.of_eq (pts_iV (F := F) d L _).symm) $$ Hi
  -- the last tile: its slab is rows 960 … 1023, of which it stages the table's rows 960 … 1000
  have hs15 : (L 1).val = 15 := sub_of_not_cond1 L h1
  have hv9 := last_of_not_cond1 L h1
  ihave Hsh2 := ((pointsTo_split_subset (sh41_subset L hs15)).1) $$ Hsh
  icases Hsh2 with ⟨Hsh41, Hshrest⟩
  ihave Hsh41' := (Entails.of_eq (pts_sh41 (F := F) d L _).symm) $$ Hsh41
  -- the index rows in, the table's last rows staged
  sl_exec
  ihave Hsh41b := (Entails.of_eq (pts_sh41 (F := F) d L _)) $$ Hsh41'
  ihave Hsh := (rejoin_last (F := F) d L hs15 _ fsh ?hoff) $$ [Hsh41b Hshrest]
  case hoff => exact staged_last_rest m d L fsh
  · isplitl [Hsh41b]; · iexact Hsh41b
    iexact Hshrest
  ihave Hpays := (pays_intro (F := F) m d L _ ?hS) $$ Hsh
  case hS =>
    have hjv : (jV L).val = 15 := hs15
    rw [hjv]; exact staged_last m d L fsh
  icases Hpays with ⟨Hpays, Hkeep⟩
  -- the barrier: the staged slab handed round, the siblings' received
  rw [bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim (F := F) m d L) $$ Hgot
  icases Hall with ⟨%G, %hG, HG⟩
  -- the index scratch's contents: the tile's eight rows of the reshaped indices; every word names a row of the table
  have hin0 := hin_of_pre m d L _ (Wc_apply m d L fi) hpre 0
  have hin1 := hin_of_pre m d L _ (Wc_apply m d L fi) hpre 1
  have hin2 := hin_of_pre m d L _ (Wc_apply m d L fi) hpre 2
  have hin3 := hin_of_pre m d L _ (Wc_apply m d L fi) hpre 3
  have hin4 := hin_of_pre m d L _ (Wc_apply m d L fi) hpre 4
  have hin5 := hin_of_pre m d L _ (Wc_apply m d L fi) hpre 5
  have hin6 := hin_of_pre m d L _ (Wc_apply m d L fi) hpre 6
  have hin7 := hin_of_pre m d L _ (Wc_apply m d L fi) hpre 7
  -- the shared copy as eight read tokens, one per gather
  ihave HG' := (Transfers.pointsTo_toks_split (ℓ := shLoc d (cV L)) (S := Finset.univ) (f := G) (shareTok fullShare 16 (jL L)) 8) $$ HG
  icases HG' with ⟨HGd, HGt⟩
  ihave HGt' := (Entails.of_eq (bigSep_fin8 (F := F) _)) $$ HGt
  icases HGt' with ⟨HG0, HG1, HG2, HG3, HG4, HG5, HG6, HG7⟩
  ihave Hr' := (Entails.of_eq (pts_rV (F := F) d L _).symm) $$ Hr
  ihave HG0' := (Entails.of_eq (pts_sh (F := F) d L _ _).symm) $$ HG0
  ihave HG1' := (Entails.of_eq (pts_sh (F := F) d L _ _).symm) $$ HG1
  ihave HG2' := (Entails.of_eq (pts_sh (F := F) d L _ _).symm) $$ HG2
  ihave HG3' := (Entails.of_eq (pts_sh (F := F) d L _ _).symm) $$ HG3
  ihave HG4' := (Entails.of_eq (pts_sh (F := F) d L _ _).symm) $$ HG4
  ihave HG5' := (Entails.of_eq (pts_sh (F := F) d L _ _).symm) $$ HG5
  ihave HG6' := (Entails.of_eq (pts_sh (F := F) d L _ _).symm) $$ HG6
  ihave HG7' := (Entails.of_eq (pts_sh (F := F) d L _ _).symm) $$ HG7
  ihave Ho0' := (Entails.of_eq (pts_oChk (F := F) d L 0 _).symm) $$ Ho0
  ihave Ho1' := (Entails.of_eq (pts_oChk (F := F) d L 1 _).symm) $$ Ho1
  ihave Ho2' := (Entails.of_eq (pts_oChk (F := F) d L 2 _).symm) $$ Ho2
  ihave Ho3' := (Entails.of_eq (pts_oChk (F := F) d L 3 _).symm) $$ Ho3
  ihave Ho4' := (Entails.of_eq (pts_oChk (F := F) d L 4 _).symm) $$ Ho4
  ihave Ho5' := (Entails.of_eq (pts_oChk (F := F) d L 5 _).symm) $$ Ho5
  ihave Ho6' := (Entails.of_eq (pts_oChk (F := F) d L 6 _).symm) $$ Ho6
  ihave Ho7' := (Entails.of_eq (pts_oChk (F := F) d L 7 _).symm) $$ Ho7
  -- the eight copies out share one semaphore: a batch of eight, drained by the last of its eight waits
  have hB : Transfers.BatchOf (V d (cV L) (jV L)) (SemLoc.dma cc0_scratch11.sem) 8 := trivial
  -- the gathers, and block by block the wait and the copy out; then the eight waits
  sl_exec
  sl_step
  -- the chunks hold the lookup
  ihave Ho0 := (Entails.of_eq ((pointsTo_congr (q := fullShare) (g := Gout m d) ?h0).trans (pts_oChk (F := F) d L 0 _))) $$ Ho0'
  case h0 => exact chunk_final m d L hpre fi fr G hG 0
  ihave Ho1 := (Entails.of_eq ((pointsTo_congr (q := fullShare) (g := Gout m d) ?h1).trans (pts_oChk (F := F) d L 1 _))) $$ Ho1'
  case h1 => exact chunk_final m d L hpre fi fr G hG 1
  ihave Ho2 := (Entails.of_eq ((pointsTo_congr (q := fullShare) (g := Gout m d) ?h2).trans (pts_oChk (F := F) d L 2 _))) $$ Ho2'
  case h2 => exact chunk_final m d L hpre fi fr G hG 2
  ihave Ho3 := (Entails.of_eq ((pointsTo_congr (q := fullShare) (g := Gout m d) ?h3).trans (pts_oChk (F := F) d L 3 _))) $$ Ho3'
  case h3 => exact chunk_final m d L hpre fi fr G hG 3
  ihave Ho4 := (Entails.of_eq ((pointsTo_congr (q := fullShare) (g := Gout m d) ?h4).trans (pts_oChk (F := F) d L 4 _))) $$ Ho4'
  case h4 => exact chunk_final m d L hpre fi fr G hG 4
  ihave Ho5 := (Entails.of_eq ((pointsTo_congr (q := fullShare) (g := Gout m d) ?h5).trans (pts_oChk (F := F) d L 5 _))) $$ Ho5'
  case h5 => exact chunk_final m d L hpre fi fr G hG 5
  ihave Ho6 := (Entails.of_eq ((pointsTo_congr (q := fullShare) (g := Gout m d) ?h6).trans (pts_oChk (F := F) d L 6 _))) $$ Ho6'
  case h6 => exact chunk_final m d L hpre fi fr G hG 6
  ihave Ho7 := (Entails.of_eq ((pointsTo_congr (q := fullShare) (g := Gout m d) ?h7).trans (pts_oChk (F := F) d L 7 _))) $$ Ho7'
  case h7 => exact chunk_final m d L hpre fi fr G hG 7
  -- the read tokens of the shared copy, joined again
  ihave HGall := (Transfers.pointsTo_toks_join (ℓ := shLoc d (cV L)) (S := Finset.univ) (f := G) (shareTok fullShare 16 (jL L)) 8) $$ [HGd HG0' HG1' HG2' HG3' HG4' HG5' HG6' HG7']
  · isplitl [HGd]; · iexact HGd
    iapply (Entails.of_eq (bigSep_fin8 (F := F) _).symm)
    isplitl [HG0']; · iexact HG0'
    isplitl [HG1']; · iexact HG1'
    isplitl [HG2']; · iexact HG2'
    isplitl [HG3']; · iexact HG3'
    isplitl [HG4']; · iexact HG4'
    isplitl [HG5']; · iexact HG5'
    isplitl [HG6']; · iexact HG6'
    iexact HG7'
  unfold tdT oChunks
  isplitl [Hy2' Ht' Ho0 Ho1 Ho2 Ho3 Ho4 Ho5 Ho6 Ho7 HGall Hkeep]
  · isplitl [Hy2']; · iapply (Entails.of_eq (pts_y2 (F := F) d L _ _)); iexact Hy2'
    isplitl [Ht']; · iapply (Entails.of_eq (pts_t (F := F) d L _ _)); iexact Ht'
    isplitl [Ho0 Ho1 Ho2 Ho3 Ho4 Ho5 Ho6 Ho7]
    · iapply (Entails.of_eq (bigSep_fin8 (F := F) _).symm)
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    isplitl [HGall]; · iexists G; iexact HGall
    iexists _; iexact Hkeep
  isplitl [Hi' Hr' Hbufs]
  · isplitl [Hi']; · iexists _; iexact Hi'
    isplitl [Hr']; · iexists _; iexact Hr'
    iexact Hbufs
  isplitl [Hs0 Hs1 Hs2 Hs3 Hs4 Hs5 Hs6 Hs7 Hs8 Hs9 Hs10 Hs11 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact Hsems
  iexists _; isplitr
  swap; · iexact HO
  ipureintro; intro p hp
  repeat (rcases Finset.mem_insert.mp hp with h | hp; · first | exact .inr (.inl (h ▸ rfl)) | exact .inr (.inr (h ▸ rfl)))
  exact .inl hp

/-- The task on vector subcore `(L 0, L 1)` of device `d`. -/
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goT m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__gather_body L y2V (Memref.isWhole_whole _) tV (Memref.isWhole_whole _) oV (Memref.isWhole_whole _) iV (Memref.isWhole_whole _) rV (Memref.isWhole_whole _)
            shV (Memref.isWhole_whole _) cc0_scratch3 cc0_scratch4 cc0_scratch5 cc0_scratch6 cc0_scratch7 cc0_scratch8 cc0_scratch9 cc0_scratch10 cc0_scratch11
            cc0_scoped0 cc0_scoped1 cc0_scoped2)
          fun _ => iprop(tdT m d (cL L) (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h1 : k0_cond1 L = 1#1
  · exact tile_body_full m d L hF hpre h1 O W hO hOlev
  · exact tile_body_last m d L hF hpre h1 O W hO hOlev

end Tile

end Cert.Proof.KB

end
-- ==== Proof.KbLaunch.lean ====
/-
  The launch element of the ghost state, and what the launch deals out of it.
  The barrier half of the ghost state starts holding, for every tile's barrier cell, the cell's state before any
  arrival, and, for every ordered pair of sibling tiles, the token of the one's duty in the other's round 0. Out of
  that element, the credit the kernels' own debts are launched with, and the tiles' free counters at zero, every tile
  is dealt its kit: the invariants of its SparseCore's sixteen cells and that each has reached round 0 (persistent, so
  every tile may have them all), its own cell's position, its token in every sibling's round, and the credit for the
  sixteen arrivals at its own cell. Both SparseCores run the call, so every tile gets a kit.
-/
import proofs.«204386_g68401649156761_cont_9to1_m_854_20_alg».proof.Proof.KbSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ

/-! ## Tiles, their cells, their tokens -/

/-- A tile of the mesh: its device, its SparseCore, its number there. -/
abbrev Tl : Type := Dev nD × Fin τ.nSC × Fin τ.nSub
/-- Tile `x`'s own barrier cell, -/
abbrev ownCell (x : Tl) : GSem nD τ sig := bcell x.1 x.2.1 x.2.2
/-- and its `j`-th sibling's, `j` running over the call's grid. -/
abbrev sib (x : Tl) (j : Fin (grid0.bound 1)) : GSem nD τ sig := bcell x.1 x.2.1 (j.castLE hsub0)

/-- Every tile's barrier cell. -/
def bCells : Finset (GSem nD τ sig) := Finset.univ.image ownCell
/-- Tile `x`'s token in each sibling's round 0, for every tile `x`. -/
def bToks : Finset (GSem nD τ sig × ℕ × ℕ) :=
  Finset.univ.image fun p : Tl × Fin (grid0.bound 1) => (sib p.1 p.2, 0, p.1.2.2.val)
/-- The launch element: the handshakes' cells and tokens, the barrier's, no counter. -/
def u₀ : UU := (initOf (K (F := F)).hsCells (K (F := F)).hsToks, (initOf bCells bToks, 1))

theorem ownCell_injective : Function.Injective (ownCell : Tl → GSem nD τ sig) := by
  rintro ⟨d, c, i⟩ ⟨d', c', i'⟩ e
  cases e; rfl

theorem tok_injective :
    Function.Injective fun p : Tl × Fin (grid0.bound 1) => ((sib p.1 p.2, 0, p.1.2.2.val) : GSem nD τ sig × ℕ × ℕ) := by
  rintro ⟨⟨d, c, i⟩, j⟩ ⟨⟨d', c', i'⟩, j'⟩ e
  -- the cell names the device, the SparseCore and the sibling; the last component names the tile
  have e1 : sib (d, c, i) j = sib (d', c', i') j' := congrArg Prod.fst e
  have hi : i = i' := Fin.ext (congrArg (fun t : GSem nD τ sig × ℕ × ℕ => t.2.2) e)
  obtain ⟨rfl, h2⟩ := Prod.mk.inj (Prod.mk.inj e1).1
  obtain ⟨rfl, h3⟩ := Proc.scVector.inj h2
  have hj : j = j' := Fin.ext (congrArg Fin.val h3)
  subst hi hj; rfl

theorem sib_mem (x : Tl) (j : Fin (grid0.bound 1)) : sib x j ∈ bCells :=
  Finset.mem_image.mpr ⟨(x.1, x.2.1, j.castLE hsub0), Finset.mem_univ _, rfl⟩

/-! ## The six steps of the launch element -/

/-- The element is the handshakes' half beside the barrier's. -/
theorem split₀ (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier counter at zero is among the free counters the launch hands over: a tile's barrier semaphore is
    not scoped and is not the handshake's. -/
theorem sems₀ : ((K (F := F)).freeSems0 : sProp 𝕄) ⊢ bigSep bCells fun g => semVal g 0 := by
  unfold bCells
  rw [bigSep_image_of_injOn (fun a _ b _ e => ownCell_injective e)]
  unfold SparseCore.Cfg.freeSems0
  refine sep_elim_right.trans (bigSep_mono fun x _ => ?_)
  unfold SparseCore.Cfg.vcSems0
  exact bigSep_elim (Φ := fun sm : SemLoc sig => (semVal (V x.1 x.2.1 x.2.2, sm) 0 : sProp 𝕄))
    (Finset.mem_erase.mpr ⟨fun h => sc_bar0_ne_go (SemLoc.reg.inj h), Finset.mem_filter.mpr ⟨Finset.mem_univ _, by decide⟩⟩)

variable (m : (ℓ : Loc nD τ sig) → Buf (Elt F) ℓ) [FloatOps F]

/-- Counters at zero and round states at zero make the cells' bodies, and the bodies allocate as invariants, under
    names the update chooses. -/
theorem invs₀ : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

/-- `n` units on one cell at one index are the tally `n` there. -/
theorem units_sum (g : GSem nD τ sig) (ι : HIx 1) (n : ℕ) : ∑ _i : Fin n, tallyAt g ι 1 = (tallyAt g ι n : CellTallies nD τ sig (HIx 1)) := by
  induction n with
  | zero => rw [Finset.univ_eq_empty, Finset.sum_empty, tallyAt_zero]
  | succ n ih => rw [Fin.sum_univ_succ, ih, tallyAt_add, Nat.add_comm]

/-- What a tile is launched owing is the unit on each sibling's cell. -/
theorem oxFrom_V (d : Dev nD) (c : Fin τ.nSC) (i : Fin τ.nSub) : (P (F := F) m).oxFrom 0 (V d c i) = oxV d c := by
  rw [show (0 : ℕ) = (0 : Fin 1).val from rfl, (P m).oxFrom_step, (P m).oxFrom_end _ (n := (0 : Fin 1).val + 1) le_rfl, add_zero]
  exact if_pos (show c.val < 2 from c.isLt)

/-- On one SparseCore: sixteen tiles each owing a unit at each of the sixteen cells is, cell by cell, sixteen units. -/
theorem cred_core (d : Dev nD) (c : Fin τ.nSC) :
    (bigSep Finset.univ fun _i : Fin τ.nSub => (cred (oxV d c) : sProp 𝕄))
      = bigSep Finset.univ fun i : Fin τ.nSub => cred (tallyAt (bcell d c i) (some 0) (grid0.bound 1)) := by
  unfold oxV
  simp only [SparseCore.Cfg.cred_finsum]
  rw [bigSep_univ_comm]
  simp only [← SparseCore.Cfg.cred_finsum, units_sum]
  rfl

/-- The credit for the kernels' own debts, regrouped: each tile the sixteen units of its own cell. -/
theorem creds₀ : ((P (F := F) m).oxCred : sProp 𝕄)
    ⊢ bigSep Finset.univ fun x : Tl => cred (tallyAt (ownCell x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans (Entails.of_eq ?_))
  simp only [oxFrom_V]
  rw [bigSep_univ_prod, bigSep_univ_prod (fun x : Tl => (cred (tallyAt (ownCell x) (some 0) (grid0.bound 1)) : sProp 𝕄))]
  refine bigSep_congr fun d _ => ?_
  rw [bigSep_univ_prod, bigSep_univ_prod (fun ci : Fin τ.nSC × Fin τ.nSub => (cred (tallyAt (ownCell (d, ci)) (some 0) (grid0.bound 1)) : sProp 𝕄))]
  exact bigSep_congr fun c _ => cred_core d c

/-! ## Dealing the kits -/

/-- What the launch gives every tile alike: every barrier cell's invariant, and that each has reached round 0. -/
abbrev Common : sProp 𝕄 :=
  iprop((∃ κ : GSem nD τ sig → ℕ, bigSep bCells fun g => cellInv EB (bRd (F := F) m) (κ g) g) ∗ bigSep bCells fun g => reached EB g 0)
/-- What it gives tile `x` alone: its position, its tokens, its credit. -/
abbrev Mine (x : Tl) : sProp 𝕄 :=
  iprop(atPos EB (ownCell x) 0 ∅ 0 ∗ (bigSep Finset.univ fun j : Fin (grid0.bound 1) => dutyTok EB (sib x j) 0 x.2.2.val)
    ∗ cred (tallyAt (ownCell x) (some 0) (grid0.bound 1)))

/-- One tile's kit: of the common part it keeps its own SparseCore's cells. -/
theorem kit_of (x : Tl) : iprop(Common (F := F) m ∗ Mine x) ⊢ (bkit (F := F) m x.1 x.2.1 x.2.2 : sProp 𝕄) := by
  unfold bkit
  iintro ⟨⟨#Hinv, #Hr⟩, Hat, Htok, Hcred⟩
  isplitr
  · icases Hinv with ⟨%κ, Hinv⟩
    iexists κ
    iapply (SparseCore.ent (bigSep_intro_persistent (S := (Finset.univ : Finset (Fin (grid0.bound 1))))
      (R := bigSep bCells fun g => cellInv EB (bRd (F := F) m) (κ g) g)
      (Φ := fun j => cellInv EB (bRd (F := F) m) (κ (sib x j)) (sib x j))
      fun j _ => bigSep_elim (Φ := fun g => (cellInv EB (bRd (F := F) m) (κ g) g : sProp 𝕄)) (sib_mem x j)))
    iexact Hinv
  isplitl [Htok]; · iexact Htok
  isplitr
  · iapply (SparseCore.ent (bigSep_intro_persistent (S := (Finset.univ : Finset (Fin (grid0.bound 1))))
      (R := bigSep bCells fun g => (reached EB g 0 : sProp 𝕄))
      (Φ := fun j => reached EB (sib x j) 0)
      fun j _ => bigSep_elim (Φ := fun g => (reached EB g 0 : sProp 𝕄)) (sib_mem x j)))
    iexact Hr
  isplitl [Hat]; · iexact Hat
  iexact Hcred

theorem x_T (d : Dev nD) : (bigSep Finset.univ fun q : Fin 1 => (P (F := F) m).x q (SparseCore.T d)) = iprop(emp) :=
  bigSep_univ_of_subsingleton (0 : Fin 1)
theorem x_S (d : Dev nD) (c : Fin τ.nSC) : (bigSep Finset.univ fun q : Fin 1 => (P (F := F) m).x q (S d c)) = iprop(emp) :=
  bigSep_univ_of_subsingleton (0 : Fin 1)
/-- Both SparseCores run the call: every tile's start is its kit. -/
theorem x_V (d : Dev nD) (c : Fin τ.nSC) (i : Fin τ.nSub) :
    (bigSep Finset.univ fun q : Fin 1 => (P (F := F) m).x q (V d c i)) = bkit m d c i :=
  (bigSep_univ_of_subsingleton (0 : Fin 1)).trans (if_pos (show c.val < 2 from c.isLt))

theorem pos_eq : (bigSep bCells fun g => (atPos EB g 0 ∅ 0 : sProp 𝕄)) = bigSep Finset.univ fun x : Tl => atPos EB (ownCell x) 0 ∅ 0 :=
  bigSep_image_of_injOn (fun a _ b _ e => ownCell_injective e) _
theorem toks_eq : (bigSep bToks fun t => (dutyTok EB t.1 t.2.1 t.2.2 : sProp 𝕄))
    = bigSep Finset.univ fun x : Tl => bigSep Finset.univ fun j : Fin (grid0.bound 1) => dutyTok EB (sib x j) 0 x.2.2.val :=
  (bigSep_image_of_injOn (fun a _ b _ e => tok_injective e) _).trans (bigSep_univ_prod _)

/-- Each tile its kit; the TensorCores and the sequencers start with nothing. -/
theorem deal₀ :
    iprop(((∃ κ : GSem nD τ sig → ℕ, bigSep bCells fun g => cellInv EB (bRd (F := F) m) (κ g) g) ∗ bigSep bCells fun g => reached EB g 0)
        ∗ ((bigSep bCells fun g => atPos EB g 0 ∅ 0) ∗ (bigSep bToks fun t => dutyTok EB t.1 t.2.1 t.2.2)
          ∗ bigSep Finset.univ fun x : Tl => cred (tallyAt (ownCell x) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [x_T, x_S, x_V, bigSep_emp']
  rw [pos_eq, toks_eq, ← bigSep_sep', ← bigSep_sep']
  refine (bigSep_with_persistent (S := (Finset.univ : Finset Tl)) (R := Common (F := F) m) (Φ := Mine) fun x _ => kit_of m x).trans ?_
  iintro H
  isplitr; · iempintro
  isplitr; · iempintro
  iexact H

/-! ## The launch element -/

omit [FloatOps F] in
/-- Nothing is held from the launch: the free counters stand where held ones would, beside nothing free. -/
theorem emp_between {A B C : sProp 𝕄} : iprop(A ∗ B ∗ C) ⊢ iprop(A ∗ B ∗ emp ∗ C) := by
  iintro ⟨HA, HB, HC⟩
  isplitl [HA]; · iexact HA
  isplitl [HB]; · iexact HB
  isplitr; · iempintro
  iexact HC

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  exact emp_between.trans (SparseCore.Cfg.launch_elem (Fr := iprop(emp)) (split₀ _ _) (Rounds.fund EB (bRd (F := F) m) bCells bToks)
    (sems₀ (F := F)) (invs₀ m) (creds₀ m) (deal₀ m))

end Cert.Proof.KB

end
-- ==== Proof.KbMain.lean ====
/-
  @main on the TensorCore, and what the final memory says.
  @main reshapes the index array into 256 rows of 64, calls the two SparseCores, and returns. Before the call the
  TensorCore holds its four arrays whole. The call takes, for each SparseCore, half of a read share of the reshaped
  indices and of the table, and the result cut into its 256 runs of 64 rows, regrouped by the SparseCore, the tile
  and the block that writes each run (run `16 i + 8 c + j` is block `j` of tile `i` of SparseCore `c`: every run
  once). After the call the same pieces come back, the result's holding the lookup, and are put together again. The
  index array is never lent. At the end the three arrays the claim speaks of are held whole at known contents, and
  the final memory agrees with what is held.
-/
import proofs.«204386_g68401649156761_cont_9to1_m_854_20_alg».proof.Proof.KbSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)
open Idealize.ShloMosaic.StableHlo (held wp_hlo_within)

variable {F : FTy → Type}

local notation "𝕄" => MT nD τ sig (HIx 1) (Elt F) ℕ UU ℕ

/-! ## The 256 runs of the result: disjoint, covering, and regrouped by who writes them -/

theorem chunkSet_eq (w : Fin 256) : chunkSet w = (chunk w).set := View.set_slice_whole _ _

theorem chunks_disjoint : ∀ w ∈ (Finset.univ : Finset (Fin 256)), ∀ w' ∈ (Finset.univ : Finset (Fin 256)), w ≠ w' → Disjoint (chunkSet w) (chunkSet w') :=
  fun w _ w' _ h => by rw [chunkSet_eq, chunkSet_eq]; exact Rect.part_disjoint h256 h

theorem chunks_cover : (Finset.univ : Finset (Fin 256)).biUnion chunkSet = Finset.univ :=
  (Finset.biUnion_congr rfl fun w _ => chunkSet_eq w).trans (Rect.biUnion_part h256)

/-- Run `16 i + 8 c + j` for `c < 2`, `i < 16`, `j < 8` is every run below 256 exactly once. -/
def chunkEquiv : Fin 2 × Fin 16 × Fin 8 ≃ Fin 256 where
  toFun p := chunkIx p.1 p.2.1 p.2.2
  invFun w := (⟨w.val % 16 / 8, by omega⟩, ⟨w.val / 16, by omega⟩, ⟨w.val % 8, by omega⟩)
  left_inv := by
    rintro ⟨c, i, j⟩
    refine Prod.ext (Fin.ext ?_) (Prod.ext (Fin.ext ?_) (Fin.ext ?_)) <;> simp only [chunkIx] <;> omega
  right_inv := by
    intro w
    refine Fin.ext ?_
    simp only [chunkIx]; omega

section
variable {M : Type} [URA M]
/-- A product over the 256 runs, regrouped by SparseCore, tile and block. -/
theorem runs_regroup (Φ : Fin 256 → sProp M) :
    bigSep Finset.univ Φ = iprop((bigSep Finset.univ fun i : Fin 16 => bigSep Finset.univ fun j : Fin 8 => Φ (chunkIx 0 i j))
      ∗ bigSep Finset.univ fun i : Fin 16 => bigSep Finset.univ fun j : Fin 8 => Φ (chunkIx 1 i j)) := by
  rw [bigSep_univ_equiv chunkEquiv, bigSep_univ_prod, bigSep_univ_two, bigSep_univ_prod, bigSep_univ_prod]
  rfl
end

/-- The result held whole is its 256 runs held apart. -/
theorem o_runs (d : Dev nD) (f : Buf (Elt F) (oLoc d)) :
    (oLoc d ↦{fullShare} f : sProp 𝕄) = bigSep Finset.univ fun w : Fin 256 => oLoc d ↦[chunkSet w]{fullShare} f := by
  rw [← pointsTo_biUnion Finset.univ (ℓ := oLoc d) chunkSet chunks_disjoint, chunks_cover]; try rfl

theorem coreShare_zero : coreShare 0 = fullShare.left := rfl
theorem coreShare_one : coreShare 1 = fullShare.right := rfl

/-- A full share is the two SparseCores' halves. -/
theorem halves (ℓ : Loc nD τ sig) (g : Buf (Elt F) ℓ) :
    (ℓ ↦{fullShare} g : sProp 𝕄) ⊣⊢ iprop((ℓ ↦{coreShare 0} g) ∗ ℓ ↦{coreShare 1} g) := by
  rw [coreShare_zero, coreShare_one]; exact pointsTo_share (PosShare.mem_left_op_right fullShare)

variable (m : (ℓ : Loc nD τ sig) → Buf (Elt F) ℓ) (ρ : Dev nD → PrngReg) [FloatOps F]

/-! ## What the call takes, out of the arrays held whole, and back -/

/-- The reshaped indices, the table and the result held whole are what the two SparseCores take, -/
theorem st_intro (d : Dev nD) (f : Buf (Elt F) (oLoc d)) :
    iprop((y2Loc d ↦{fullShare} Y2 m d) ∗ (tLoc d ↦{fullShare} m (tLoc d)) ∗ oLoc d ↦{fullShare} f)
      ⊢ (iprop(stC m d 0 f ∗ stC m d 1 f) : sProp 𝕄) := by
  rw [o_runs, runs_regroup]
  iintro ⟨Hy, Ht, Ho0, Ho1⟩
  ihave Hy' := (halves (y2Loc d) (Y2 m d)).1 $$ Hy
  ihave Ht' := (halves (tLoc d) (m (tLoc d))).1 $$ Ht
  icases Hy' with ⟨Hy0, Hy1⟩
  icases Ht' with ⟨Ht0, Ht1⟩
  isplitl [Hy0 Ht0 Ho0]
  · isplitl [Hy0]; · iexact Hy0
    isplitl [Ht0]; · iexact Ht0
    iexact Ho0
  · isplitl [Hy1]; · iexact Hy1
    isplitl [Ht1]; · iexact Ht1
    iexact Ho1

/-- and what they bring back is those arrays whole again. -/
theorem st_elim (d : Dev nD) (f : Buf (Elt F) (oLoc d)) :
    iprop(stC m d 0 f ∗ stC m d 1 f)
      ⊢ (iprop((y2Loc d ↦{fullShare} Y2 m d) ∗ (tLoc d ↦{fullShare} m (tLoc d)) ∗ oLoc d ↦{fullShare} f) : sProp 𝕄) := by
  rw [o_runs, runs_regroup]
  iintro ⟨⟨Hy0, Ht0, Ho0⟩, Hy1, Ht1, Ho1⟩
  isplitl [Hy0 Hy1]
  · iapply (halves (y2Loc d) (Y2 m d)).2
    isplitl [Hy0]; · iexact Hy0
    iexact Hy1
  isplitl [Ht0 Ht1]
  · iapply (halves (tLoc d) (m (tLoc d))).2
    isplitl [Ht0]; · iexact Ht0
    iexact Ht1
  isplitl [Ho0]; · iexact Ho0
  iexact Ho1

theorem st0_eq (d : Dev nD) : (bigSep Finset.univ fun c : Fin ((K (F := F)).nCore 0) => (P m).st 0 d c)
    = iprop(stC m d 0 (m (oLoc d)) ∗ stC m d 1 (m (oLoc d))) :=
  bigSep_univ_two (fun c : Fin 2 => stC m d c (m (oLoc d)))
theorem dn0_eq (d : Dev nD) : (bigSep Finset.univ fun c : Fin ((K (F := F)).nCore 0) => (P m).dn 0 d c)
    = iprop(stC m d 0 (Gout m d) ∗ stC m d 1 (Gout m d)) :=
  bigSep_univ_two (fun c : Fin 2 => stC m d c (Gout m d))

/-! ## The TensorCore's arrays and the reshape -/

abbrev yR : DevRef τ sig := Proc.devRef .tc (main_arg0 : Ref sig .tc)
abbrev tR : DevRef τ sig := Proc.devRef .tc (main_arg1 : Ref sig .tc)
abbrev y2R : DevRef τ sig := Proc.devRef .tc (main_v0 : Ref sig .tc)
abbrev oR : DevRef τ sig := Proc.devRef .tc (main_v1 : Ref sig .tc)
/-- The reshape of the index array, as @main has it. -/
abbrev opR : HloOp τ sig (Elt F) := StableHlo.reshape main_arg0 main_v0 rfl shapeCasts_S16384_S256x64
/-- The TensorCore's arrays: the two arguments, the reshaped indices, the result; none is scoped. -/
abbrev S4 : Finset (DevRef τ sig) := {yR, tR, y2R, oR}

omit [FloatOps F] in
theorem held_S4 (d : Dev nD) (W : Valuation τ sig (Elt F)) :
    (held (SparseCore.T d) S4 W : sProp 𝕄)
      = iprop((yLoc d ↦{fullShare} W yR) ∗ (tLoc d ↦{fullShare} W tR) ∗ (y2Loc d ↦{fullShare} W y2R) ∗ oLoc d ↦{fullShare} W oR) := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((yLoc d ↦{fullShare} W main_arg0) ∗ (tLoc d ↦{fullShare} W main_arg1) ∗ (y2Loc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation of device `d`. -/
def V0 (d : Dev nD) : Valuation τ sig (Elt F) := fun b => m (d, b)

omit [FloatOps F] in
theorem unscoped_held (d : Dev nD) : (unscopedBufs d (fun b => m ((SparseCore.T d).loc b)) : sProp 𝕄) = held (SparseCore.T d) S4 (V0 m d) := by
  rw [unscopedBufs_eq, held_S4]; rfl

theorem hR : (opR (F := F)).bufs ⊆ S4 := show ({yR, y2R} : Finset (DevRef τ sig)) ⊆ S4 by decide

/-- After the reshape: the arguments and the result as launched, the reshaped indices in place. -/
theorem held_after (d : Dev nD) :
    (held (SparseCore.T d) S4 ((opR (F := F)).result (V0 m d)) : sProp 𝕄)
      = iprop((yLoc d ↦{fullShare} m (yLoc d)) ∗ (tLoc d ↦{fullShare} m (tLoc d)) ∗ (y2Loc d ↦{fullShare} Y2 m d) ∗ oLoc d ↦{fullShare} m (oLoc d)) := by
  rw [held_S4,
    (opR (F := F)).result_of_not_mem (V0 m d) (b := yR) (show yR ∉ ({y2R} : Finset (DevRef τ sig)) by decide),
    (opR (F := F)).result_of_not_mem (V0 m d) (b := tR) (show tR ∉ ({y2R} : Finset (DevRef τ sig)) by decide),
    (opR (F := F)).result_of_not_mem (V0 m d) (b := oR) (show oR ∉ ({y2R} : Finset (DevRef τ sig)) by decide),
    show (opR (F := F)).result (V0 m d) y2R = Y2 m d from StableHlo.reshape_result main_arg0 main_v0 rfl shapeCasts_S16384_S256x64 _ _ (V0 m d)]
  rfl

/-! ## @main -/

/-- What @main leaves the claim: the two arguments as launched, the result holding the lookup. -/
abbrev FIN (d : Dev nD) : sProp 𝕄 :=
  iprop((yLoc d ↦{fullShare} m (yLoc d)) ∗ (tLoc d ↦{fullShare} m (tLoc d)) ∗ oLoc d ↦{fullShare} Gout m d)

/-- @main on device `d`'s TensorCore: the reshape over the four arrays held whole; the call, which takes the reshaped
    indices, the table and the result in the SparseCores' pieces and brings them back, the result holding the lookup;
    the index array kept throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_after (F := F) m d)) $$ Hheld
  icases Hh with ⟨Hy, Ht, Hy2, Ho⟩
  -- the call: the pieces out, the pieces back
  ihave Hout := (st_intro m d (m (oLoc d))) $$ [Hy2 Ht Ho]
  · isplitl [Hy2]; · iexact Hy2
    isplitl [Ht]; · iexact Ht
    iexact Ho
  iapply ((K (F := F)).wp_run (D (F := F)) 𝒱 (EH := EH) (P := P m) κ d 0) $$ [Hst Hout Hy Hb]
  isplitr; · iexact Hctx
  isplitl [Hst]; · iexact Hst
  isplitl [Hout]
  · rw [st0_eq]; iexact Hout
  iintro ⟨Hst, Hdn⟩
  ihave Hdn' := (Entails.of_eq (dn0_eq m d)) $$ Hdn
  ihave Hback := (st_elim m d (Gout m d)) $$ Hdn'
  icases Hback with ⟨-, Ht, Ho⟩
  imodintro
  isplitl [Hst]; · iexact Hst
  isplitl [Hy]; · iexact Hy
  isplitl [Ht]; · iexact Ht
  iexact Ho

/-! ## The final memory -/

def fq (d : Dev nD) (s' : Phys nD τ sig (Elt F)) : Prop :=
  s'.mem.mem (oLoc d) = Gout m d ∧ s'.mem.mem (yLoc d) = m (yLoc d) ∧ s'.mem.mem (tLoc d) = m (tLoc d)

/-- The state interpretation agrees with each array held whole, on every element. -/
theorem hfin (d : Dev nD) (s' : Phys nD τ sig (Elt F)) : iprop(FIN m d ∗ SI s') ⊢ (⌜fq m d s'⌝ : sProp 𝕄) := by
  iintro ⟨⟨Hy, Ht, Ho⟩, HSI⟩
  icombine HSI Hy gives %hy
  icombine HSI Ht gives %ht
  icombine HSI Ho gives %ho
  ipureintro
  exact ⟨funext fun i => ho i (Finset.mem_univ i), funext fun i => hy i (Finset.mem_univ i), funext fun i => ht i (Finset.mem_univ i)⟩

end Cert.Proof.KB

end
-- ==== Proof.KbRun.lean ====
/-
  The kernel's run: from any launch memory whose index words lie in 0 … 1000, with zero counters, every weakly fair
  execution of the program's threads terminates, and on every device the result array holds the lookup of the table
  at the index words while the two arguments are unchanged.
  It is the launch theorem at this certificate's pieces. The one call is a vector-subcore kernel, so there is no
  scalar obligation. The tile obligation is one tile's task: the program's body table at a vector subcore of the
  grid is the kernel function at that subcore's coordinates (`defs₀_vector`), and what the launch hands a tile and
  takes back are the task's own pre- and postcondition, the tile named by its coordinates (`tileObl`). The split of
  a group's operands into its tiles' and the join of their results, the launch's ghost state, the entry function
  around the call and the reading of the final memory are the neighbouring modules'.
-/
import proofs.«204386_g68401649156761_cont_9to1_m_854_20_alg».proof.Proof.KbBody
import proofs.«204386_g68401649156761_cont_9to1_m_854_20_alg».proof.Proof.KbSplit
import proofs.«204386_g68401649156761_cont_9to1_m_854_20_alg».proof.Proof.KbLaunch
import proofs.«204386_g68401649156761_cont_9to1_m_854_20_alg».proof.Proof.KbMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (shareTok shareDrop)

variable {F : FTy → Type}

local notation "𝕄" => MT nD τ sig (HIx 1) (Elt F) ℕ UU ℕ
local notation "y2V" => (Memref.whole Cert.Kernel.main_v0_scv : Memref Cert.Kernel.sig Kind.scVector Space.hbm Cert.Kernel.S256x64 EltTy.i32)
local notation "tV" => (Memref.whole Cert.Kernel.main_arg1_scv : Memref Cert.Kernel.sig Kind.scVector Space.hbm Cert.Kernel.S1001x128 EltTy.f32)
local notation "oV" => (Memref.whole Cert.Kernel.main_v1_scv : Memref Cert.Kernel.sig Kind.scVector Space.hbm Cert.Kernel.S16384x128 EltTy.f32)
local notation "shV" => (Memref.whole Cert.Kernel.cc0_scratch2 : Memref Cert.Kernel.sig Kind.scVector Space.shared Cert.Kernel.S1024x128 EltTy.f32)
local notation "iV" => (Memref.whole Cert.Kernel.cc0_scratch0 : Memref Cert.Kernel.sig Kind.scVector Space.vmem Cert.Kernel.S8x64 EltTy.i32)
local notation "rV" => (Memref.whole Cert.Kernel.cc0_scratch1 : Memref Cert.Kernel.sig Kind.scVector Space.vmem Cert.Kernel.S8x64x128 EltTy.f32)

/-! ## The tile obligation -/

section Obl

variable (m : (ℓ : Loc nD τ sig) → Buf (Elt F) ℓ)
variable [FloatOps F]

/-- The grid point of vector subcore `s` of group `c`. -/
def coordsV (c : Fin (grid0.bound 0)) (s : Fin (grid0.bound 1)) : grid0.Coords :=
  fun | 0 => c | 1 => s | ⟨_ + 2, h⟩ => absurd h (Nat.not_lt.2 (Nat.le_add_left _ _))

/-- The body table at a vector subcore: inside the grid, the kernel function at the subcore's grid point, over the
    whole arrays and the subcore's scratch. -/
theorem defs₀_vector (c : Fin τ.nSC) (s : Fin τ.nSub) :
    defs₀ (F := F) (.scVector c s) 0 ()
      = SparseCore.onTile hcore0 hsub0 (fun c s => cc0__gather_body (coordsV c s)
          y2V (Memref.isWhole_whole _) tV (Memref.isWhole_whole _) oV (Memref.isWhole_whole _) iV (Memref.isWhole_whole _) rV (Memref.isWhole_whole _)
          shV (Memref.isWhole_whole _) cc0_scratch3 cc0_scratch4 cc0_scratch5 cc0_scratch6 cc0_scratch7 cc0_scratch8 cc0_scratch9 cc0_scratch10 cc0_scratch11
          cc0_scoped0 cc0_scoped1 cc0_scoped2) ⟨⟩ c s := rfl

set_option maxRecDepth 16384 in
/-- What the launch asks of a tile is the task's statement at the tile's grid point: both groups of the topology are
    in the grid, so the tile's share of the barrier and its debt there are the certificate's; the lifted body table
    runs the kernel function; and the operands handed over and brought back name the tile by the same two numbers. -/
theorem tileObl (hF : (K (F := F)).Facts) (hpre : PreOK m) : (K (F := F)).TileObl (D (F := F)) 𝒱 (P m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from if_pos hc,
    show (P m).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Obl

/-! ## The run -/

/-- The final state read at the three arrays: the result at the lookup, the arguments at their launch contents. -/
def QC (m : (ℓ : Loc nD τ sig) → Buf (Elt F) ℓ) : PUnit × MemSt nD τ sig (Elt F) → Prop :=
  fun r => ∀ c : Dev nD, r.2.mem (oLoc c) = Gout m c ∧ r.2.mem (yLoc c) = m (yLoc c) ∧ r.2.mem (tLoc c) = m (tLoc c)

theorem run_main [FloatOps F] [∀ e, Nonempty (Elt F e)] (m : (ℓ : Loc nD τ sig) → Buf (Elt F) ℓ) (ρ : Dev nD → PrngReg)
    (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (hu₀ m) (hmain m ρ) (fq m) (hfin m) (QC m) (fun _ h => h)

end Cert.Proof.KB

end
-- ==== Proof.RefRun.lean ====
/-
  The reference program's run. Its entry function is one call of a function that itself makes one call; with both
  bodies put at their calls it is a straight line of twenty-three operations over the calls' buffers. Every weakly
  fair execution of it terminates with the result buffer at the operations' composed value of the two arguments'
  launch contents, and the arguments unchanged. No precondition is needed for this.

  The composed value, in steps: an index word below zero has the table's row count 1001 added to it (`wrapped`);
  the words are laid out as one column (`startCol`); a row is "in range" when its word lies in 0 … 1000
  (`inRange`, the conjunction over the column's one entry, then copied along each row of 128); the result is the
  table's rows gathered at the column where the row is in range, and a fixed literal elsewhere (`value`).
-/
import proofs.«204386_g68401649156761_cont_9to1_m_854_20_alg».proof.ReferenceIdeal
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-! ## The composed value -/

/-- Each index word, with 1001 added where it is below zero as a signed integer. -/
def wrapped (y : IVec S16384 32) : IVec S16384 32 :=
  select (cmpi .slt y (broadcastInDim S16384 ![] bcast_S_S16384 (constantI S_ 32 0#32)))
    (addi y (broadcastInDim S16384 ![] bcast_S_S16384 (constantI S_ 32 1001#32))) y

/-- Those words as a column: entry `(r, 0)` is word `r`. -/
def startCol (y : IVec S16384 32) : IVec S16384x1 32 :=
  broadcastInDim S16384x1 ![0] bcast_S16384_S16384x1_0 (wrapped y)

/-- Entry `(r, k)` is the bit "word `r` of the column is at least 0 and at most 1000", for every `k`. -/
def inRange (y : IVec S16384 32) : IVec S16384x128 1 :=
  broadcastInDim S16384x128 ![0] bcast_S16384_S16384x128_0
    (Host.reduce IntOp.andi
      (andi
        (cmpi .sge (startCol y) (broadcastInDim S16384x1 ![] bcast_S_S16384x1 (constantI S_ 32 0#32)))
        (cmpi .sle (startCol y)
          (broadcastInDim S16384x1 ![0, 1] bcast_S1x1_S16384x1_0_1
            (broadcastInDim S1x1 ![1] bcast_S1_S1x1_1 (constantI S1 32 1000#32)))))
      (constantI S_ 1 1#1) reducesTo_S16384x1_S16384_d1 h_S_)

/-- The table's rows gathered at the column of start rows. -/
def gathered (y : IVec S16384 32) (t : FVec F S1001x128 .f32) : FVec F S16384x128 .f32 :=
  Host.gather gather_S1001x128_S16384x1_S16384x128_1_0_n_n_0_1_1128 t (startCol y)

/-- What the program computes from the index words `y` and the table `t`: the gathered row where the row's word is
    in range, a fixed literal elsewhere. -/
def value (y : IVec S16384 32) (t : FVec F S1001x128 .f32) : FVec F S16384x128 .f32 :=
  select (inRange y) (gathered y t)
    (broadcastInDim S16384x128 ![] bcast_S_S16384x128 (constant S_ .f32 0x7FC00000#32))

/-! ## The program as a straight line -/

/-- The twenty-three operations in order: six of the outer function, the inner function's one select, then the outer
    function's remaining sixteen. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1001#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 1000#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1001x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- The entry function is that straight line: with the two function bodies put at their calls and the buffer
    records read at their fields, both sides are one chain of steps once sequencing is reassociated. -/
theorem main_eq (c : Dev nD) : main (F := F) c = seq ops := by
  simp only [main, fn_take.body, fn_where.body, seq, bind_assoc, pure_bind]

attribute [local irreducible] Host.reduce Host.gather in
set_option maxRecDepth 8192 in
set_option maxHeartbeats 400000 in
/-- After the line, the result buffer holds `value` of the two arguments' contents: each operation writes its own
    buffer with its function of the buffers it reads, and the chain of those reads is `value`'s definition. The
    reduction and the gather are kept folded: the equation never looks inside them. -/
theorem value_eq (V : Valuation τ sig (Elt F)) :
    after ops V (main_v0 : DevRef τ sig)
      = value (V (main_arg0 : DevRef τ sig)) (V (main_arg1 : DevRef τ sig)) := by
  after_results
  rfl

/-- No operation writes the first argument. -/
theorem arg0_eq (V : Valuation τ sig (Elt F)) :
    after ops V (main_arg0 : DevRef τ sig) = V (main_arg0 : DevRef τ sig) := by
  simp only [after_cons, after_nil]
  rfl

/-- No operation writes the second argument. -/
theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches only buffers the running thread can name. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- For any float values, from any memory with zero counters: every weakly fair execution of the program
    terminates with the result buffer at `value` of the arguments' launch contents, and the arguments unchanged. -/
theorem run_value (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (value_eq _),
      (h c main_arg0).trans (arg0_eq _),
      (h c main_arg1).trans (arg1_eq _)⟩)
    (run_seq scopedRefs_eq scopedSems_eq defs main (fun _ => ops) main_eq (fun _ => ops_sub) m ρ)

end Cert.RefSide

end
-- ==== Proof.RefValue.lean ====
/-
  The reference program's value under the precondition. Under it every index word is a signed integer in 0 … 1000.
  Then no word is below zero, so none has 1001 added (`wrapped_apply`); the column of start rows holds the words
  themselves (`startCol_apply`); every row is in range, so the in-range bit is 1 at every entry (`inRange_apply`);
  and the gather reads, at entry `(r, k)`, the table at row "word `r` clamped into 0 … 1000" and column `k`
  (`gathered_apply`): the start row plus no batch and no offset coordinate on the row axis, no start and the
  result's column as the offset on the column axis. That is the specification's lookup (`value_eq_lookup`), and
  with the run of the program to its composed value it gives the run to the lookup (`run`).
-/
import proofs.«204386_g68401649156761_cont_9to1_m_854_20_alg».proof.Defs
import proofs.«204386_g68401649156761_cont_9to1_m_854_20_alg».proof.Proof.Spec
import proofs.«204386_g68401649156761_cont_9to1_m_854_20_alg».proof.Proof.PreFacts
import proofs.«204386_g68401649156761_cont_9to1_m_854_20_alg».proof.Proof.RefRun
import Idealize.ShloMosaic.Lib.ValueIdx
import Idealize.ShloMosaic.Lib.Pipeline.Value
import Idealize.ShloMosaic.Lib.ReduceAll

noncomputable section

namespace Cert.RefSide

open Cert.ReferenceIdeal Idealize.ShloMosaic Idealize.ShloMosaic.ValueIdx Idealize.SL.Sem
open Cert.ReferenceIdeal.Facts₀

/-! ## A reduction by `and` of ones -/

/-- A left fold by `and` over one-bit words that starts at 1 and meets only 1s ends at 1. -/
theorem foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, _, h => foldl_andi_one f hf l _ (IntOp.andi_eq_one.2 ⟨h, hf a⟩)

/-- A reduction by `and`, from the initial value 1, of an array that is 1 at every index is 1 at every result index. -/
theorem reduce_andi_of_all_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl]
  exact foldl_andi_one x hx _ _ hi

variable {F : FTy → Type} [FloatOps F] [Cert.ReferenceIdeal.Facts]

/-! ## The steps of the value, read at an index -/

/-- A word that is not below zero is left as it is. -/
theorem wrapped_apply (y : IVec S16384 32) (r : Fin 16384) (h0 : 0 ≤ (y (ix1 r)).toInt) :
    wrapped y (ix1 r) = y (ix1 r) := by
  have hc : IntOp.cmpi .slt (y (ix1 r)) 0#32 = 0#1 :=
    eq_zero_of_ne_one fun h => by
      have hlt := IntOp.cmpi_slt.1 h
      have e0 : (0#32 : BitVec 32).toInt = 0 := by decide
      omega
  show Scalar.select (IntOp.cmpi .slt (y (ix1 r)) 0#32) _ _ = _
  rw [hc, select_zero]

/-- The column's entry in row `r` is word `r`. -/
theorem startCol_apply (y : IVec S16384 32) (r : Fin 16384) (z : Fin 1) :
    startCol y (ix2 r z) = wrapped y (ix1 r) := by
  unfold startCol
  refine broadcastInDim_apply (s := S16384) (t := S16384x1) ![0] bcast_S16384_S16384x1_0 (wrapped y) (ix2 r z) (ix1 r) ?_
  intro a
  match a with
  | ⟨0, _⟩ =>
    show r.val = if (16384 : ℕ) = 1 then 0 else r.val
    rw [if_neg (by omega)]

/-- With every word in 0 … 1000 the in-range bit is 1 at every entry: each row's one comparison pair holds, so the
    conjunction over the row is 1, and that bit is copied along the row. -/
theorem inRange_apply (y : IVec S16384 32)
    (hr : ∀ r : Fin 16384, 0 ≤ (y (ix1 r)).toInt ∧ (y (ix1 r)).toInt ≤ 1000) (r : Fin 16384) (k : Fin 128) :
    inRange y (ix2 r k) = 1#1 := by
  unfold inRange
  refine (broadcastInDim_apply (s := S16384) (t := S16384x128) ![0] bcast_S16384_S16384x128_0 _ (ix2 r k) (ix1 r) ?_).trans ?_
  · intro a
    match a with
    | ⟨0, _⟩ =>
      show r.val = if (16384 : ℕ) = 1 then 0 else r.val
      rw [if_neg (by omega)]
  · refine reduce_andi_of_all_one _ _ _ _ _ rfl ?_
    intro i
    obtain ⟨r', z, rfl⟩ : ∃ (r' : Fin 16384) (z : Fin 1), i = ix2 r' z := ⟨i 0, i 1, eq_ix2 i⟩
    have hs : startCol y (ix2 r' z) = y (ix1 r') := (startCol_apply y r' z).trans (wrapped_apply y r' (hr r').1)
    show IntOp.andi (IntOp.cmpi .sge (startCol y (ix2 r' z)) 0#32) (IntOp.cmpi .sle (startCol y (ix2 r' z)) 1000#32) = 1#1
    rw [hs]
    have e0 : (0#32 : BitVec 32).toInt = 0 := by decide
    have e1 : (1000#32 : BitVec 32).toInt = 1000 := by decide
    exact IntOp.andi_eq_one.2 ⟨IntOp.cmpi_sge.2 (by rw [e0]; exact (hr r').1), IntOp.cmpi_sle.2 (by rw [e1]; exact (hr r').2)⟩

/-- The gather at entry `(r, k)`: the table at the row "the column's entry in row `r`, read signed and clamped into
    0 … 1000" and at column `k`. -/
theorem gathered_apply (y : IVec S16384 32) (t : FVec F S1001x128 .f32) (r : Fin 16384) (k : Fin 128) :
    gathered y t (ix2 r k)
      = t (ix2 (⟨min (startCol y (ix2 r (0 : Fin 1))).toInt.toNat 1000, by omega⟩ : Fin 1001) k) := by
  unfold gathered Host.gather
  refine congrArg t ?_
  funext a
  refine Fin.ext ?_
  match a with
  | ⟨0, _⟩ =>
    -- the row axis: collapsed, named by the start index map
    show gather_S1001x128_S16384x1_S16384x128_1_0_n_n_0_1_1128.start (ix2 r k) (startCol y) (0 : Fin 2)
        + gather_S1001x128_S16384x1_S16384x128_1_0_n_n_0_1_1128.batchCoord (ix2 r k) (0 : Fin 2)
        + gather_S1001x128_S16384x1_S16384x128_1_0_n_n_0_1_1128.offCoord (ix2 r k) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1001x128_S16384x1_S16384x128_1_0_n_n_0_1_1128.startIndexMap
      from List.mem_singleton.mpr rfl)]
    have hsi : gather_S1001x128_S16384x1_S16384x128_1_0_n_n_0_1_1128.siIdx (ix2 r k)
        ⟨List.idxOf (0 : Fin 2) gather_S1001x128_S16384x1_S16384x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the column axis: kept, not named by the start index map; its offset is the result's column
    show gather_S1001x128_S16384x1_S16384x128_1_0_n_n_0_1_1128.start (ix2 r k) (startCol y) (1 : Fin 2)
        + gather_S1001x128_S16384x1_S16384x128_1_0_n_n_0_1_1128.batchCoord (ix2 r k) (1 : Fin 2)
        + gather_S1001x128_S16384x1_S16384x128_1_0_n_n_0_1_1128.offCoord (ix2 r k) (1 : Fin 2) = k.val
    rw [GatherDims.batchCoord_eq_zero _ _ _ List.not_mem_nil]
    unfold GatherDims.start
    rw [dif_neg (show (1 : Fin 2) ∉ gather_S1001x128_S16384x1_S16384x128_1_0_n_n_0_1_1128.startIndexMap
      from show (1 : Fin 2) ∉ ([0] : List (Fin 2)) by decide)]
    unfold GatherDims.offCoord
    rw [dif_pos ((GatherDims.mem_sKept _ _).mpr
      ⟨show (1 : Fin 2) ∉ ([0] : List (Fin 2)) by decide, List.not_mem_nil⟩)]
    -- the result has one offset axis, axis 1: whatever valid position is read in the list of offset axes, it is that one
    have hoff : ∀ (n : Nat) (h : n < gather_S1001x128_S16384x1_S16384x128_1_0_n_n_0_1_1128.offsetDims.length),
        gather_S1001x128_S16384x1_S16384x128_1_0_n_n_0_1_1128.offsetDims[n]'h = (1 : Fin 2) := by
      intro n h
      have hl : gather_S1001x128_S16384x1_S16384x128_1_0_n_n_0_1_1128.offsetDims.length = 1 := rfl
      have hn : n = 0 := by omega
      subst hn
      rfl
    rw [hoff]
    show 0 + 0 + k.val = k.val
    omega

/-! ## The value is the lookup -/

/-- At entry `(r, k)`: the in-range bit is 1, so the entry is the gather's, and the gather's row is word `r`
    clamped into 0 … 1000: the row the specification names. -/
theorem value_apply (y : IVec S16384 32) (t : FVec F S1001x128 .f32)
    (hr : ∀ r : Fin 16384, 0 ≤ (y (ix1 r)).toInt ∧ (y (ix1 r)).toInt ≤ 1000) (r : Fin 16384) (k : Fin 128) :
    value y t (ix2 r k) = Cert.Spec.lookup y t (ix2 r k) := by
  have hs : startCol y (ix2 r (0 : Fin 1)) = y (ix1 r) := (startCol_apply y r 0).trans (wrapped_apply y r (hr r).1)
  unfold value
  rw [select_apply, inRange_apply y hr r k, select_one, gathered_apply, Cert.Spec.lookup_ix2]
  refine congrArg t (congrArg (fun a => ix2 a k) (Fin.ext ?_))
  show min (startCol y (ix2 r (0 : Fin 1))).toInt.toNat 1000 = min (y (ix1 r)).toInt.toNat 1000
  rw [hs]

/-- With every index word in 0 … 1000 the program's composed value is the lookup. -/
theorem value_eq_lookup (y : IVec S16384 32) (t : FVec F S1001x128 .f32)
    (hr : ∀ r : Fin 16384, 0 ≤ (y (ix1 r)).toInt ∧ (y (ix1 r)).toInt ≤ 1000) :
    value y t = Cert.Spec.lookup y t := by
  funext i
  obtain ⟨r, k, rfl⟩ : ∃ (r : Fin 16384) (k : Fin 128), i = ix2 r k := ⟨i 0, i 1, eq_ix2 i⟩
  exact value_apply y t hr r k

/-! ## The run to the lookup -/

/-- From any memory of which the precondition holds, with zero counters: every weakly fair execution of the
    program terminates with the result buffer at the lookup of the table at the index words, and the two arguments
    unchanged. -/
theorem run [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Spec.lookup (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run _ _ _).mono (fun _ h c => ⟨(h c).1.trans (value_eq_lookup _ _ (Cert.PreFacts.index_range _ _ (hpre c))), (h c).2⟩)
    (run_value m g)

end Cert.RefSide

end
-- ==== Proof.lean ====
/-
  The certificate's claim, assembled. The kernel is an embedding lookup: row `r` of the result is the row of the
  table that index word `r` names. It is computed by thirty-two tiles in two groups of sixteen: each tile stages a
  slab of at most 64 table rows into its group's shared copy of the table, meets the other fifteen at a barrier,
  after which it may read the whole copy, and gathers out of it its 512 rows of the result, eight blocks of 64.
  The kernel's run is proved once, for any float values, and read here at the machine words and at the extended
  reals: from a memory whose index words lie in 0 … 1000 every execution terminates with the result at the
  specification's lookup of the two arguments and the arguments unchanged. Each frame is such a run with the
  value dropped. No operation was rewritten between the kernel's two readings, so there is nothing for the
  idealization to preserve. The algebraic claim pairs the kernel's run at the extended reals with the reference's
  run: both end at the lookup of their arguments, and the arguments agree.
-/
import proofs.«204386_g68401649156761_cont_9to1_m_854_20_alg».proof.Defs
import proofs.«204386_g68401649156761_cont_9to1_m_854_20_alg».proof.Proof.Gen.Kernel
import proofs.«204386_g68401649156761_cont_9to1_m_854_20_alg».proof.Proof.Gen.Kernel.Skeleton
import proofs.«204386_g68401649156761_cont_9to1_m_854_20_alg».proof.Proof.Gen.KernelIdeal
import proofs.«204386_g68401649156761_cont_9to1_m_854_20_alg».proof.Proof.Gen.KernelIdeal.Skeleton
import proofs.«204386_g68401649156761_cont_9to1_m_854_20_alg».proof.Proof.Gen.ReferenceIdeal
import proofs.«204386_g68401649156761_cont_9to1_m_854_20_alg».proof.Proof.Gen.Pre_input_domain
import proofs.«204386_g68401649156761_cont_9to1_m_854_20_alg».proof.Proof.KiRun
import proofs.«204386_g68401649156761_cont_9to1_m_854_20_alg».proof.Proof.KbRun
import proofs.«204386_g68401649156761_cont_9to1_m_854_20_alg».proof.Proof.RefValue
import Idealize.ShloMosaic.Adequacy
import Idealize.ShloMosaic.Init

noncomputable section

namespace Cert.Proof

open Idealize.ShloMosaic Idealize.SL.Sem

/-- The kernel at the machine words: its run, read at the two arguments. -/
theorem frame_Kernel : Cert.frame_Kernel := fun m g hpre =>
  (θ_run Cert.Kernel.defs _ _).mono (fun _ h c => ⟨(h c).2.1, (h c).2.2⟩)
    (Cert.Proof.KB.run_main (F := Bits) m g (Cert.Proof.KB.ok_of_fn m hpre))

/-- The kernel at the extended reals: the same run, read at the two arguments. -/
theorem frame_KernelIdeal : Cert.frame_KernelIdeal := fun m g hpre =>
  (θ_run Cert.KernelIdeal.defs _ _).mono (fun _ h c => ⟨(h c).2.1, (h c).2.2⟩)
    (Cert.Proof.KI.run_main (F := Ideal) m g (Cert.Proof.KI.ok_of_fn m hpre))

/-- The reference: its run to the lookup, read at the two arguments. -/
theorem frame_ReferenceIdeal : Cert.frame_ReferenceIdeal := fun m g hpre =>
  (θ_run Cert.ReferenceIdeal.defs _ _).mono (fun _ h c => (h c).2) (Cert.RefSide.run m g hpre)

/-- Both programs end at the lookup of their own arguments; the reference's arguments are the kernel's, so the two
    results are one array, and the precondition, which reads the arguments only, passes from one memory to the other. -/
theorem algebraic : Cert.algebraic_KernelIdeal_ReferenceIdeal := by
  intro m g m' g' hpre hagree
  have hpre' : Cert.Pre_ReferenceIdeal m' := by
    intro c
    have e0 := (hagree c).1
    have e1 := (hagree c).2
    rw [e0, e1]
    exact hpre c
  refine ⟨fun c => Cert.Proof.KI.Gout m c,
    (θ_run Cert.KernelIdeal.defs _ _).mono (fun _ h c => h c)
      (Cert.Proof.KI.run_main (F := Ideal) m g (Cert.Proof.KI.ok_of_fn m hpre)),
    (θ_run Cert.ReferenceIdeal.defs _ _).mono (fun _ h c => ⟨?_, (h c).2⟩) (Cert.RefSide.run m' g' hpre')⟩
  have e0 := (hagree c).1
  have e1 := (hagree c).2
  rw [(h c).1, e0, e1]
  rfl

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
